-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x128x64x64 : Shape := ⟨4, ![32, 128, 64, 64]⟩
abbrev S128x128x3x3 : Shape := ⟨4, ![128, 128, 3, 3]⟩
abbrev S128 : Shape := ⟨1, ![128]⟩
abbrev S_ : Shape := ⟨0, ![]⟩

class Facts : Prop where
  bcast_S_S32x128x64x64 : S_.BroadcastsInDim S32x128x64x64 (![] : Fin 0 → Fin S32x128x64x64.rank)
  reducesTo_S32x128x64x64_S_d0_1_2_3 : S32x128x64x64.ReducesTo [0, 1, 2, 3] S_
  h_S_ : 0 < S_.numel
  bcast_S_S128x128x3x3 : S_.BroadcastsInDim S128x128x3x3 (![] : Fin 0 → Fin S128x128x3x3.rank)
  reducesTo_S128x128x3x3_S_d0_1_2_3 : S128x128x3x3.ReducesTo [0, 1, 2, 3] S_
  bcast_S_S128 : S_.BroadcastsInDim S128 (![] : Fin 0 → Fin S128.rank)
  reducesTo_S128_S_d0 : S128.ReducesTo [0] S_

variable [Facts]

def fn {F : FTy → Type} [FloatOps F] (main_arg0 : FVec F S32x128x64x64 .f32) (main_arg1 : FVec F S128x128x3x3 .f32) (main_arg2 : FVec F S128 .f32) : IVec S_ 1 :=
  let main_v0 : FVec F S32x128x64x64 .f32 := Host.absf main_arg0
  let main_cst : FVec F S_ .f32 := constant S_ .f32 0x7F800000#32
  let main_v1 : FVec F S32x128x64x64 .f32 := broadcastInDim S32x128x64x64 ![] bcast_S_S32x128x64x64 main_cst
  let main_v2 : IVec S32x128x64x64 1 := cmpf .olt main_v0 main_v1
  let main_c : IVec S_ 1 := constantI S_ 1 1#1
  let main_v3 : IVec S_ 1 := (fun x v => Host.reduce IntOp.andi x v reducesTo_S32x128x64x64_S_d0_1_2_3 h_S_) main_v2 main_c
  let main_v4 : FVec F S128x128x3x3 .f32 := Host.absf main_arg1
  let main_cst_0 : FVec F S_ .f32 := constant S_ .f32 0x7F800000#32
  let main_v5 : FVec F S128x128x3x3 .f32 := broadcastInDim S128x128x3x3 ![] bcast_S_S128x128x3x3 main_cst_0
  let main_v6 : IVec S128x128x3x3 1 := cmpf .olt main_v4 main_v5
  let main_c_1 : IVec S_ 1 := constantI S_ 1 1#1
  let main_v7 : IVec S_ 1 := (fun x v => Host.reduce IntOp.andi x v reducesTo_S128x128x3x3_S_d0_1_2_3 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S32x128x64x64 : Shape := ⟨4, ![32, 128, 64, 64]⟩
abbrev S128x128x3x3 : Shape := ⟨4, ![128, 128, 3, 3]⟩
abbrev S128 : Shape := ⟨1, ![128]⟩
abbrev S_ : Shape := ⟨0, ![]⟩
abbrev S32x128x66x66 : Shape := ⟨4, ![32, 128, 66, 66]⟩
abbrev S32x128x33x2x33x2 : Shape := ⟨6, ![32, 128, 33, 2, 33, 2]⟩
abbrev S32x2x2x128x33x33 : Shape := ⟨6, ![32, 2, 2, 128, 33, 33]⟩
abbrev S32x512x1089 : Shape := ⟨3, ![32, 512, 1089]⟩
abbrev S32x512x1152 : Shape := ⟨3, ![32, 512, 1152]⟩
abbrev S128x3x3x128 : Shape := ⟨4, ![128, 3, 3, 128]⟩
abbrev S128x1152 : Shape := ⟨2, ![128, 1152]⟩
abbrev S128x1 : Shape := ⟨2, ![128, 1]⟩
abbrev S32x128x1024 : Shape := ⟨3, ![32, 128, 1024]⟩
abbrev S1x512x1152 : Shape := ⟨3, ![1, 512, 1152]⟩
abbrev S1x128x1024 : Shape := ⟨3, ![1, 128, 1024]⟩
abbrev S1152x1056 : Shape := ⟨2, ![1152, 1056]⟩
abbrev S1x128x1056 : Shape := ⟨3, ![1, 128, 1056]⟩
abbrev S128x1056 : Shape := ⟨2, ![128, 1056]⟩
abbrev S128x32 : Shape := ⟨2, ![128, 32]⟩
abbrev S1x128x32 : Shape := ⟨3, ![1, 128, 32]⟩
abbrev S32x128x32x32 : Shape := ⟨4, ![32, 128, 32, 32]⟩

abbrev nBuf : Space → Nat
  | .hbm => 19
  | .vmem => 7
  | .smem => 0
  | _ => 0

abbrev bufTy : (tb : Table) → Fin (tcTables nBuf tb) → BufTy
  | .hbm, ⟨0, _⟩ => ⟨S32x128x64x64, .f32⟩
  | .hbm, ⟨1, _⟩ => ⟨S128x128x3x3, .f32⟩
  | .hbm, ⟨2, _⟩ => ⟨S128, .f32⟩
  | .hbm, ⟨3, _⟩ => ⟨S_, .i32⟩
  | .hbm, ⟨4, _⟩ => ⟨S_, .f32⟩
  | .hbm, ⟨5, _⟩ => ⟨S32x128x66x66, .f32⟩
  | .hbm, ⟨6, _⟩ => ⟨S32x128x33x2x33x2, .f32⟩
  | .hbm, ⟨7, _⟩ => ⟨S32x2x2x128x33x33, .f32⟩
  | .hbm, ⟨8, _⟩ => ⟨S32x512x1089, .f32⟩
  | .hbm, ⟨9, _⟩ => ⟨S_, .i32⟩
  | .hbm, ⟨10, _⟩ => ⟨S_, .f32⟩
  | .hbm, ⟨11, _⟩ => ⟨S32x512x1152, .f32⟩
  | .hbm, ⟨12, _⟩ => ⟨S32x512x1152, .bf16⟩
  | .hbm, ⟨13, _⟩ => ⟨S128x3x3x128, .f32⟩
  | .hbm, ⟨14, _⟩ => ⟨S128x1152, .f32⟩
  | .hbm, ⟨15, _⟩ => ⟨S128x1152, .bf16⟩
  | .hbm, ⟨16, _⟩ => ⟨S128x1, .f32⟩
  | .hbm, ⟨17, _⟩ => ⟨S32x128x1024, .f32⟩
  | .hbm, ⟨18, _⟩ => ⟨S32x128x32x32, .f32⟩
  | .local _ .vmem, ⟨0, _⟩ => ⟨S1x512x1152, .bf16⟩
  | .local _ .vmem, ⟨1, _⟩ => ⟨S1x512x1152, .bf16⟩
  | .local _ .vmem, ⟨2, _⟩ => ⟨S128x1152, .bf16⟩
  | .local _ .vmem, ⟨3, _⟩ => ⟨S128x1, .f32⟩
  | .local _ .vmem, ⟨4, _⟩ => ⟨S1x128x1024, .f32⟩
  | .local _ .vmem, ⟨5, _⟩ => ⟨S1x128x1024, .f32⟩
  | .local _ .vmem, ⟨6, _⟩ => ⟨S1152x1056, .bf16⟩
  | _, _ => ⟨S32x128x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_call1_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1152 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  pads_S32x128x64x64_S32x128x66x66_000_000_110_110 : S32x128x64x64.Pads (![0, 0, 1, 1] : Fin 4 → Nat) ![0, 0, 1, 1] ![0, 0, 0, 0] S32x128x66x66
  h_S_ : 0 < S_.numel
  shapeCasts_S32x128x66x66_S32x128x33x2x33x2 : S32x128x66x66.ShapeCasts S32x128x33x2x33x2
  transposes_S32x128x33x2x33x2_S32x2x2x128x33x33_0_3_5_1_2_4 : S32x128x33x2x33x2.Transposes [0, 3, 5, 1, 2, 4] S32x2x2x128x33x33
  shapeCasts_S32x2x2x128x33x33_S32x512x1089 : S32x2x2x128x33x33.ShapeCasts S32x512x1089
  pads_S32x512x1089_S32x512x1152_000_000_0630 : S32x512x1089.Pads (![0, 0, 0] : Fin 3 → Nat) ![0, 0, 63] ![0, 0, 0] S32x512x1152
  bitsLt_bf16_f32 : FTy.bits .bf16 < FTy.bits .f32
  transposes_S128x128x3x3_S128x3x3x128_0_2_3_1 : S128x128x3x3.Transposes [0, 2, 3, 1] S128x3x3x128
  shapeCasts_S128x3x3x128_S128x1152 : S128x3x3x128.ShapeCasts S128x1152
  shapeCasts_S128_S128x1 : S128.ShapeCasts S128x1
  inb_S1x512x1152_S1x128x1056_0_0_0 : ∀ a, (![0, 0, 0] : Fin 3 → Nat) a + S1x128x1056.size a ≤ S1x512x1152.size a
  h_S1x128x1056 : 0 < S1x128x1056.numel
  shapeCasts_S1x128x1056_S128x1056 : S1x128x1056.ShapeCasts S128x1056
  inb_S1152x1056_S128x1056_0_0 : ∀ a, (![0, 0] : Fin 2 → Nat) a + S128x1056.size a ≤ S1152x1056.size a
  h_S128x1056 : 0 < S128x1056.numel
  shapeCasts_S128x1056_S128x1056 : S128x1056.ShapeCasts S128x1056
  packedbf16_S1152x1056_S128x1056_0_0 : (Rect.unit (s := S1152x1056) ![0, 0] S128x1056.size inb_S1152x1056_S128x1056_0_0).PackedRows (EltTy.packing .bf16)
  inb_S1x512x1152_S1x128x1056_0_128_0 : ∀ a, (![0, 128, 0] : Fin 3 → Nat) a + S1x128x1056.size a ≤ S1x512x1152.size a
  inb_S1152x1056_S128x1056_128_0 : ∀ a, (![128, 0] : Fin 2 → Nat) a + S128x1056.size a ≤ S1152x1056.size a
  packedbf16_S1152x1056_S128x1056_128_0 : (Rect.unit (s := S1152x1056) ![128, 0] S128x1056.size inb_S1152x1056_S128x1056_128_0).PackedRows (EltTy.packing .bf16)
  inb_S1x512x1152_S1x128x1056_0_0_1 : ∀ a, (![0, 0, 1] : Fin 3 → Nat) a + S1x128x1056.size a ≤ S1x512x1152.size a
  inb_S1152x1056_S128x1056_256_0 : ∀ a, (![256, 0] : Fin 2 → Nat) a + S128x1056.size a ≤ S1152x1056.size a
  packedbf16_S1152x1056_S128x1056_256_0 : (Rect.unit (s := S1152x1056) ![256, 0] S128x1056.size inb_S1152x1056_S128x1056_256_0).PackedRows (EltTy.packing .bf16)
  inb_S1x512x1152_S1x128x1056_0_256_0 : ∀ a, (![0, 256, 0] : Fin 3 → Nat) a + S1x128x1056.size a ≤ S1x512x1152.size a
  inb_S1152x1056_S128x1056_384_0 : ∀ a, (![384, 0] : Fin 2 → Nat) a + S128x1056.size a ≤ S1152x1056.size a
  packedbf16_S1152x1056_S128x1056_384_0 : (Rect.unit (s := S1152x1056) ![384, 0] S128x1056.size inb_S1152x1056_S128x1056_384_0).PackedRows (EltTy.packing .bf16)
  inb_S1x512x1152_S1x128x1056_0_384_0 : ∀ a, (![0, 384, 0] : Fin 3 → Nat) a + S1x128x1056.size a ≤ S1x512x1152.size a
  inb_S1152x1056_S128x1056_512_0 : ∀ a, (![512, 0] : Fin 2 → Nat) a + S128x1056.size a ≤ S1152x1056.size a
  packedbf16_S1152x1056_S128x1056_512_0 : (Rect.unit (s := S1152x1056) ![512, 0] S128x1056.size inb_S1152x1056_S128x1056_512_0).PackedRows (EltTy.packing .bf16)
  inb_S1x512x1152_S1x128x1056_0_256_1 : ∀ a, (![0, 256, 1] : Fin 3 → Nat) a + S1x128x1056.size a ≤ S1x512x1152.size a
  inb_S1152x1056_S128x1056_640_0 : ∀ a, (![640, 0] : Fin 2 → Nat) a + S128x1056.size a ≤ S1152x1056.size a
  packedbf16_S1152x1056_S128x1056_640_0 : (Rect.unit (s := S1152x1056) ![640, 0] S128x1056.size inb_S1152x1056_S128x1056_640_0).PackedRows (EltTy.packing .bf16)
  inb_S1x512x1152_S1x128x1056_0_0_33 : ∀ a, (![0, 0, 33] : Fin 3 → Nat) a + S1x128x1056.size a ≤ S1x512x1152.size a
  inb_S1152x1056_S128x1056_768_0 : ∀ a, (![768, 0] : Fin 2 → Nat) a + S128x1056.size a ≤ S1152x1056.size a
  packedbf16_S1152x1056_S128x1056_768_0 : (Rect.unit (s := S1152x1056) ![768, 0] S128x1056.size inb_S1152x1056_S128x1056_768_0).PackedRows (EltTy.packing .bf16)
  inb_S1x512x1152_S1x128x1056_0_128_33 : ∀ a, (![0, 128, 33] : Fin 3 → Nat) a + S1x128x1056.size a ≤ S1x512x1152.size a
  inb_S1152x1056_S128x1056_896_0 : ∀ a, (![896, 0] : Fin 2 → Nat) a + S128x1056.size a ≤ S1152x1056.size a
  packedbf16_S1152x1056_S128x1056_896_0 : (Rect.unit (s := S1152x1056) ![896, 0] S128x1056.size inb_S1152x1056_S128x1056_896_0).PackedRows (EltTy.packing .bf16)
  inb_S1x512x1152_S1x128x1056_0_0_34 : ∀ a, (![0, 0, 34] : Fin 3 → Nat) a + S1x128x1056.size a ≤ S1x512x1152.size a
  inb_S1152x1056_S128x1056_1024_0 : ∀ a, (![1024, 0] : Fin 2 → Nat) a + S128x1056.size a ≤ S1152x1056.size a
  packedbf16_S1152x1056_S128x1056_1024_0 : (Rect.unit (s := S1152x1056) ![1024, 0] S128x1056.size inb_S1152x1056_S128x1056_1024_0).PackedRows (EltTy.packing .bf16)
  inb_S128x1152_S128x1152_0_0 : ∀ a, (![0, 0] : Fin 2 → Nat) a + S128x1152.size a ≤ S128x1152.size a
  h_S128x1152 : 0 < S128x1152.numel
  shapeCasts_S128x1152_S128x1152 : S128x1152.ShapeCasts S128x1152
  inb_S1152x1056_S1152x1056_0_0 : ∀ a, (![0, 0] : Fin 2 → Nat) a + S1152x1056.size a ≤ S1152x1056.size a
  h_S1152x1056 : 0 < S1152x1056.numel
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x1056 : S128x1.Broadcasts S128x1056
  slices_S128x1056_o0_0_S128x32 : S128x1056.Slices ![0, 0] S128x32
  inb_S1x128x1024_S1x128x32_0_0_0 : ∀ a, (![0, 0, 0] : Fin 3 → Nat) a + S1x128x32.size a ≤ S1x128x1024.size a
  h_S1x128x32 : 0 < S1x128x32.numel
  shapeCasts_S1x128x32_S128x32 : S1x128x32.ShapeCasts S128x32
  shapeCasts_S128x32_S1x128x32 : S128x32.ShapeCasts S1x128x32
  slices_S128x1056_o0_33_S128x32 : S128x1056.Slices ![0, 33] S128x32
  inb_S1x128x1024_S1x128x32_0_0_32 : ∀ a, (![0, 0, 32] : Fin 3 → Nat) a + S1x128x32.size a ≤ S1x128x1024.size a
  slices_S128x1056_o0_66_S128x32 : S128x1056.Slices ![0, 66] S128x32
  inb_S1x128x1024_S1x128x32_0_0_64 : ∀ a, (![0, 0, 64] : Fin 3 → Nat) a + S1x128x32.size a ≤ S1x128x1024.size a
  slices_S128x1056_o0_99_S128x32 : S128x1056.Slices ![0, 99] S128x32
  inb_S1x128x1024_S1x128x32_0_0_96 : ∀ a, (![0, 0, 96] : Fin 3 → Nat) a + S1x128x32.size a ≤ S1x128x1024.size a
  slices_S128x1056_o0_132_S128x32 : S128x1056.Slices ![0, 132] S128x32
  inb_S1x128x1024_S1x128x32_0_0_128 : ∀ a, (![0, 0, 128] : Fin 3 → Nat) a + S1x128x32.size a ≤ S1x128x1024.size a
  slices_S128x1056_o0_165_S128x32 : S128x1056.Slices ![0, 165] S128x32
  inb_S1x128x1024_S1x128x32_0_0_160 : ∀ a, (![0, 0, 160] : Fin 3 → Nat) a + S1x128x32.size a ≤ S1x128x1024.size a
  slices_S128x1056_o0_198_S128x32 : S128x1056.Slices ![0, 198] S128x32
  inb_S1x128x1024_S1x128x32_0_0_192 : ∀ a, (![0, 0, 192] : Fin 3 → Nat) a + S1x128x32.size a ≤ S1x128x1024.size a
  slices_S128x1056_o0_231_S128x32 : S128x1056.Slices ![0, 231] S128x32
  inb_S1x128x1024_S1x128x32_0_0_224 : ∀ a, (![0, 0, 224] : Fin 3 → Nat) a + S1x128x32.size a ≤ S1x128x1024.size a
  slices_S128x1056_o0_264_S128x32 : S128x1056.Slices ![0, 264] S128x32
  inb_S1x128x1024_S1x128x32_0_0_256 : ∀ a, (![0, 0, 256] : Fin 3 → Nat) a + S1x128x32.size a ≤ S1x128x1024.size a
  slices_S128x1056_o0_297_S128x32 : S128x1056.Slices ![0, 297] S128x32
  inb_S1x128x1024_S1x128x32_0_0_288 : ∀ a, (![0, 0, 288] : Fin 3 → Nat) a + S1x128x32.size a ≤ S1x128x1024.size a
  slices_S128x1056_o0_330_S128x32 : S128x1056.Slices ![0, 330] S128x32
  inb_S1x128x1024_S1x128x32_0_0_320 : ∀ a, (![0, 0, 320] : Fin 3 → Nat) a + S1x128x32.size a ≤ S1x128x1024.size a
  slices_S128x1056_o0_363_S128x32 : S128x1056.Slices ![0, 363] S128x32
  inb_S1x128x1024_S1x128x32_0_0_352 : ∀ a, (![0, 0, 352] : Fin 3 → Nat) a + S1x128x32.size a ≤ S1x128x1024.size a
  slices_S128x1056_o0_396_S128x32 : S128x1056.Slices ![0, 396] S128x32
  inb_S1x128x1024_S1x128x32_0_0_384 : ∀ a, (![0, 0, 384] : Fin 3 → Nat) a + S1x128x32.size a ≤ S1x128x1024.size a
  slices_S128x1056_o0_429_S128x32 : S128x1056.Slices ![0, 429] S128x32
  inb_S1x128x1024_S1x128x32_0_0_416 : ∀ a, (![0, 0, 416] : Fin 3 → Nat) a + S1x128x32.size a ≤ S1x128x1024.size a
  slices_S128x1056_o0_462_S128x32 : S128x1056.Slices ![0, 462] S128x32
  inb_S1x128x1024_S1x128x32_0_0_448 : ∀ a, (![0, 0, 448] : Fin 3 → Nat) a + S1x128x32.size a ≤ S1x128x1024.size a
  slices_S128x1056_o0_495_S128x32 : S128x1056.Slices ![0, 495] S128x32
  inb_S1x128x1024_S1x128x32_0_0_480 : ∀ a, (![0, 0, 480] : Fin 3 → Nat) a + S1x128x32.size a ≤ S1x128x1024.size a
  slices_S128x1056_o0_528_S128x32 : S128x1056.Slices ![0, 528] S128x32
  inb_S1x128x1024_S1x128x32_0_0_512 : ∀ a, (![0, 0, 512] : Fin 3 → Nat) a + S1x128x32.size a ≤ S1x128x1024.size a
  slices_S128x1056_o0_561_S128x32 : S128x1056.Slices ![0, 561] S128x32
  inb_S1x128x1024_S1x128x32_0_0_544 : ∀ a, (![0, 0, 544] : Fin 3 → Nat) a + S1x128x32.size a ≤ S1x128x1024.size a
  slices_S128x1056_o0_594_S128x32 : S128x1056.Slices ![0, 594] S128x32
  inb_S1x128x1024_S1x128x32_0_0_576 : ∀ a, (![0, 0, 576] : Fin 3 → Nat) a + S1x128x32.size a ≤ S1x128x1024.size a
  slices_S128x1056_o0_627_S128x32 : S128x1056.Slices ![0, 627] S128x32
  inb_S1x128x1024_S1x128x32_0_0_608 : ∀ a, (![0, 0, 608] : Fin 3 → Nat) a + S1x128x32.size a ≤ S1x128x1024.size a
  slices_S128x1056_o0_660_S128x32 : S128x1056.Slices ![0, 660] S128x32
  inb_S1x128x1024_S1x128x32_0_0_640 : ∀ a, (![0, 0, 640] : Fin 3 → Nat) a + S1x128x32.size a ≤ S1x128x1024.size a
  slices_S128x1056_o0_693_S128x32 : S128x1056.Slices ![0, 693] S128x32
  inb_S1x128x1024_S1x128x32_0_0_672 : ∀ a, (![0, 0, 672] : Fin 3 → Nat) a + S1x128x32.size a ≤ S1x128x1024.size a
  slices_S128x1056_o0_726_S128x32 : S128x1056.Slices ![0, 726] S128x32
  inb_S1x128x1024_S1x128x32_0_0_704 : ∀ a, (![0, 0, 704] : Fin 3 → Nat) a + S1x128x32.size a ≤ S1x128x1024.size a
  slices_S128x1056_o0_759_S128x32 : S128x1056.Slices ![0, 759] S128x32
  inb_S1x128x1024_S1x128x32_0_0_736 : ∀ a, (![0, 0, 736] : Fin 3 → Nat) a + S1x128x32.size a ≤ S1x128x1024.size a
  slices_S128x1056_o0_792_S128x32 : S128x1056.Slices ![0, 792] S128x32
  inb_S1x128x1024_S1x128x32_0_0_768 : ∀ a, (![0, 0, 768] : Fin 3 → Nat) a + S1x128x32.size a ≤ S1x128x1024.size a
  slices_S128x1056_o0_825_S128x32 : S128x1056.Slices ![0, 825] S128x32
  inb_S1x128x1024_S1x128x32_0_0_800 : ∀ a, (![0, 0, 800] : Fin 3 → Nat) a + S1x128x32.size a ≤ S1x128x1024.size a
  slices_S128x1056_o0_858_S128x32 : S128x1056.Slices ![0, 858] S128x32
  inb_S1x128x1024_S1x128x32_0_0_832 : ∀ a, (![0, 0, 832] : Fin 3 → Nat) a + S1x128x32.size a ≤ S1x128x1024.size a
  slices_S128x1056_o0_891_S128x32 : S128x1056.Slices ![0, 891] S128x32
  inb_S1x128x1024_S1x128x32_0_0_864 : ∀ a, (![0, 0, 864] : Fin 3 → Nat) a + S1x128x32.size a ≤ S1x128x1024.size a
  slices_S128x1056_o0_924_S128x32 : S128x1056.Slices ![0, 924] S128x32
  inb_S1x128x1024_S1x128x32_0_0_896 : ∀ a, (![0, 0, 896] : Fin 3 → Nat) a + S1x128x32.size a ≤ S1x128x1024.size a
  slices_S128x1056_o0_957_S128x32 : S128x1056.Slices ![0, 957] S128x32
  inb_S1x128x1024_S1x128x32_0_0_928 : ∀ a, (![0, 0, 928] : Fin 3 → Nat) a + S1x128x32.size a ≤ S1x128x1024.size a
  slices_S128x1056_o0_990_S128x32 : S128x1056.Slices ![0, 990] S128x32
  inb_S1x128x1024_S1x128x32_0_0_960 : ∀ a, (![0, 0, 960] : Fin 3 → Nat) a + S1x128x32.size a ≤ S1x128x1024.size a
  slices_S128x1056_o0_1023_S128x32 : S128x1056.Slices ![0, 1023] S128x32
  inb_S1x128x1024_S1x128x32_0_0_992 : ∀ a, (![0, 0, 992] : Fin 3 → Nat) a + S1x128x32.size a ≤ S1x128x1024.size a
  shapeCasts_S32x128x1024_S32x128x32x32 : S32x128x1024.ShapeCasts S32x128x32x32
  dot_S128x1152_S1152x1056_S128x1056_1_0_0_1_n_n_wf : DotDims.WF S128x1152 S1152x1056 S128x1056 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1152.size a ≤ S32x512x1152.size a
  hwx0_0 : ∀ i : grid0.Coords, EltTy.bits .bf16 = 32 ∨ (Rect.block (s := S32x512x1152) S1x512x1152.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x1152.size a ≤ S128x1152.size a
  hwx0_1 : ∀ i : grid0.Coords, EltTy.bits .bf16 = 32 ∨ (Rect.block (s := S128x1152) S128x1152.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S128x1.size a
  hwx0_2 : ∀ i : grid0.Coords, EltTy.bits .f32 = 32 ∨ (Rect.block (s := S128x1) S128x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x1024.size a ≤ S32x128x1024.size a
  hwx0_3 : ∀ i : grid0.Coords, EltTy.bits .f32 = 32 ∨ (Rect.block (s := S32x128x1024) S1x128x1024.size (cc0_transform_3 i) (hinb0_3 i)).WholeWords (EltTy.packing .f32)

variable [Facts₀]

def dot_S128x1152_S1152x1056_S128x1056_1_0_0_1_n_n : DotDims S128x1152 S1152x1056 S128x1056 where
  lhsContracting := [1]
  rhsContracting := [0]
  lhsNonContracting := [0]
  rhsNonContracting := [1]
  lhsBatch := []
  rhsBatch := []
  wf := dot_S128x1152_S1152x1056_S128x1056_1_0_0_1_n_n_wf

abbrev win0_0 : Pipeline.Window sig grid0 :=
  Pipeline.Window.ofSpec (Memref.whole main_v5) S1x512x1152.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S128x1152.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S128x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x128x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x128x64x64 : Shape := ⟨4, ![32, 128, 64, 64]⟩
abbrev S128x128x3x3 : Shape := ⟨4, ![128, 128, 3, 3]⟩
abbrev S128 : Shape := ⟨1, ![128]⟩
abbrev S_ : Shape := ⟨0, ![]⟩
abbrev S32x128x66x66 : Shape := ⟨4, ![32, 128, 66, 66]⟩
abbrev S32x128x33x2x33x2 : Shape := ⟨6, ![32, 128, 33, 2, 33, 2]⟩
abbrev S32x2x2x128x33x33 : Shape := ⟨6, ![32, 2, 2, 128, 33, 33]⟩
abbrev S32x512x33x33 : Shape := ⟨4, ![32, 512, 33, 33]⟩
abbrev S128x3x3x128 : Shape := ⟨4, ![128, 3, 3, 128]⟩
abbrev S128x1152 : Shape := ⟨2, ![128, 1152]⟩
abbrev S128x1 : Shape := ⟨2, ![128, 1]⟩
abbrev S32x128x1024 : Shape := ⟨3, ![32, 128, 1024]⟩
abbrev S1x512x33x33 : Shape := ⟨4, ![1, 512, 33, 33]⟩
abbrev S1x128x1024 : Shape := ⟨3, ![1, 128, 1024]⟩
abbrev S1152x1024 : Shape := ⟨2, ![1152, 1024]⟩
abbrev S1x128x1x32 : Shape := ⟨4, ![1, 128, 1, 32]⟩
abbrev S128x32 : Shape := ⟨2, ![128, 32]⟩
abbrev S128x1024 : Shape := ⟨2, ![128, 1024]⟩
abbrev S32x128x32x32 : Shape := ⟨4, ![32, 128, 32, 32]⟩

abbrev nBuf : Space → Nat
  | .hbm => 14
  | .vmem => 7
  | .smem => 0
  | _ => 0

abbrev bufTy : (tb : Table) → Fin (tcTables nBuf tb) → BufTy
  | .hbm, ⟨0, _⟩ => ⟨S32x128x64x64, .f32⟩
  | .hbm, ⟨1, _⟩ => ⟨S128x128x3x3, .f32⟩
  | .hbm, ⟨2, _⟩ => ⟨S128, .f32⟩
  | .hbm, ⟨3, _⟩ => ⟨S_, .i32⟩
  | .hbm, ⟨4, _⟩ => ⟨S_, .f32⟩
  | .hbm, ⟨5, _⟩ => ⟨S32x128x66x66, .f32⟩
  | .hbm, ⟨6, _⟩ => ⟨S32x128x33x2x33x2, .f32⟩
  | .hbm, ⟨7, _⟩ => ⟨S32x2x2x128x33x33, .f32⟩
  | .hbm, ⟨8, _⟩ => ⟨S32x512x33x33, .f32⟩
  | .hbm, ⟨9, _⟩ => ⟨S128x3x3x128, .f32⟩
  | .hbm, ⟨10, _⟩ => ⟨S128x1152, .f32⟩
  | .hbm, ⟨11, _⟩ => ⟨S128x1, .f32⟩
  | .hbm, ⟨12, _⟩ => ⟨S32x128x1024, .f32⟩
  | .hbm, ⟨13, _⟩ => ⟨S32x128x32x32, .f32⟩
  | .local _ .vmem, ⟨0, _⟩ => ⟨S1x512x33x33, .f32⟩
  | .local _ .vmem, ⟨1, _⟩ => ⟨S1x512x33x33, .f32⟩
  | .local _ .vmem, ⟨2, _⟩ => ⟨S128x1152, .f32⟩
  | .local _ .vmem, ⟨3, _⟩ => ⟨S128x1, .f32⟩
  | .local _ .vmem, ⟨4, _⟩ => ⟨S1x128x1024, .f32⟩
  | .local _ .vmem, ⟨5, _⟩ => ⟨S1x128x1024, .f32⟩
  | .local _ .vmem, ⟨6, _⟩ => ⟨S1152x1024, .f32⟩
  | _, _ => ⟨S32x128x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x33x33 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1152 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  pads_S32x128x64x64_S32x128x66x66_000_000_110_110 : S32x128x64x64.Pads (![0, 0, 1, 1] : Fin 4 → Nat) ![0, 0, 1, 1] ![0, 0, 0, 0] S32x128x66x66
  h_S_ : 0 < S_.numel
  shapeCasts_S32x128x66x66_S32x128x33x2x33x2 : S32x128x66x66.ShapeCasts S32x128x33x2x33x2
  transposes_S32x128x33x2x33x2_S32x2x2x128x33x33_0_3_5_1_2_4 : S32x128x33x2x33x2.Transposes [0, 3, 5, 1, 2, 4] S32x2x2x128x33x33
  shapeCasts_S32x2x2x128x33x33_S32x512x33x33 : S32x2x2x128x33x33.ShapeCasts S32x512x33x33
  transposes_S128x128x3x3_S128x3x3x128_0_2_3_1 : S128x128x3x3.Transposes [0, 2, 3, 1] S128x3x3x128
  shapeCasts_S128x3x3x128_S128x1152 : S128x3x3x128.ShapeCasts S128x1152
  shapeCasts_S128_S128x1 : S128.ShapeCasts S128x1
  inb_S1x512x33x33_S1x128x1x32_0_0_0_0 : ∀ a, (![0, 0, 0, 0] : Fin 4 → Nat) a + S1x128x1x32.size a ≤ S1x512x33x33.size a
  h_S1x128x1x32 : 0 < S1x128x1x32.numel
  shapeCasts_S1x128x1x32_S128x32 : S1x128x1x32.ShapeCasts S128x32
  inb_S1152x1024_S128x32_0_0 : ∀ a, (![0, 0] : Fin 2 → Nat) a + S128x32.size a ≤ S1152x1024.size a
  h_S128x32 : 0 < S128x32.numel
  shapeCasts_S128x32_S128x32 : S128x32.ShapeCasts S128x32
  inb_S1x512x33x33_S1x128x1x32_0_0_1_0 : ∀ a, (![0, 0, 1, 0] : Fin 4 → Nat) a + S1x128x1x32.size a ≤ S1x512x33x33.size a
  inb_S1152x1024_S128x32_0_32 : ∀ a, (![0, 32] : Fin 2 → Nat) a + S128x32.size a ≤ S1152x1024.size a
  inb_S1x512x33x33_S1x128x1x32_0_0_2_0 : ∀ a, (![0, 0, 2, 0] : Fin 4 → Nat) a + S1x128x1x32.size a ≤ S1x512x33x33.size a
  inb_S1152x1024_S128x32_0_64 : ∀ a, (![0, 64] : Fin 2 → Nat) a + S128x32.size a ≤ S1152x1024.size a
  inb_S1x512x33x33_S1x128x1x32_0_0_3_0 : ∀ a, (![0, 0, 3, 0] : Fin 4 → Nat) a + S1x128x1x32.size a ≤ S1x512x33x33.size a
  inb_S1152x1024_S128x32_0_96 : ∀ a, (![0, 96] : Fin 2 → Nat) a + S128x32.size a ≤ S1152x1024.size a
  inb_S1x512x33x33_S1x128x1x32_0_0_4_0 : ∀ a, (![0, 0, 4, 0] : Fin 4 → Nat) a + S1x128x1x32.size a ≤ S1x512x33x33.size a
  inb_S1152x1024_S128x32_0_128 : ∀ a, (![0, 128] : Fin 2 → Nat) a + S128x32.size a ≤ S1152x1024.size a
  inb_S1x512x33x33_S1x128x1x32_0_0_5_0 : ∀ a, (![0, 0, 5, 0] : Fin 4 → Nat) a + S1x128x1x32.size a ≤ S1x512x33x33.size a
  inb_S1152x1024_S128x32_0_160 : ∀ a, (![0, 160] : Fin 2 → Nat) a + S128x32.size a ≤ S1152x1024.size a
  inb_S1x512x33x33_S1x128x1x32_0_0_6_0 : ∀ a, (![0, 0, 6, 0] : Fin 4 → Nat) a + S1x128x1x32.size a ≤ S1x512x33x33.size a
  inb_S1152x1024_S128x32_0_192 : ∀ a, (![0, 192] : Fin 2 → Nat) a + S128x32.size a ≤ S1152x1024.size a
  inb_S1x512x33x33_S1x128x1x32_0_0_7_0 : ∀ a, (![0, 0, 7, 0] : Fin 4 → Nat) a + S1x128x1x32.size a ≤ S1x512x33x33.size a
  inb_S1152x1024_S128x32_0_224 : ∀ a, (![0, 224] : Fin 2 → Nat) a + S128x32.size a ≤ S1152x1024.size a
  inb_S1x512x33x33_S1x128x1x32_0_0_8_0 : ∀ a, (![0, 0, 8, 0] : Fin 4 → Nat) a + S1x128x1x32.size a ≤ S1x512x33x33.size a
  inb_S1152x1024_S128x32_0_256 : ∀ a, (![0, 256] : Fin 2 → Nat) a + S128x32.size a ≤ S1152x1024.size a
  inb_S1x512x33x33_S1x128x1x32_0_0_9_0 : ∀ a, (![0, 0, 9, 0] : Fin 4 → Nat) a + S1x128x1x32.size a ≤ S1x512x33x33.size a
  inb_S1152x1024_S128x32_0_288 : ∀ a, (![0, 288] : Fin 2 → Nat) a + S128x32.size a ≤ S1152x1024.size a
  inb_S1x512x33x33_S1x128x1x32_0_0_10_0 : ∀ a, (![0, 0, 10, 0] : Fin 4 → Nat) a + S1x128x1x32.size a ≤ S1x512x33x33.size a
  inb_S1152x1024_S128x32_0_320 : ∀ a, (![0, 320] : Fin 2 → Nat) a + S128x32.size a ≤ S1152x1024.size a
  inb_S1x512x33x33_S1x128x1x32_0_0_11_0 : ∀ a, (![0, 0, 11, 0] : Fin 4 → Nat) a + S1x128x1x32.size a ≤ S1x512x33x33.size a
  inb_S1152x1024_S128x32_0_352 : ∀ a, (![0, 352] : Fin 2 → Nat) a + S128x32.size a ≤ S1152x1024.size a
  inb_S1x512x33x33_S1x128x1x32_0_0_12_0 : ∀ a, (![0, 0, 12, 0] : Fin 4 → Nat) a + S1x128x1x32.size a ≤ S1x512x33x33.size a
  inb_S1152x1024_S128x32_0_384 : ∀ a, (![0, 384] : Fin 2 → Nat) a + S128x32.size a ≤ S1152x1024.size a
  inb_S1x512x33x33_S1x128x1x32_0_0_13_0 : ∀ a, (![0, 0, 13, 0] : Fin 4 → Nat) a + S1x128x1x32.size a ≤ S1x512x33x33.size a
  inb_S1152x1024_S128x32_0_416 : ∀ a, (![0, 416] : Fin 2 → Nat) a + S128x32.size a ≤ S1152x1024.size a
  inb_S1x512x33x33_S1x128x1x32_0_0_14_0 : ∀ a, (![0, 0, 14, 0] : Fin 4 → Nat) a + S1x128x1x32.size a ≤ S1x512x33x33.size a
  inb_S1152x1024_S128x32_0_448 : ∀ a, (![0, 448] : Fin 2 → Nat) a + S128x32.size a ≤ S1152x1024.size a
  inb_S1x512x33x33_S1x128x1x32_0_0_15_0 : ∀ a, (![0, 0, 15, 0] : Fin 4 → Nat) a + S1x128x1x32.size a ≤ S1x512x33x33.size a
  inb_S1152x1024_S128x32_0_480 : ∀ a, (![0, 480] : Fin 2 → Nat) a + S128x32.size a ≤ S1152x1024.size a
  inb_S1x512x33x33_S1x128x1x32_0_0_16_0 : ∀ a, (![0, 0, 16, 0] : Fin 4 → Nat) a + S1x128x1x32.size a ≤ S1x512x33x33.size a
  inb_S1152x1024_S128x32_0_512 : ∀ a, (![0, 512] : Fin 2 → Nat) a + S128x32.size a ≤ S1152x1024.size a
  inb_S1x512x33x33_S1x128x1x32_0_0_17_0 : ∀ a, (![0, 0, 17, 0] : Fin 4 → Nat) a + S1x128x1x32.size a ≤ S1x512x33x33.size a
  inb_S1152x1024_S128x32_0_544 : ∀ a, (![0, 544] : Fin 2 → Nat) a + S128x32.size a ≤ S1152x1024.size a
  inb_S1x512x33x33_S1x128x1x32_0_0_18_0 : ∀ a, (![0, 0, 18, 0] : Fin 4 → Nat) a + S1x128x1x32.size a ≤ S1x512x33x33.size a
  inb_S1152x1024_S128x32_0_576 : ∀ a, (![0, 576] : Fin 2 → Nat) a + S128x32.size a ≤ S1152x1024.size a
  inb_S1x512x33x33_S1x128x1x32_0_0_19_0 : ∀ a, (![0, 0, 19, 0] : Fin 4 → Nat) a + S1x128x1x32.size a ≤ S1x512x33x33.size a
  inb_S1152x1024_S128x32_0_608 : ∀ a, (![0, 608] : Fin 2 → Nat) a + S128x32.size a ≤ S1152x1024.size a
  inb_S1x512x33x33_S1x128x1x32_0_0_20_0 : ∀ a, (![0, 0, 20, 0] : Fin 4 → Nat) a + S1x128x1x32.size a ≤ S1x512x33x33.size a
  inb_S1152x1024_S128x32_0_640 : ∀ a, (![0, 640] : Fin 2 → Nat) a + S128x32.size a ≤ S1152x1024.size a
  inb_S1x512x33x33_S1x128x1x32_0_0_21_0 : ∀ a, (![0, 0, 21, 0] : Fin 4 → Nat) a + S1x128x1x32.size a ≤ S1x512x33x33.size a
  inb_S1152x1024_S128x32_0_672 : ∀ a, (![0, 672] : Fin 2 → Nat) a + S128x32.size a ≤ S1152x1024.size a
  inb_S1x512x33x33_S1x128x1x32_0_0_22_0 : ∀ a, (![0, 0, 22, 0] : Fin 4 → Nat) a + S1x128x1x32.size a ≤ S1x512x33x33.size a
  inb_S1152x1024_S128x32_0_704 : ∀ a, (![0, 704] : Fin 2 → Nat) a + S128x32.size a ≤ S1152x1024.size a
  inb_S1x512x33x33_S1x128x1x32_0_0_23_0 : ∀ a, (![0, 0, 23, 0] : Fin 4 → Nat) a + S1x128x1x32.size a ≤ S1x512x33x33.size a
  inb_S1152x1024_S128x32_0_736 : ∀ a, (![0, 736] : Fin 2 → Nat) a + S128x32.size a ≤ S1152x1024.size a
  inb_S1x512x33x33_S1x128x1x32_0_0_24_0 : ∀ a, (![0, 0, 24, 0] : Fin 4 → Nat) a + S1x128x1x32.size a ≤ S1x512x33x33.size a
  inb_S1152x1024_S128x32_0_768 : ∀ a, (![0, 768] : Fin 2 → Nat) a + S128x32.size a ≤ S1152x1024.size a
  inb_S1x512x33x33_S1x128x1x32_0_0_25_0 : ∀ a, (![0, 0, 25, 0] : Fin 4 → Nat) a + S1x128x1x32.size a ≤ S1x512x33x33.size a
  inb_S1152x1024_S128x32_0_800 : ∀ a, (![0, 800] : Fin 2 → Nat) a + S128x32.size a ≤ S1152x1024.size a
  inb_S1x512x33x33_S1x128x1x32_0_0_26_0 : ∀ a, (![0, 0, 26, 0] : Fin 4 → Nat) a + S1x128x1x32.size a ≤ S1x512x33x33.size a
  inb_S1152x1024_S128x32_0_832 : ∀ a, (![0, 832] : Fin 2 → Nat) a + S128x32.size a ≤ S1152x1024.size a
  inb_S1x512x33x33_S1x128x1x32_0_0_27_0 : ∀ a, (![0, 0, 27, 0] : Fin 4 → Nat) a + S1x128x1x32.size a ≤ S1x512x33x33.size a
  inb_S1152x1024_S128x32_0_864 : ∀ a, (![0, 864] : Fin 2 → Nat) a + S128x32.size a ≤ S1152x1024.size a
  inb_S1x512x33x33_S1x128x1x32_0_0_28_0 : ∀ a, (![0, 0, 28, 0] : Fin 4 → Nat) a + S1x128x1x32.size a ≤ S1x512x33x33.size a
  inb_S1152x1024_S128x32_0_896 : ∀ a, (![0, 896] : Fin 2 → Nat) a + S128x32.size a ≤ S1152x1024.size a
  inb_S1x512x33x33_S1x128x1x32_0_0_29_0 : ∀ a, (![0, 0, 29, 0] : Fin 4 → Nat) a + S1x128x1x32.size a ≤ S1x512x33x33.size a
  inb_S1152x1024_S128x32_0_928 : ∀ a, (![0, 928] : Fin 2 → Nat) a + S128x32.size a ≤ S1152x1024.size a
  inb_S1x512x33x33_S1x128x1x32_0_0_30_0 : ∀ a, (![0, 0, 30, 0] : Fin 4 → Nat) a + S1x128x1x32.size a ≤ S1x512x33x33.size a
  inb_S1152x1024_S128x32_0_960 : ∀ a, (![0, 960] : Fin 2 → Nat) a + S128x32.size a ≤ S1152x1024.size a
  inb_S1x512x33x33_S1x128x1x32_0_0_31_0 : ∀ a, (![0, 0, 31, 0] : Fin 4 → Nat) a + S1x128x1x32.size a ≤ S1x512x33x33.size a
  inb_S1152x1024_S128x32_0_992 : ∀ a, (![0, 992] : Fin 2 → Nat) a + S128x32.size a ≤ S1152x1024.size a
  inb_S1x512x33x33_S1x128x1x32_0_128_0_0 : ∀ a, (![0, 128, 0, 0] : Fin 4 → Nat) a + S1x128x1x32.size a ≤ S1x512x33x33.size a
  inb_S1152x1024_S128x32_128_0 : ∀ a, (![128, 0] : Fin 2 → Nat) a + S128x32.size a ≤ S1152x1024.size a
  inb_S1x512x33x33_S1x128x1x32_0_128_1_0 : ∀ a, (![0, 128, 1, 0] : Fin 4 → Nat) a + S1x128x1x32.size a ≤ S1x512x33x33.size a
  inb_S1152x1024_S128x32_128_32 : ∀ a, (![128, 32] : Fin 2 → Nat) a + S128x32.size a ≤ S1152x1024.size a
  inb_S1x512x33x33_S1x128x1x32_0_128_2_0 : ∀ a, (![0, 128, 2, 0] : Fin 4 → Nat) a + S1x128x1x32.size a ≤ S1x512x33x33.size a
  inb_S1152x1024_S128x32_128_64 : ∀ a, (![128, 64] : Fin 2 → Nat) a + S128x32.size a ≤ S1152x1024.size a
  inb_S1x512x33x33_S1x128x1x32_0_128_3_0 : ∀ a, (![0, 128, 3, 0] : Fin 4 → Nat) a + S1x128x1x32.size a ≤ S1x512x33x33.size a
  inb_S1152x1024_S128x32_128_96 : ∀ a, (![128, 96] : Fin 2 → Nat) a + S128x32.size a ≤ S1152x1024.size a
  inb_S1x512x33x33_S1x128x1x32_0_128_4_0 : ∀ a, (![0, 128, 4, 0] : Fin 4 → Nat) a + S1x128x1x32.size a ≤ S1x512x33x33.size a
  inb_S1152x1024_S128x32_128_128 : ∀ a, (![128, 128] : Fin 2 → Nat) a + S128x32.size a ≤ S1152x1024.size a
  inb_S1x512x33x33_S1x128x1x32_0_128_5_0 : ∀ a, (![0, 128, 5, 0] : Fin 4 → Nat) a + S1x128x1x32.size a ≤ S1x512x33x33.size a
  inb_S1152x1024_S128x32_128_160 : ∀ a, (![128, 160] : Fin 2 → Nat) a + S128x32.size a ≤ S1152x1024.size a
  inb_S1x512x33x33_S1x128x1x32_0_128_6_0 : ∀ a, (![0, 128, 6, 0] : Fin 4 → Nat) a + S1x128x1x32.size a ≤ S1x512x33x33.size a
  inb_S1152x1024_S128x32_128_192 : ∀ a, (![128, 192] : Fin 2 → Nat) a + S128x32.size a ≤ S1152x1024.size a
  inb_S1x512x33x33_S1x128x1x32_0_128_7_0 : ∀ a, (![0, 128, 7, 0] : Fin 4 → Nat) a + S1x128x1x32.size a ≤ S1x512x33x33.size a
  inb_S1152x1024_S128x32_128_224 : ∀ a, (![128, 224] : Fin 2 → Nat) a + S128x32.size a ≤ S1152x1024.size a
  inb_S1x512x33x33_S1x128x1x32_0_128_8_0 : ∀ a, (![0, 128, 8, 0] : Fin 4 → Nat) a + S1x128x1x32.size a ≤ S1x512x33x33.size a
  inb_S1152x1024_S128x32_128_256 : ∀ a, (![128, 256] : Fin 2 → Nat) a + S128x32.size a ≤ S1152x1024.size a
  inb_S1x512x33x33_S1x128x1x32_0_128_9_0 : ∀ a, (![0, 128, 9, 0] : Fin 4 → Nat) a + S1x128x1x32.size a ≤ S1x512x33x33.size a
  inb_S1152x1024_S128x32_128_288 : ∀ a, (![128, 288] : Fin 2 → Nat) a + S128x32.size a ≤ S1152x1024.size a
  inb_S1x512x33x33_S1x128x1x32_0_128_10_0 : ∀ a, (![0, 128, 10, 0] : Fin 4 → Nat) a + S1x128x1x32.size a ≤ S1x512x33x33.size a
  inb_S1152x1024_S128x32_128_320 : ∀ a, (![128, 320] : Fin 2 → Nat) a + S128x32.size a ≤ S1152x1024.size a
  inb_S1x512x33x33_S1x128x1x32_0_128_11_0 : ∀ a, (![0, 128, 11, 0] : Fin 4 → Nat) a + S1x128x1x32.size a ≤ S1x512x33x33.size a
  inb_S1152x1024_S128x32_128_352 : ∀ a, (![128, 352] : Fin 2 → Nat) a + S128x32.size a ≤ S1152x1024.size a
  inb_S1x512x33x33_S1x128x1x32_0_128_12_0 : ∀ a, (![0, 128, 12, 0] : Fin 4 → Nat) a + S1x128x1x32.size a ≤ S1x512x33x33.size a
  inb_S1152x1024_S128x32_128_384 : ∀ a, (![128, 384] : Fin 2 → Nat) a + S128x32.size a ≤ S1152x1024.size a
  inb_S1x512x33x33_S1x128x1x32_0_128_13_0 : ∀ a, (![0, 128, 13, 0] : Fin 4 → Nat) a + S1x128x1x32.size a ≤ S1x512x33x33.size a
  inb_S1152x1024_S128x32_128_416 : ∀ a, (![128, 416] : Fin 2 → Nat) a + S128x32.size a ≤ S1152x1024.size a
  inb_S1x512x33x33_S1x128x1x32_0_128_14_0 : ∀ a, (![0, 128, 14, 0] : Fin 4 → Nat) a + S1x128x1x32.size a ≤ S1x512x33x33.size a
  inb_S1152x1024_S128x32_128_448 : ∀ a, (![128, 448] : Fin 2 → Nat) a + S128x32.size a ≤ S1152x1024.size a
  inb_S1x512x33x33_S1x128x1x32_0_128_15_0 : ∀ a, (![0, 128, 15, 0] : Fin 4 → Nat) a + S1x128x1x32.size a ≤ S1x512x33x33.size a
  inb_S1152x1024_S128x32_128_480 : ∀ a, (![128, 480] : Fin 2 → Nat) a + S128x32.size a ≤ S1152x1024.size a
  inb_S1x512x33x33_S1x128x1x32_0_128_16_0 : ∀ a, (![0, 128, 16, 0] : Fin 4 → Nat) a + S1x128x1x32.size a ≤ S1x512x33x33.size a
  inb_S1152x1024_S128x32_128_512 : ∀ a, (![128, 512] : Fin 2 → Nat) a + S128x32.size a ≤ S1152x1024.size a
  inb_S1x512x33x33_S1x128x1x32_0_128_17_0 : ∀ a, (![0, 128, 17, 0] : Fin 4 → Nat) a + S1x128x1x32.size a ≤ S1x512x33x33.size a
  inb_S1152x1024_S128x32_128_544 : ∀ a, (![128, 544] : Fin 2 → Nat) a + S128x32.size a ≤ S1152x1024.size a
  inb_S1x512x33x33_S1x128x1x32_0_128_18_0 : ∀ a, (![0, 128, 18, 0] : Fin 4 → Nat) a + S1x128x1x32.size a ≤ S1x512x33x33.size a
  inb_S1152x1024_S128x32_128_576 : ∀ a, (![128, 576] : Fin 2 → Nat) a + S128x32.size a ≤ S1152x1024.size a
  inb_S1x512x33x33_S1x128x1x32_0_128_19_0 : ∀ a, (![0, 128, 19, 0] : Fin 4 → Nat) a + S1x128x1x32.size a ≤ S1x512x33x33.size a
  inb_S1152x1024_S128x32_128_608 : ∀ a, (![128, 608] : Fin 2 → Nat) a + S128x32.size a ≤ S1152x1024.size a
  inb_S1x512x33x33_S1x128x1x32_0_128_20_0 : ∀ a, (![0, 128, 20, 0] : Fin 4 → Nat) a + S1x128x1x32.size a ≤ S1x512x33x33.size a
  inb_S1152x1024_S128x32_128_640 : ∀ a, (![128, 640] : Fin 2 → Nat) a + S128x32.size a ≤ S1152x1024.size a
  inb_S1x512x33x33_S1x128x1x32_0_128_21_0 : ∀ a, (![0, 128, 21, 0] : Fin 4 → Nat) a + S1x128x1x32.size a ≤ S1x512x33x33.size a
  inb_S1152x1024_S128x32_128_672 : ∀ a, (![128, 672] : Fin 2 → Nat) a + S128x32.size a ≤ S1152x1024.size a
  inb_S1x512x33x33_S1x128x1x32_0_128_22_0 : ∀ a, (![0, 128, 22, 0] : Fin 4 → Nat) a + S1x128x1x32.size a ≤ S1x512x33x33.size a
  inb_S1152x1024_S128x32_128_704 : ∀ a, (![128, 704] : Fin 2 → Nat) a + S128x32.size a ≤ S1152x1024.size a
  inb_S1x512x33x33_S1x128x1x32_0_128_23_0 : ∀ a, (![0, 128, 23, 0] : Fin 4 → Nat) a + S1x128x1x32.size a ≤ S1x512x33x33.size a
  inb_S1152x1024_S128x32_128_736 : ∀ a, (![128, 736] : Fin 2 → Nat) a + S128x32.size a ≤ S1152x1024.size a
  inb_S1x512x33x33_S1x128x1x32_0_128_24_0 : ∀ a, (![0, 128, 24, 0] : Fin 4 → Nat) a + S1x128x1x32.size a ≤ S1x512x33x33.size a
  inb_S1152x1024_S128x32_128_768 : ∀ a, (![128, 768] : Fin 2 → Nat) a + S128x32.size a ≤ S1152x1024.size a
  inb_S1x512x33x33_S1x128x1x32_0_128_25_0 : ∀ a, (![0, 128, 25, 0] : Fin 4 → Nat) a + S1x128x1x32.size a ≤ S1x512x33x33.size a
  inb_S1152x1024_S128x32_128_800 : ∀ a, (![128, 800] : Fin 2 → Nat) a + S128x32.size a ≤ S1152x1024.size a
  inb_S1x512x33x33_S1x128x1x32_0_128_26_0 : ∀ a, (![0, 128, 26, 0] : Fin 4 → Nat) a + S1x128x1x32.size a ≤ S1x512x33x33.size a
  inb_S1152x1024_S128x32_128_832 : ∀ a, (![128, 832] : Fin 2 → Nat) a + S128x32.size a ≤ S1152x1024.size a
  inb_S1x512x33x33_S1x128x1x32_0_128_27_0 : ∀ a, (![0, 128, 27, 0] : Fin 4 → Nat) a + S1x128x1x32.size a ≤ S1x512x33x33.size a
  inb_S1152x1024_S128x32_128_864 : ∀ a, (![128, 864] : Fin 2 → Nat) a + S128x32.size a ≤ S1152x1024.size a
  inb_S1x512x33x33_S1x128x1x32_0_128_28_0 : ∀ a, (![0, 128, 28, 0] : Fin 4 → Nat) a + S1x128x1x32.size a ≤ S1x512x33x33.size a
  inb_S1152x1024_S128x32_128_896 : ∀ a, (![128, 896] : Fin 2 → Nat) a + S128x32.size a ≤ S1152x1024.size a
  inb_S1x512x33x33_S1x128x1x32_0_128_29_0 : ∀ a, (![0, 128, 29, 0] : Fin 4 → Nat) a + S1x128x1x32.size a ≤ S1x512x33x33.size a
  inb_S1152x1024_S128x32_128_928 : ∀ a, (![128, 928] : Fin 2 → Nat) a + S128x32.size a ≤ S1152x1024.size a
  inb_S1x512x33x33_S1x128x1x32_0_128_30_0 : ∀ a, (![0, 128, 30, 0] : Fin 4 → Nat) a + S1x128x1x32.size a ≤ S1x512x33x33.size a
  inb_S1152x1024_S128x32_128_960 : ∀ a, (![128, 960] : Fin 2 → Nat) a + S128x32.size a ≤ S1152x1024.size a
  inb_S1x512x33x33_S1x128x1x32_0_128_31_0 : ∀ a, (![0, 128, 31, 0] : Fin 4 → Nat) a + S1x128x1x32.size a ≤ S1x512x33x33.size a
  inb_S1152x1024_S128x32_128_992 : ∀ a, (![128, 992] : Fin 2 → Nat) a + S128x32.size a ≤ S1152x1024.size a
  inb_S1x512x33x33_S1x128x1x32_0_0_0_1 : ∀ a, (![0, 0, 0, 1] : Fin 4 → Nat) a + S1x128x1x32.size a ≤ S1x512x33x33.size a
  inb_S1152x1024_S128x32_256_0 : ∀ a, (![256, 0] : Fin 2 → Nat) a + S128x32.size a ≤ S1152x1024.size a
  inb_S1x512x33x33_S1x128x1x32_0_0_1_1 : ∀ a, (![0, 0, 1, 1] : Fin 4 → Nat) a + S1x128x1x32.size a ≤ S1x512x33x33.size a
  inb_S1152x1024_S128x32_256_32 : ∀ a, (![256, 32] : Fin 2 → Nat) a + S128x32.size a ≤ S1152x1024.size a
  inb_S1x512x33x33_S1x128x1x32_0_0_2_1 : ∀ a, (![0, 0, 2, 1] : Fin 4 → Nat) a + S1x128x1x32.size a ≤ S1x512x33x33.size a
  inb_S1152x1024_S128x32_256_64 : ∀ a, (![256, 64] : Fin 2 → Nat) a + S128x32.size a ≤ S1152x1024.size a
  inb_S1x512x33x33_S1x128x1x32_0_0_3_1 : ∀ a, (![0, 0, 3, 1] : Fin 4 → Nat) a + S1x128x1x32.size a ≤ S1x512x33x33.size a
  inb_S1152x1024_S128x32_256_96 : ∀ a, (![256, 96] : Fin 2 → Nat) a + S128x32.size a ≤ S1152x1024.size a
  inb_S1x512x33x33_S1x128x1x32_0_0_4_1 : ∀ a, (![0, 0, 4, 1] : Fin 4 → Nat) a + S1x128x1x32.size a ≤ S1x512x33x33.size a
  inb_S1152x1024_S128x32_256_128 : ∀ a, (![256, 128] : Fin 2 → Nat) a + S128x32.size a ≤ S1152x1024.size a
  inb_S1x512x33x33_S1x128x1x32_0_0_5_1 : ∀ a, (![0, 0, 5, 1] : Fin 4 → Nat) a + S1x128x1x32.size a ≤ S1x512x33x33.size a
  inb_S1152x1024_S128x32_256_160 : ∀ a, (![256, 160] : Fin 2 → Nat) a + S128x32.size a ≤ S1152x1024.size a
  inb_S1x512x33x33_S1x128x1x32_0_0_6_1 : ∀ a, (![0, 0, 6, 1] : Fin 4 → Nat) a + S1x128x1x32.size a ≤ S1x512x33x33.size a
  inb_S1152x1024_S128x32_256_192 : ∀ a, (![256, 192] : Fin 2 → Nat) a + S128x32.size a ≤ S1152x1024.size a
  inb_S1x512x33x33_S1x128x1x32_0_0_7_1 : ∀ a, (![0, 0, 7, 1] : Fin 4 → Nat) a + S1x128x1x32.size a ≤ S1x512x33x33.size a
  inb_S1152x1024_S128x32_256_224 : ∀ a, (![256, 224] : Fin 2 → Nat) a + S128x32.size a ≤ S1152x1024.size a
  inb_S1x512x33x33_S1x128x1x32_0_0_8_1 : ∀ a, (![0, 0, 8, 1] : Fin 4 → Nat) a + S1x128x1x32.size a ≤ S1x512x33x33.size a
  inb_S1152x1024_S128x32_256_256 : ∀ a, (![256, 256] : Fin 2 → Nat) a + S128x32.size a ≤ S1152x1024.size a
  inb_S1x512x33x33_S1x128x1x32_0_0_9_1 : ∀ a, (![0, 0, 9, 1] : Fin 4 → Nat) a + S1x128x1x32.size a ≤ S1x512x33x33.size a
  inb_S1152x1024_S128x32_256_288 : ∀ a, (![256, 288] : Fin 2 → Nat) a + S128x32.size a ≤ S1152x1024.size a
  inb_S1x512x33x33_S1x128x1x32_0_0_10_1 : ∀ a, (![0, 0, 10, 1] : Fin 4 → Nat) a + S1x128x1x32.size a ≤ S1x512x33x33.size a
  inb_S1152x1024_S128x32_256_320 : ∀ a, (![256, 320] : Fin 2 → Nat) a + S128x32.size a ≤ S1152x1024.size a
  inb_S1x512x33x33_S1x128x1x32_0_0_11_1 : ∀ a, (![0, 0, 11, 1] : Fin 4 → Nat) a + S1x128x1x32.size a ≤ S1x512x33x33.size a
  inb_S1152x1024_S128x32_256_352 : ∀ a, (![256, 352] : Fin 2 → Nat) a + S128x32.size a ≤ S1152x1024.size a
  inb_S1x512x33x33_S1x128x1x32_0_0_12_1 : ∀ a, (![0, 0, 12, 1] : Fin 4 → Nat) a + S1x128x1x32.size a ≤ S1x512x33x33.size a
  inb_S1152x1024_S128x32_256_384 : ∀ a, (![256, 384] : Fin 2 → Nat) a + S128x32.size a ≤ S1152x1024.size a
  inb_S1x512x33x33_S1x128x1x32_0_0_13_1 : ∀ a, (![0, 0, 13, 1] : Fin 4 → Nat) a + S1x128x1x32.size a ≤ S1x512x33x33.size a
  inb_S1152x1024_S128x32_256_416 : ∀ a, (![256, 416] : Fin 2 → Nat) a + S128x32.size a ≤ S1152x1024.size a
  inb_S1x512x33x33_S1x128x1x32_0_0_14_1 : ∀ a, (![0, 0, 14, 1] : Fin 4 → Nat) a + S1x128x1x32.size a ≤ S1x512x33x33.size a
  inb_S1152x1024_S128x32_256_448 : ∀ a, (![256, 448] : Fin 2 → Nat) a + S128x32.size a ≤ S1152x1024.size a
  inb_S1x512x33x33_S1x128x1x32_0_0_15_1 : ∀ a, (![0, 0, 15, 1] : Fin 4 → Nat) a + S1x128x1x32.size a ≤ S1x512x33x33.size a
  inb_S1152x1024_S128x32_256_480 : ∀ a, (![256, 480] : Fin 2 → Nat) a + S128x32.size a ≤ S1152x1024.size a
  inb_S1x512x33x33_S1x128x1x32_0_0_16_1 : ∀ a, (![0, 0, 16, 1] : Fin 4 → Nat) a + S1x128x1x32.size a ≤ S1x512x33x33.size a
  inb_S1152x1024_S128x32_256_512 : ∀ a, (![256, 512] : Fin 2 → Nat) a + S128x32.size a ≤ S1152x1024.size a
  inb_S1x512x33x33_S1x128x1x32_0_0_17_1 : ∀ a, (![0, 0, 17, 1] : Fin 4 → Nat) a + S1x128x1x32.size a ≤ S1x512x33x33.size a
  inb_S1152x1024_S128x32_256_544 : ∀ a, (![256, 544] : Fin 2 → Nat) a + S128x32.size a ≤ S1152x1024.size a
  inb_S1x512x33x33_S1x128x1x32_0_0_18_1 : ∀ a, (![0, 0, 18, 1] : Fin 4 → Nat) a + S1x128x1x32.size a ≤ S1x512x33x33.size a
  inb_S1152x1024_S128x32_256_576 : ∀ a, (![256, 576] : Fin 2 → Nat) a + S128x32.size a ≤ S1152x1024.size a
  inb_S1x512x33x33_S1x128x1x32_0_0_19_1 : ∀ a, (![0, 0, 19, 1] : Fin 4 → Nat) a + S1x128x1x32.size a ≤ S1x512x33x33.size a
  inb_S1152x1024_S128x32_256_608 : ∀ a, (![256, 608] : Fin 2 → Nat) a + S128x32.size a ≤ S1152x1024.size a
  inb_S1x512x33x33_S1x128x1x32_0_0_20_1 : ∀ a, (![0, 0, 20, 1] : Fin 4 → Nat) a + S1x128x1x32.size a ≤ S1x512x33x33.size a
  inb_S1152x1024_S128x32_256_640 : ∀ a, (![256, 640] : Fin 2 → Nat) a + S128x32.size a ≤ S1152x1024.size a
  inb_S1x512x33x33_S1x128x1x32_0_0_21_1 : ∀ a, (![0, 0, 21, 1] : Fin 4 → Nat) a + S1x128x1x32.size a ≤ S1x512x33x33.size a
  inb_S1152x1024_S128x32_256_672 : ∀ a, (![256, 672] : Fin 2 → Nat) a + S128x32.size a ≤ S1152x1024.size a
  inb_S1x512x33x33_S1x128x1x32_0_0_22_1 : ∀ a, (![0, 0, 22, 1] : Fin 4 → Nat) a + S1x128x1x32.size a ≤ S1x512x33x33.size a
  inb_S1152x1024_S128x32_256_704 : ∀ a, (![256, 704] : Fin 2 → Nat) a + S128x32.size a ≤ S1152x1024.size a
  inb_S1x512x33x33_S1x128x1x32_0_0_23_1 : ∀ a, (![0, 0, 23, 1] : Fin 4 → Nat) a + S1x128x1x32.size a ≤ S1x512x33x33.size a
  inb_S1152x1024_S128x32_256_736 : ∀ a, (![256, 736] : Fin 2 → Nat) a + S128x32.size a ≤ S1152x1024.size a
  inb_S1x512x33x33_S1x128x1x32_0_0_24_1 : ∀ a, (![0, 0, 24, 1] : Fin 4 → Nat) a + S1x128x1x32.size a ≤ S1x512x33x33.size a
  inb_S1152x1024_S128x32_256_768 : ∀ a, (![256, 768] : Fin 2 → Nat) a + S128x32.size a ≤ S1152x1024.size a
  inb_S1x512x33x33_S1x128x1x32_0_0_25_1 : ∀ a, (![0, 0, 25, 1] : Fin 4 → Nat) a + S1x128x1x32.size a ≤ S1x512x33x33.size a
  inb_S1152x1024_S128x32_256_800 : ∀ a, (![256, 800] : Fin 2 → Nat) a + S128x32.size a ≤ S1152x1024.size a
  inb_S1x512x33x33_S1x128x1x32_0_0_26_1 : ∀ a, (![0, 0, 26, 1] : Fin 4 → Nat) a + S1x128x1x32.size a ≤ S1x512x33x33.size a
  inb_S1152x1024_S128x32_256_832 : ∀ a, (![256, 832] : Fin 2 → Nat) a + S128x32.size a ≤ S1152x1024.size a
  inb_S1x512x33x33_S1x128x1x32_0_0_27_1 : ∀ a, (![0, 0, 27, 1] : Fin 4 → Nat) a + S1x128x1x32.size a ≤ S1x512x33x33.size a
  inb_S1152x1024_S128x32_256_864 : ∀ a, (![256, 864] : Fin 2 → Nat) a + S128x32.size a ≤ S1152x1024.size a
  inb_S1x512x33x33_S1x128x1x32_0_0_28_1 : ∀ a, (![0, 0, 28, 1] : Fin 4 → Nat) a + S1x128x1x32.size a ≤ S1x512x33x33.size a
  inb_S1152x1024_S128x32_256_896 : ∀ a, (![256, 896] : Fin 2 → Nat) a + S128x32.size a ≤ S1152x1024.size a
  inb_S1x512x33x33_S1x128x1x32_0_0_29_1 : ∀ a, (![0, 0, 29, 1] : Fin 4 → Nat) a + S1x128x1x32.size a ≤ S1x512x33x33.size a
  inb_S1152x1024_S128x32_256_928 : ∀ a, (![256, 928] : Fin 2 → Nat) a + S128x32.size a ≤ S1152x1024.size a
  inb_S1x512x33x33_S1x128x1x32_0_0_30_1 : ∀ a, (![0, 0, 30, 1] : Fin 4 → Nat) a + S1x128x1x32.size a ≤ S1x512x33x33.size a
  inb_S1152x1024_S128x32_256_960 : ∀ a, (![256, 960] : Fin 2 → Nat) a + S128x32.size a ≤ S1152x1024.size a
  inb_S1x512x33x33_S1x128x1x32_0_0_31_1 : ∀ a, (![0, 0, 31, 1] : Fin 4 → Nat) a + S1x128x1x32.size a ≤ S1x512x33x33.size a
  inb_S1152x1024_S128x32_256_992 : ∀ a, (![256, 992] : Fin 2 → Nat) a + S128x32.size a ≤ S1152x1024.size a
  inb_S1x512x33x33_S1x128x1x32_0_256_0_0 : ∀ a, (![0, 256, 0, 0] : Fin 4 → Nat) a + S1x128x1x32.size a ≤ S1x512x33x33.size a
  inb_S1152x1024_S128x32_384_0 : ∀ a, (![384, 0] : Fin 2 → Nat) a + S128x32.size a ≤ S1152x1024.size a
  inb_S1x512x33x33_S1x128x1x32_0_256_1_0 : ∀ a, (![0, 256, 1, 0] : Fin 4 → Nat) a + S1x128x1x32.size a ≤ S1x512x33x33.size a
  inb_S1152x1024_S128x32_384_32 : ∀ a, (![384, 32] : Fin 2 → Nat) a + S128x32.size a ≤ S1152x1024.size a
  inb_S1x512x33x33_S1x128x1x32_0_256_2_0 : ∀ a, (![0, 256, 2, 0] : Fin 4 → Nat) a + S1x128x1x32.size a ≤ S1x512x33x33.size a
  inb_S1152x1024_S128x32_384_64 : ∀ a, (![384, 64] : Fin 2 → Nat) a + S128x32.size a ≤ S1152x1024.size a
  inb_S1x512x33x33_S1x128x1x32_0_256_3_0 : ∀ a, (![0, 256, 3, 0] : Fin 4 → Nat) a + S1x128x1x32.size a ≤ S1x512x33x33.size a
  inb_S1152x1024_S128x32_384_96 : ∀ a, (![384, 96] : Fin 2 → Nat) a + S128x32.size a ≤ S1152x1024.size a
  inb_S1x512x33x33_S1x128x1x32_0_256_4_0 : ∀ a, (![0, 256, 4, 0] : Fin 4 → Nat) a + S1x128x1x32.size a ≤ S1x512x33x33.size a
  inb_S1152x1024_S128x32_384_128 : ∀ a, (![384, 128] : Fin 2 → Nat) a + S128x32.size a ≤ S1152x1024.size a
  inb_S1x512x33x33_S1x128x1x32_0_256_5_0 : ∀ a, (![0, 256, 5, 0] : Fin 4 → Nat) a + S1x128x1x32.size a ≤ S1x512x33x33.size a
  inb_S1152x1024_S128x32_384_160 : ∀ a, (![384, 160] : Fin 2 → Nat) a + S128x32.size a ≤ S1152x1024.size a
  inb_S1x512x33x33_S1x128x1x32_0_256_6_0 : ∀ a, (![0, 256, 6, 0] : Fin 4 → Nat) a + S1x128x1x32.size a ≤ S1x512x33x33.size a
  inb_S1152x1024_S128x32_384_192 : ∀ a, (![384, 192] : Fin 2 → Nat) a + S128x32.size a ≤ S1152x1024.size a
  inb_S1x512x33x33_S1x128x1x32_0_256_7_0 : ∀ a, (![0, 256, 7, 0] : Fin 4 → Nat) a + S1x128x1x32.size a ≤ S1x512x33x33.size a
  inb_S1152x1024_S128x32_384_224 : ∀ a, (![384, 224] : Fin 2 → Nat) a + S128x32.size a ≤ S1152x1024.size a
  inb_S1x512x33x33_S1x128x1x32_0_256_8_0 : ∀ a, (![0, 256, 8, 0] : Fin 4 → Nat) a + S1x128x1x32.size a ≤ S1x512x33x33.size a
  inb_S1152x1024_S128x32_384_256 : ∀ a, (![384, 256] : Fin 2 → Nat) a + S128x32.size a ≤ S1152x1024.size a
  inb_S1x512x33x33_S1x128x1x32_0_256_9_0 : ∀ a, (![0, 256, 9, 0] : Fin 4 → Nat) a + S1x128x1x32.size a ≤ S1x512x33x33.size a
  inb_S1152x1024_S128x32_384_288 : ∀ a, (![384, 288] : Fin 2 → Nat) a + S128x32.size a ≤ S1152x1024.size a
  inb_S1x512x33x33_S1x128x1x32_0_256_10_0 : ∀ a, (![0, 256, 10, 0] : Fin 4 → Nat) a + S1x128x1x32.size a ≤ S1x512x33x33.size a
  inb_S1152x1024_S128x32_384_320 : ∀ a, (![384, 320] : Fin 2 → Nat) a + S128x32.size a ≤ S1152x1024.size a
  inb_S1x512x33x33_S1x128x1x32_0_256_11_0 : ∀ a, (![0, 256, 11, 0] : Fin 4 → Nat) a + S1x128x1x32.size a ≤ S1x512x33x33.size a
  inb_S1152x1024_S128x32_384_352 : ∀ a, (![384, 352] : Fin 2 → Nat) a + S128x32.size a ≤ S1152x1024.size a
  inb_S1x512x33x33_S1x128x1x32_0_256_12_0 : ∀ a, (![0, 256, 12, 0] : Fin 4 → Nat) a + S1x128x1x32.size a ≤ S1x512x33x33.size a
  inb_S1152x1024_S128x32_384_384 : ∀ a, (![384, 384] : Fin 2 → Nat) a + S128x32.size a ≤ S1152x1024.size a
  inb_S1x512x33x33_S1x128x1x32_0_256_13_0 : ∀ a, (![0, 256, 13, 0] : Fin 4 → Nat) a + S1x128x1x32.size a ≤ S1x512x33x33.size a
  inb_S1152x1024_S128x32_384_416 : ∀ a, (![384, 416] : Fin 2 → Nat) a + S128x32.size a ≤ S1152x1024.size a
  inb_S1x512x33x33_S1x128x1x32_0_256_14_0 : ∀ a, (![0, 256, 14, 0] : Fin 4 → Nat) a + S1x128x1x32.size a ≤ S1x512x33x33.size a
  inb_S1152x1024_S128x32_384_448 : ∀ a, (![384, 448] : Fin 2 → Nat) a + S128x32.size a ≤ S1152x1024.size a
  inb_S1x512x33x33_S1x128x1x32_0_256_15_0 : ∀ a, (![0, 256, 15, 0] : Fin 4 → Nat) a + S1x128x1x32.size a ≤ S1x512x33x33.size a
  inb_S1152x1024_S128x32_384_480 : ∀ a, (![384, 480] : Fin 2 → Nat) a + S128x32.size a ≤ S1152x1024.size a
  inb_S1x512x33x33_S1x128x1x32_0_256_16_0 : ∀ a, (![0, 256, 16, 0] : Fin 4 → Nat) a + S1x128x1x32.size a ≤ S1x512x33x33.size a
  inb_S1152x1024_S128x32_384_512 : ∀ a, (![384, 512] : Fin 2 → Nat) a + S128x32.size a ≤ S1152x1024.size a
  inb_S1x512x33x33_S1x128x1x32_0_256_17_0 : ∀ a, (![0, 256, 17, 0] : Fin 4 → Nat) a + S1x128x1x32.size a ≤ S1x512x33x33.size a
  inb_S1152x1024_S128x32_384_544 : ∀ a, (![384, 544] : Fin 2 → Nat) a + S128x32.size a ≤ S1152x1024.size a
  inb_S1x512x33x33_S1x128x1x32_0_256_18_0 : ∀ a, (![0, 256, 18, 0] : Fin 4 → Nat) a + S1x128x1x32.size a ≤ S1x512x33x33.size a
  inb_S1152x1024_S128x32_384_576 : ∀ a, (![384, 576] : Fin 2 → Nat) a + S128x32.size a ≤ S1152x1024.size a
  inb_S1x512x33x33_S1x128x1x32_0_256_19_0 : ∀ a, (![0, 256, 19, 0] : Fin 4 → Nat) a + S1x128x1x32.size a ≤ S1x512x33x33.size a
  inb_S1152x1024_S128x32_384_608 : ∀ a, (![384, 608] : Fin 2 → Nat) a + S128x32.size a ≤ S1152x1024.size a
  inb_S1x512x33x33_S1x128x1x32_0_256_20_0 : ∀ a, (![0, 256, 20, 0] : Fin 4 → Nat) a + S1x128x1x32.size a ≤ S1x512x33x33.size a
  inb_S1152x1024_S128x32_384_640 : ∀ a, (![384, 640] : Fin 2 → Nat) a + S128x32.size a ≤ S1152x1024.size a
  inb_S1x512x33x33_S1x128x1x32_0_256_21_0 : ∀ a, (![0, 256, 21, 0] : Fin 4 → Nat) a + S1x128x1x32.size a ≤ S1x512x33x33.size a
  inb_S1152x1024_S128x32_384_672 : ∀ a, (![384, 672] : Fin 2 → Nat) a + S128x32.size a ≤ S1152x1024.size a
  inb_S1x512x33x33_S1x128x1x32_0_256_22_0 : ∀ a, (![0, 256, 22, 0] : Fin 4 → Nat) a + S1x128x1x32.size a ≤ S1x512x33x33.size a
  inb_S1152x1024_S128x32_384_704 : ∀ a, (![384, 704] : Fin 2 → Nat) a + S128x32.size a ≤ S1152x1024.size a
  inb_S1x512x33x33_S1x128x1x32_0_256_23_0 : ∀ a, (![0, 256, 23, 0] : Fin 4 → Nat) a + S1x128x1x32.size a ≤ S1x512x33x33.size a
  inb_S1152x1024_S128x32_384_736 : ∀ a, (![384, 736] : Fin 2 → Nat) a + S128x32.size a ≤ S1152x1024.size a
  inb_S1x512x33x33_S1x128x1x32_0_256_24_0 : ∀ a, (![0, 256, 24, 0] : Fin 4 → Nat) a + S1x128x1x32.size a ≤ S1x512x33x33.size a
  inb_S1152x1024_S128x32_384_768 : ∀ a, (![384, 768] : Fin 2 → Nat) a + S128x32.size a ≤ S1152x1024.size a
  inb_S1x512x33x33_S1x128x1x32_0_256_25_0 : ∀ a, (![0, 256, 25, 0] : Fin 4 → Nat) a + S1x128x1x32.size a ≤ S1x512x33x33.size a
  inb_S1152x1024_S128x32_384_800 : ∀ a, (![384, 800] : Fin 2 → Nat) a + S128x32.size a ≤ S1152x1024.size a
  inb_S1x512x33x33_S1x128x1x32_0_256_26_0 : ∀ a, (![0, 256, 26, 0] : Fin 4 → Nat) a + S1x128x1x32.size a ≤ S1x512x33x33.size a
  inb_S1152x1024_S128x32_384_832 : ∀ a, (![384, 832] : Fin 2 → Nat) a + S128x32.size a ≤ S1152x1024.size a
  inb_S1x512x33x33_S1x128x1x32_0_256_27_0 : ∀ a, (![0, 256, 27, 0] : Fin 4 → Nat) a + S1x128x1x32.size a ≤ S1x512x33x33.size a
  inb_S1152x1024_S128x32_384_864 : ∀ a, (![384, 864] : Fin 2 → Nat) a + S128x32.size a ≤ S1152x1024.size a
  inb_S1x512x33x33_S1x128x1x32_0_256_28_0 : ∀ a, (![0, 256, 28, 0] : Fin 4 → Nat) a + S1x128x1x32.size a ≤ S1x512x33x33.size a
  inb_S1152x1024_S128x32_384_896 : ∀ a, (![384, 896] : Fin 2 → Nat) a + S128x32.size a ≤ S1152x1024.size a
  inb_S1x512x33x33_S1x128x1x32_0_256_29_0 : ∀ a, (![0, 256, 29, 0] : Fin 4 → Nat) a + S1x128x1x32.size a ≤ S1x512x33x33.size a
  inb_S1152x1024_S128x32_384_928 : ∀ a, (![384, 928] : Fin 2 → Nat) a + S128x32.size a ≤ S1152x1024.size a
  inb_S1x512x33x33_S1x128x1x32_0_256_30_0 : ∀ a, (![0, 256, 30, 0] : Fin 4 → Nat) a + S1x128x1x32.size a ≤ S1x512x33x33.size a
  inb_S1152x1024_S128x32_384_960 : ∀ a, (![384, 960] : Fin 2 → Nat) a + S128x32.size a ≤ S1152x1024.size a
  inb_S1x512x33x33_S1x128x1x32_0_256_31_0 : ∀ a, (![0, 256, 31, 0] : Fin 4 → Nat) a + S1x128x1x32.size a ≤ S1x512x33x33.size a
  inb_S1152x1024_S128x32_384_992 : ∀ a, (![384, 992] : Fin 2 → Nat) a + S128x32.size a ≤ S1152x1024.size a
  inb_S1x512x33x33_S1x128x1x32_0_384_0_0 : ∀ a, (![0, 384, 0, 0] : Fin 4 → Nat) a + S1x128x1x32.size a ≤ S1x512x33x33.size a
  inb_S1152x1024_S128x32_512_0 : ∀ a, (![512, 0] : Fin 2 → Nat) a + S128x32.size a ≤ S1152x1024.size a
  inb_S1x512x33x33_S1x128x1x32_0_384_1_0 : ∀ a, (![0, 384, 1, 0] : Fin 4 → Nat) a + S1x128x1x32.size a ≤ S1x512x33x33.size a
  inb_S1152x1024_S128x32_512_32 : ∀ a, (![512, 32] : Fin 2 → Nat) a + S128x32.size a ≤ S1152x1024.size a
  inb_S1x512x33x33_S1x128x1x32_0_384_2_0 : ∀ a, (![0, 384, 2, 0] : Fin 4 → Nat) a + S1x128x1x32.size a ≤ S1x512x33x33.size a
  inb_S1152x1024_S128x32_512_64 : ∀ a, (![512, 64] : Fin 2 → Nat) a + S128x32.size a ≤ S1152x1024.size a
  inb_S1x512x33x33_S1x128x1x32_0_384_3_0 : ∀ a, (![0, 384, 3, 0] : Fin 4 → Nat) a + S1x128x1x32.size a ≤ S1x512x33x33.size a
  inb_S1152x1024_S128x32_512_96 : ∀ a, (![512, 96] : Fin 2 → Nat) a + S128x32.size a ≤ S1152x1024.size a
  inb_S1x512x33x33_S1x128x1x32_0_384_4_0 : ∀ a, (![0, 384, 4, 0] : Fin 4 → Nat) a + S1x128x1x32.size a ≤ S1x512x33x33.size a
  inb_S1152x1024_S128x32_512_128 : ∀ a, (![512, 128] : Fin 2 → Nat) a + S128x32.size a ≤ S1152x1024.size a
  inb_S1x512x33x33_S1x128x1x32_0_384_5_0 : ∀ a, (![0, 384, 5, 0] : Fin 4 → Nat) a + S1x128x1x32.size a ≤ S1x512x33x33.size a
  inb_S1152x1024_S128x32_512_160 : ∀ a, (![512, 160] : Fin 2 → Nat) a + S128x32.size a ≤ S1152x1024.size a
  inb_S1x512x33x33_S1x128x1x32_0_384_6_0 : ∀ a, (![0, 384, 6, 0] : Fin 4 → Nat) a + S1x128x1x32.size a ≤ S1x512x33x33.size a
  inb_S1152x1024_S128x32_512_192 : ∀ a, (![512, 192] : Fin 2 → Nat) a + S128x32.size a ≤ S1152x1024.size a
  inb_S1x512x33x33_S1x128x1x32_0_384_7_0 : ∀ a, (![0, 384, 7, 0] : Fin 4 → Nat) a + S1x128x1x32.size a ≤ S1x512x33x33.size a
  inb_S1152x1024_S128x32_512_224 : ∀ a, (![512, 224] : Fin 2 → Nat) a + S128x32.size a ≤ S1152x1024.size a
  inb_S1x512x33x33_S1x128x1x32_0_384_8_0 : ∀ a, (![0, 384, 8, 0] : Fin 4 → Nat) a + S1x128x1x32.size a ≤ S1x512x33x33.size a
  inb_S1152x1024_S128x32_512_256 : ∀ a, (![512, 256] : Fin 2 → Nat) a + S128x32.size a ≤ S1152x1024.size a
  inb_S1x512x33x33_S1x128x1x32_0_384_9_0 : ∀ a, (![0, 384, 9, 0] : Fin 4 → Nat) a + S1x128x1x32.size a ≤ S1x512x33x33.size a
  inb_S1152x1024_S128x32_512_288 : ∀ a, (![512, 288] : Fin 2 → Nat) a + S128x32.size a ≤ S1152x1024.size a
  inb_S1x512x33x33_S1x128x1x32_0_384_10_0 : ∀ a, (![0, 384, 10, 0] : Fin 4 → Nat) a + S1x128x1x32.size a ≤ S1x512x33x33.size a
  inb_S1152x1024_S128x32_512_320 : ∀ a, (![512, 320] : Fin 2 → Nat) a + S128x32.size a ≤ S1152x1024.size a
  inb_S1x512x33x33_S1x128x1x32_0_384_11_0 : ∀ a, (![0, 384, 11, 0] : Fin 4 → Nat) a + S1x128x1x32.size a ≤ S1x512x33x33.size a
  inb_S1152x1024_S128x32_512_352 : ∀ a, (![512, 352] : Fin 2 → Nat) a + S128x32.size a ≤ S1152x1024.size a
  inb_S1x512x33x33_S1x128x1x32_0_384_12_0 : ∀ a, (![0, 384, 12, 0] : Fin 4 → Nat) a + S1x128x1x32.size a ≤ S1x512x33x33.size a
  inb_S1152x1024_S128x32_512_384 : ∀ a, (![512, 384] : Fin 2 → Nat) a + S128x32.size a ≤ S1152x1024.size a
  inb_S1x512x33x33_S1x128x1x32_0_384_13_0 : ∀ a, (![0, 384, 13, 0] : Fin 4 → Nat) a + S1x128x1x32.size a ≤ S1x512x33x33.size a
  inb_S1152x1024_S128x32_512_416 : ∀ a, (![512, 416] : Fin 2 → Nat) a + S128x32.size a ≤ S1152x1024.size a
  inb_S1x512x33x33_S1x128x1x32_0_384_14_0 : ∀ a, (![0, 384, 14, 0] : Fin 4 → Nat) a + S1x128x1x32.size a ≤ S1x512x33x33.size a
  inb_S1152x1024_S128x32_512_448 : ∀ a, (![512, 448] : Fin 2 → Nat) a + S128x32.size a ≤ S1152x1024.size a
  inb_S1x512x33x33_S1x128x1x32_0_384_15_0 : ∀ a, (![0, 384, 15, 0] : Fin 4 → Nat) a + S1x128x1x32.size a ≤ S1x512x33x33.size a
  inb_S1152x1024_S128x32_512_480 : ∀ a, (![512, 480] : Fin 2 → Nat) a + S128x32.size a ≤ S1152x1024.size a
  inb_S1x512x33x33_S1x128x1x32_0_384_16_0 : ∀ a, (![0, 384, 16, 0] : Fin 4 → Nat) a + S1x128x1x32.size a ≤ S1x512x33x33.size a
  inb_S1152x1024_S128x32_512_512 : ∀ a, (![512, 512] : Fin 2 → Nat) a + S128x32.size a ≤ S1152x1024.size a
  inb_S1x512x33x33_S1x128x1x32_0_384_17_0 : ∀ a, (![0, 384, 17, 0] : Fin 4 → Nat) a + S1x128x1x32.size a ≤ S1x512x33x33.size a
  inb_S1152x1024_S128x32_512_544 : ∀ a, (![512, 544] : Fin 2 → Nat) a + S128x32.size a ≤ S1152x1024.size a
  inb_S1x512x33x33_S1x128x1x32_0_384_18_0 : ∀ a, (![0, 384, 18, 0] : Fin 4 → Nat) a + S1x128x1x32.size a ≤ S1x512x33x33.size a
  inb_S1152x1024_S128x32_512_576 : ∀ a, (![512, 576] : Fin 2 → Nat) a + S128x32.size a ≤ S1152x1024.size a
  inb_S1x512x33x33_S1x128x1x32_0_384_19_0 : ∀ a, (![0, 384, 19, 0] : Fin 4 → Nat) a + S1x128x1x32.size a ≤ S1x512x33x33.size a
  inb_S1152x1024_S128x32_512_608 : ∀ a, (![512, 608] : Fin 2 → Nat) a + S128x32.size a ≤ S1152x1024.size a
  inb_S1x512x33x33_S1x128x1x32_0_384_20_0 : ∀ a, (![0, 384, 20, 0] : Fin 4 → Nat) a + S1x128x1x32.size a ≤ S1x512x33x33.size a
  inb_S1152x1024_S128x32_512_640 : ∀ a, (![512, 640] : Fin 2 → Nat) a + S128x32.size a ≤ S1152x1024.size a
  inb_S1x512x33x33_S1x128x1x32_0_384_21_0 : ∀ a, (![0, 384, 21, 0] : Fin 4 → Nat) a + S1x128x1x32.size a ≤ S1x512x33x33.size a
  inb_S1152x1024_S128x32_512_672 : ∀ a, (![512, 672] : Fin 2 → Nat) a + S128x32.size a ≤ S1152x1024.size a
  inb_S1x512x33x33_S1x128x1x32_0_384_22_0 : ∀ a, (![0, 384, 22, 0] : Fin 4 → Nat) a + S1x128x1x32.size a ≤ S1x512x33x33.size a
  inb_S1152x1024_S128x32_512_704 : ∀ a, (![512, 704] : Fin 2 → Nat) a + S128x32.size a ≤ S1152x1024.size a
  inb_S1x512x33x33_S1x128x1x32_0_384_23_0 : ∀ a, (![0, 384, 23, 0] : Fin 4 → Nat) a + S1x128x1x32.size a ≤ S1x512x33x33.size a
  inb_S1152x1024_S128x32_512_736 : ∀ a, (![512, 736] : Fin 2 → Nat) a + S128x32.size a ≤ S1152x1024.size a
  inb_S1x512x33x33_S1x128x1x32_0_384_24_0 : ∀ a, (![0, 384, 24, 0] : Fin 4 → Nat) a + S1x128x1x32.size a ≤ S1x512x33x33.size a
  inb_S1152x1024_S128x32_512_768 : ∀ a, (![512, 768] : Fin 2 → Nat) a + S128x32.size a ≤ S1152x1024.size a
  inb_S1x512x33x33_S1x128x1x32_0_384_25_0 : ∀ a, (![0, 384, 25, 0] : Fin 4 → Nat) a + S1x128x1x32.size a ≤ S1x512x33x33.size a
  inb_S1152x1024_S128x32_512_800 : ∀ a, (![512, 800] : Fin 2 → Nat) a + S128x32.size a ≤ S1152x1024.size a
  inb_S1x512x33x33_S1x128x1x32_0_384_26_0 : ∀ a, (![0, 384, 26, 0] : Fin 4 → Nat) a + S1x128x1x32.size a ≤ S1x512x33x33.size a
  inb_S1152x1024_S128x32_512_832 : ∀ a, (![512, 832] : Fin 2 → Nat) a + S128x32.size a ≤ S1152x1024.size a
  inb_S1x512x33x33_S1x128x1x32_0_384_27_0 : ∀ a, (![0, 384, 27, 0] : Fin 4 → Nat) a + S1x128x1x32.size a ≤ S1x512x33x33.size a
  inb_S1152x1024_S128x32_512_864 : ∀ a, (![512, 864] : Fin 2 → Nat) a + S128x32.size a ≤ S1152x1024.size a
  inb_S1x512x33x33_S1x128x1x32_0_384_28_0 : ∀ a, (![0, 384, 28, 0] : Fin 4 → Nat) a + S1x128x1x32.size a ≤ S1x512x33x33.size a
  inb_S1152x1024_S128x32_512_896 : ∀ a, (![512, 896] : Fin 2 → Nat) a + S128x32.size a ≤ S1152x1024.size a
  inb_S1x512x33x33_S1x128x1x32_0_384_29_0 : ∀ a, (![0, 384, 29, 0] : Fin 4 → Nat) a + S1x128x1x32.size a ≤ S1x512x33x33.size a
  inb_S1152x1024_S128x32_512_928 : ∀ a, (![512, 928] : Fin 2 → Nat) a + S128x32.size a ≤ S1152x1024.size a
  inb_S1x512x33x33_S1x128x1x32_0_384_30_0 : ∀ a, (![0, 384, 30, 0] : Fin 4 → Nat) a + S1x128x1x32.size a ≤ S1x512x33x33.size a
  inb_S1152x1024_S128x32_512_960 : ∀ a, (![512, 960] : Fin 2 → Nat) a + S128x32.size a ≤ S1152x1024.size a
  inb_S1x512x33x33_S1x128x1x32_0_384_31_0 : ∀ a, (![0, 384, 31, 0] : Fin 4 → Nat) a + S1x128x1x32.size a ≤ S1x512x33x33.size a
  inb_S1152x1024_S128x32_512_992 : ∀ a, (![512, 992] : Fin 2 → Nat) a + S128x32.size a ≤ S1152x1024.size a
  inb_S1x512x33x33_S1x128x1x32_0_256_0_1 : ∀ a, (![0, 256, 0, 1] : Fin 4 → Nat) a + S1x128x1x32.size a ≤ S1x512x33x33.size a
  inb_S1152x1024_S128x32_640_0 : ∀ a, (![640, 0] : Fin 2 → Nat) a + S128x32.size a ≤ S1152x1024.size a
  inb_S1x512x33x33_S1x128x1x32_0_256_1_1 : ∀ a, (![0, 256, 1, 1] : Fin 4 → Nat) a + S1x128x1x32.size a ≤ S1x512x33x33.size a
  inb_S1152x1024_S128x32_640_32 : ∀ a, (![640, 32] : Fin 2 → Nat) a + S128x32.size a ≤ S1152x1024.size a
  inb_S1x512x33x33_S1x128x1x32_0_256_2_1 : ∀ a, (![0, 256, 2, 1] : Fin 4 → Nat) a + S1x128x1x32.size a ≤ S1x512x33x33.size a
  inb_S1152x1024_S128x32_640_64 : ∀ a, (![640, 64] : Fin 2 → Nat) a + S128x32.size a ≤ S1152x1024.size a
  inb_S1x512x33x33_S1x128x1x32_0_256_3_1 : ∀ a, (![0, 256, 3, 1] : Fin 4 → Nat) a + S1x128x1x32.size a ≤ S1x512x33x33.size a
  inb_S1152x1024_S128x32_640_96 : ∀ a, (![640, 96] : Fin 2 → Nat) a + S128x32.size a ≤ S1152x1024.size a
  inb_S1x512x33x33_S1x128x1x32_0_256_4_1 : ∀ a, (![0, 256, 4, 1] : Fin 4 → Nat) a + S1x128x1x32.size a ≤ S1x512x33x33.size a
  inb_S1152x1024_S128x32_640_128 : ∀ a, (![640, 128] : Fin 2 → Nat) a + S128x32.size a ≤ S1152x1024.size a
  inb_S1x512x33x33_S1x128x1x32_0_256_5_1 : ∀ a, (![0, 256, 5, 1] : Fin 4 → Nat) a + S1x128x1x32.size a ≤ S1x512x33x33.size a
  inb_S1152x1024_S128x32_640_160 : ∀ a, (![640, 160] : Fin 2 → Nat) a + S128x32.size a ≤ S1152x1024.size a
  inb_S1x512x33x33_S1x128x1x32_0_256_6_1 : ∀ a, (![0, 256, 6, 1] : Fin 4 → Nat) a + S1x128x1x32.size a ≤ S1x512x33x33.size a
  inb_S1152x1024_S128x32_640_192 : ∀ a, (![640, 192] : Fin 2 → Nat) a + S128x32.size a ≤ S1152x1024.size a
  inb_S1x512x33x33_S1x128x1x32_0_256_7_1 : ∀ a, (![0, 256, 7, 1] : Fin 4 → Nat) a + S1x128x1x32.size a ≤ S1x512x33x33.size a
  inb_S1152x1024_S128x32_640_224 : ∀ a, (![640, 224] : Fin 2 → Nat) a + S128x32.size a ≤ S1152x1024.size a
  inb_S1x512x33x33_S1x128x1x32_0_256_8_1 : ∀ a, (![0, 256, 8, 1] : Fin 4 → Nat) a + S1x128x1x32.size a ≤ S1x512x33x33.size a
  inb_S1152x1024_S128x32_640_256 : ∀ a, (![640, 256] : Fin 2 → Nat) a + S128x32.size a ≤ S1152x1024.size a
  inb_S1x512x33x33_S1x128x1x32_0_256_9_1 : ∀ a, (![0, 256, 9, 1] : Fin 4 → Nat) a + S1x128x1x32.size a ≤ S1x512x33x33.size a
  inb_S1152x1024_S128x32_640_288 : ∀ a, (![640, 288] : Fin 2 → Nat) a + S128x32.size a ≤ S1152x1024.size a
  inb_S1x512x33x33_S1x128x1x32_0_256_10_1 : ∀ a, (![0, 256, 10, 1] : Fin 4 → Nat) a + S1x128x1x32.size a ≤ S1x512x33x33.size a
  inb_S1152x1024_S128x32_640_320 : ∀ a, (![640, 320] : Fin 2 → Nat) a + S128x32.size a ≤ S1152x1024.size a
  inb_S1x512x33x33_S1x128x1x32_0_256_11_1 : ∀ a, (![0, 256, 11, 1] : Fin 4 → Nat) a + S1x128x1x32.size a ≤ S1x512x33x33.size a
  inb_S1152x1024_S128x32_640_352 : ∀ a, (![640, 352] : Fin 2 → Nat) a + S128x32.size a ≤ S1152x1024.size a
  inb_S1x512x33x33_S1x128x1x32_0_256_12_1 : ∀ a, (![0, 256, 12, 1] : Fin 4 → Nat) a + S1x128x1x32.size a ≤ S1x512x33x33.size a
  inb_S1152x1024_S128x32_640_384 : ∀ a, (![640, 384] : Fin 2 → Nat) a + S128x32.size a ≤ S1152x1024.size a
  inb_S1x512x33x33_S1x128x1x32_0_256_13_1 : ∀ a, (![0, 256, 13, 1] : Fin 4 → Nat) a + S1x128x1x32.size a ≤ S1x512x33x33.size a
  inb_S1152x1024_S128x32_640_416 : ∀ a, (![640, 416] : Fin 2 → Nat) a + S128x32.size a ≤ S1152x1024.size a
  inb_S1x512x33x33_S1x128x1x32_0_256_14_1 : ∀ a, (![0, 256, 14, 1] : Fin 4 → Nat) a + S1x128x1x32.size a ≤ S1x512x33x33.size a
  inb_S1152x1024_S128x32_640_448 : ∀ a, (![640, 448] : Fin 2 → Nat) a + S128x32.size a ≤ S1152x1024.size a
  inb_S1x512x33x33_S1x128x1x32_0_256_15_1 : ∀ a, (![0, 256, 15, 1] : Fin 4 → Nat) a + S1x128x1x32.size a ≤ S1x512x33x33.size a
  inb_S1152x1024_S128x32_640_480 : ∀ a, (![640, 480] : Fin 2 → Nat) a + S128x32.size a ≤ S1152x1024.size a
  inb_S1x512x33x33_S1x128x1x32_0_256_16_1 : ∀ a, (![0, 256, 16, 1] : Fin 4 → Nat) a + S1x128x1x32.size a ≤ S1x512x33x33.size a
  inb_S1152x1024_S128x32_640_512 : ∀ a, (![640, 512] : Fin 2 → Nat) a + S128x32.size a ≤ S1152x1024.size a
  inb_S1x512x33x33_S1x128x1x32_0_256_17_1 : ∀ a, (![0, 256, 17, 1] : Fin 4 → Nat) a + S1x128x1x32.size a ≤ S1x512x33x33.size a
  inb_S1152x1024_S128x32_640_544 : ∀ a, (![640, 544] : Fin 2 → Nat) a + S128x32.size a ≤ S1152x1024.size a
  inb_S1x512x33x33_S1x128x1x32_0_256_18_1 : ∀ a, (![0, 256, 18, 1] : Fin 4 → Nat) a + S1x128x1x32.size a ≤ S1x512x33x33.size a
  inb_S1152x1024_S128x32_640_576 : ∀ a, (![640, 576] : Fin 2 → Nat) a + S128x32.size a ≤ S1152x1024.size a
  inb_S1x512x33x33_S1x128x1x32_0_256_19_1 : ∀ a, (![0, 256, 19, 1] : Fin 4 → Nat) a + S1x128x1x32.size a ≤ S1x512x33x33.size a
  inb_S1152x1024_S128x32_640_608 : ∀ a, (![640, 608] : Fin 2 → Nat) a + S128x32.size a ≤ S1152x1024.size a
  inb_S1x512x33x33_S1x128x1x32_0_256_20_1 : ∀ a, (![0, 256, 20, 1] : Fin 4 → Nat) a + S1x128x1x32.size a ≤ S1x512x33x33.size a
  inb_S1152x1024_S128x32_640_640 : ∀ a, (![640, 640] : Fin 2 → Nat) a + S128x32.size a ≤ S1152x1024.size a
  inb_S1x512x33x33_S1x128x1x32_0_256_21_1 : ∀ a, (![0, 256, 21, 1] : Fin 4 → Nat) a + S1x128x1x32.size a ≤ S1x512x33x33.size a
  inb_S1152x1024_S128x32_640_672 : ∀ a, (![640, 672] : Fin 2 → Nat) a + S128x32.size a ≤ S1152x1024.size a
  inb_S1x512x33x33_S1x128x1x32_0_256_22_1 : ∀ a, (![0, 256, 22, 1] : Fin 4 → Nat) a + S1x128x1x32.size a ≤ S1x512x33x33.size a
  inb_S1152x1024_S128x32_640_704 : ∀ a, (![640, 704] : Fin 2 → Nat) a + S128x32.size a ≤ S1152x1024.size a
  inb_S1x512x33x33_S1x128x1x32_0_256_23_1 : ∀ a, (![0, 256, 23, 1] : Fin 4 → Nat) a + S1x128x1x32.size a ≤ S1x512x33x33.size a
  inb_S1152x1024_S128x32_640_736 : ∀ a, (![640, 736] : Fin 2 → Nat) a + S128x32.size a ≤ S1152x1024.size a
  inb_S1x512x33x33_S1x128x1x32_0_256_24_1 : ∀ a, (![0, 256, 24, 1] : Fin 4 → Nat) a + S1x128x1x32.size a ≤ S1x512x33x33.size a
  inb_S1152x1024_S128x32_640_768 : ∀ a, (![640, 768] : Fin 2 → Nat) a + S128x32.size a ≤ S1152x1024.size a
  inb_S1x512x33x33_S1x128x1x32_0_256_25_1 : ∀ a, (![0, 256, 25, 1] : Fin 4 → Nat) a + S1x128x1x32.size a ≤ S1x512x33x33.size a
  inb_S1152x1024_S128x32_640_800 : ∀ a, (![640, 800] : Fin 2 → Nat) a + S128x32.size a ≤ S1152x1024.size a
  inb_S1x512x33x33_S1x128x1x32_0_256_26_1 : ∀ a, (![0, 256, 26, 1] : Fin 4 → Nat) a + S1x128x1x32.size a ≤ S1x512x33x33.size a
  inb_S1152x1024_S128x32_640_832 : ∀ a, (![640, 832] : Fin 2 → Nat) a + S128x32.size a ≤ S1152x1024.size a
  inb_S1x512x33x33_S1x128x1x32_0_256_27_1 : ∀ a, (![0, 256, 27, 1] : Fin 4 → Nat) a + S1x128x1x32.size a ≤ S1x512x33x33.size a
  inb_S1152x1024_S128x32_640_864 : ∀ a, (![640, 864] : Fin 2 → Nat) a + S128x32.size a ≤ S1152x1024.size a
  inb_S1x512x33x33_S1x128x1x32_0_256_28_1 : ∀ a, (![0, 256, 28, 1] : Fin 4 → Nat) a + S1x128x1x32.size a ≤ S1x512x33x33.size a
  inb_S1152x1024_S128x32_640_896 : ∀ a, (![640, 896] : Fin 2 → Nat) a + S128x32.size a ≤ S1152x1024.size a
  inb_S1x512x33x33_S1x128x1x32_0_256_29_1 : ∀ a, (![0, 256, 29, 1] : Fin 4 → Nat) a + S1x128x1x32.size a ≤ S1x512x33x33.size a
  inb_S1152x1024_S128x32_640_928 : ∀ a, (![640, 928] : Fin 2 → Nat) a + S128x32.size a ≤ S1152x1024.size a
  inb_S1x512x33x33_S1x128x1x32_0_256_30_1 : ∀ a, (![0, 256, 30, 1] : Fin 4 → Nat) a + S1x128x1x32.size a ≤ S1x512x33x33.size a
  inb_S1152x1024_S128x32_640_960 : ∀ a, (![640, 960] : Fin 2 → Nat) a + S128x32.size a ≤ S1152x1024.size a
  inb_S1x512x33x33_S1x128x1x32_0_256_31_1 : ∀ a, (![0, 256, 31, 1] : Fin 4 → Nat) a + S1x128x1x32.size a ≤ S1x512x33x33.size a
  inb_S1152x1024_S128x32_640_992 : ∀ a, (![640, 992] : Fin 2 → Nat) a + S128x32.size a ≤ S1152x1024.size a
  inb_S1152x1024_S128x32_768_0 : ∀ a, (![768, 0] : Fin 2 → Nat) a + S128x32.size a ≤ S1152x1024.size a
  inb_S1152x1024_S128x32_768_32 : ∀ a, (![768, 32] : Fin 2 → Nat) a + S128x32.size a ≤ S1152x1024.size a
  inb_S1152x1024_S128x32_768_64 : ∀ a, (![768, 64] : Fin 2 → Nat) a + S128x32.size a ≤ S1152x1024.size a
  inb_S1152x1024_S128x32_768_96 : ∀ a, (![768, 96] : Fin 2 → Nat) a + S128x32.size a ≤ S1152x1024.size a
  inb_S1152x1024_S128x32_768_128 : ∀ a, (![768, 128] : Fin 2 → Nat) a + S128x32.size a ≤ S1152x1024.size a
  inb_S1152x1024_S128x32_768_160 : ∀ a, (![768, 160] : Fin 2 → Nat) a + S128x32.size a ≤ S1152x1024.size a
  inb_S1152x1024_S128x32_768_192 : ∀ a, (![768, 192] : Fin 2 → Nat) a + S128x32.size a ≤ S1152x1024.size a
  inb_S1152x1024_S128x32_768_224 : ∀ a, (![768, 224] : Fin 2 → Nat) a + S128x32.size a ≤ S1152x1024.size a
  inb_S1152x1024_S128x32_768_256 : ∀ a, (![768, 256] : Fin 2 → Nat) a + S128x32.size a ≤ S1152x1024.size a
  inb_S1152x1024_S128x32_768_288 : ∀ a, (![768, 288] : Fin 2 → Nat) a + S128x32.size a ≤ S1152x1024.size a
  inb_S1152x1024_S128x32_768_320 : ∀ a, (![768, 320] : Fin 2 → Nat) a + S128x32.size a ≤ S1152x1024.size a
  inb_S1152x1024_S128x32_768_352 : ∀ a, (![768, 352] : Fin 2 → Nat) a + S128x32.size a ≤ S1152x1024.size a
  inb_S1152x1024_S128x32_768_384 : ∀ a, (![768, 384] : Fin 2 → Nat) a + S128x32.size a ≤ S1152x1024.size a
  inb_S1152x1024_S128x32_768_416 : ∀ a, (![768, 416] : Fin 2 → Nat) a + S128x32.size a ≤ S1152x1024.size a
  inb_S1152x1024_S128x32_768_448 : ∀ a, (![768, 448] : Fin 2 → Nat) a + S128x32.size a ≤ S1152x1024.size a
  inb_S1152x1024_S128x32_768_480 : ∀ a, (![768, 480] : Fin 2 → Nat) a + S128x32.size a ≤ S1152x1024.size a
  inb_S1152x1024_S128x32_768_512 : ∀ a, (![768, 512] : Fin 2 → Nat) a + S128x32.size a ≤ S1152x1024.size a
  inb_S1152x1024_S128x32_768_544 : ∀ a, (![768, 544] : Fin 2 → Nat) a + S128x32.size a ≤ S1152x1024.size a
  inb_S1152x1024_S128x32_768_576 : ∀ a, (![768, 576] : Fin 2 → Nat) a + S128x32.size a ≤ S1152x1024.size a
  inb_S1152x1024_S128x32_768_608 : ∀ a, (![768, 608] : Fin 2 → Nat) a + S128x32.size a ≤ S1152x1024.size a
  inb_S1152x1024_S128x32_768_640 : ∀ a, (![768, 640] : Fin 2 → Nat) a + S128x32.size a ≤ S1152x1024.size a
  inb_S1152x1024_S128x32_768_672 : ∀ a, (![768, 672] : Fin 2 → Nat) a + S128x32.size a ≤ S1152x1024.size a
  inb_S1152x1024_S128x32_768_704 : ∀ a, (![768, 704] : Fin 2 → Nat) a + S128x32.size a ≤ S1152x1024.size a
  inb_S1152x1024_S128x32_768_736 : ∀ a, (![768, 736] : Fin 2 → Nat) a + S128x32.size a ≤ S1152x1024.size a
  inb_S1152x1024_S128x32_768_768 : ∀ a, (![768, 768] : Fin 2 → Nat) a + S128x32.size a ≤ S1152x1024.size a
  inb_S1152x1024_S128x32_768_800 : ∀ a, (![768, 800] : Fin 2 → Nat) a + S128x32.size a ≤ S1152x1024.size a
  inb_S1152x1024_S128x32_768_832 : ∀ a, (![768, 832] : Fin 2 → Nat) a + S128x32.size a ≤ S1152x1024.size a
  inb_S1152x1024_S128x32_768_864 : ∀ a, (![768, 864] : Fin 2 → Nat) a + S128x32.size a ≤ S1152x1024.size a
  inb_S1152x1024_S128x32_768_896 : ∀ a, (![768, 896] : Fin 2 → Nat) a + S128x32.size a ≤ S1152x1024.size a
  inb_S1152x1024_S128x32_768_928 : ∀ a, (![768, 928] : Fin 2 → Nat) a + S128x32.size a ≤ S1152x1024.size a
  inb_S1152x1024_S128x32_768_960 : ∀ a, (![768, 960] : Fin 2 → Nat) a + S128x32.size a ≤ S1152x1024.size a
  inb_S1x512x33x33_S1x128x1x32_0_0_32_0 : ∀ a, (![0, 0, 32, 0] : Fin 4 → Nat) a + S1x128x1x32.size a ≤ S1x512x33x33.size a
  inb_S1152x1024_S128x32_768_992 : ∀ a, (![768, 992] : Fin 2 → Nat) a + S128x32.size a ≤ S1152x1024.size a
  inb_S1152x1024_S128x32_896_0 : ∀ a, (![896, 0] : Fin 2 → Nat) a + S128x32.size a ≤ S1152x1024.size a
  inb_S1152x1024_S128x32_896_32 : ∀ a, (![896, 32] : Fin 2 → Nat) a + S128x32.size a ≤ S1152x1024.size a
  inb_S1152x1024_S128x32_896_64 : ∀ a, (![896, 64] : Fin 2 → Nat) a + S128x32.size a ≤ S1152x1024.size a
  inb_S1152x1024_S128x32_896_96 : ∀ a, (![896, 96] : Fin 2 → Nat) a + S128x32.size a ≤ S1152x1024.size a
  inb_S1152x1024_S128x32_896_128 : ∀ a, (![896, 128] : Fin 2 → Nat) a + S128x32.size a ≤ S1152x1024.size a
  inb_S1152x1024_S128x32_896_160 : ∀ a, (![896, 160] : Fin 2 → Nat) a + S128x32.size a ≤ S1152x1024.size a
  inb_S1152x1024_S128x32_896_192 : ∀ a, (![896, 192] : Fin 2 → Nat) a + S128x32.size a ≤ S1152x1024.size a
  inb_S1152x1024_S128x32_896_224 : ∀ a, (![896, 224] : Fin 2 → Nat) a + S128x32.size a ≤ S1152x1024.size a
  inb_S1152x1024_S128x32_896_256 : ∀ a, (![896, 256] : Fin 2 → Nat) a + S128x32.size a ≤ S1152x1024.size a
  inb_S1152x1024_S128x32_896_288 : ∀ a, (![896, 288] : Fin 2 → Nat) a + S128x32.size a ≤ S1152x1024.size a
  inb_S1152x1024_S128x32_896_320 : ∀ a, (![896, 320] : Fin 2 → Nat) a + S128x32.size a ≤ S1152x1024.size a
  inb_S1152x1024_S128x32_896_352 : ∀ a, (![896, 352] : Fin 2 → Nat) a + S128x32.size a ≤ S1152x1024.size a
  inb_S1152x1024_S128x32_896_384 : ∀ a, (![896, 384] : Fin 2 → Nat) a + S128x32.size a ≤ S1152x1024.size a
  inb_S1152x1024_S128x32_896_416 : ∀ a, (![896, 416] : Fin 2 → Nat) a + S128x32.size a ≤ S1152x1024.size a
  inb_S1152x1024_S128x32_896_448 : ∀ a, (![896, 448] : Fin 2 → Nat) a + S128x32.size a ≤ S1152x1024.size a
  inb_S1152x1024_S128x32_896_480 : ∀ a, (![896, 480] : Fin 2 → Nat) a + S128x32.size a ≤ S1152x1024.size a
  inb_S1152x1024_S128x32_896_512 : ∀ a, (![896, 512] : Fin 2 → Nat) a + S128x32.size a ≤ S1152x1024.size a
  inb_S1152x1024_S128x32_896_544 : ∀ a, (![896, 544] : Fin 2 → Nat) a + S128x32.size a ≤ S1152x1024.size a
  inb_S1152x1024_S128x32_896_576 : ∀ a, (![896, 576] : Fin 2 → Nat) a + S128x32.size a ≤ S1152x1024.size a
  inb_S1152x1024_S128x32_896_608 : ∀ a, (![896, 608] : Fin 2 → Nat) a + S128x32.size a ≤ S1152x1024.size a
  inb_S1152x1024_S128x32_896_640 : ∀ a, (![896, 640] : Fin 2 → Nat) a + S128x32.size a ≤ S1152x1024.size a
  inb_S1152x1024_S128x32_896_672 : ∀ a, (![896, 672] : Fin 2 → Nat) a + S128x32.size a ≤ S1152x1024.size a
  inb_S1152x1024_S128x32_896_704 : ∀ a, (![896, 704] : Fin 2 → Nat) a + S128x32.size a ≤ S1152x1024.size a
  inb_S1152x1024_S128x32_896_736 : ∀ a, (![896, 736] : Fin 2 → Nat) a + S128x32.size a ≤ S1152x1024.size a
  inb_S1152x1024_S128x32_896_768 : ∀ a, (![896, 768] : Fin 2 → Nat) a + S128x32.size a ≤ S1152x1024.size a
  inb_S1152x1024_S128x32_896_800 : ∀ a, (![896, 800] : Fin 2 → Nat) a + S128x32.size a ≤ S1152x1024.size a
  inb_S1152x1024_S128x32_896_832 : ∀ a, (![896, 832] : Fin 2 → Nat) a + S128x32.size a ≤ S1152x1024.size a
  inb_S1152x1024_S128x32_896_864 : ∀ a, (![896, 864] : Fin 2 → Nat) a + S128x32.size a ≤ S1152x1024.size a
  inb_S1152x1024_S128x32_896_896 : ∀ a, (![896, 896] : Fin 2 → Nat) a + S128x32.size a ≤ S1152x1024.size a
  inb_S1152x1024_S128x32_896_928 : ∀ a, (![896, 928] : Fin 2 → Nat) a + S128x32.size a ≤ S1152x1024.size a
  inb_S1152x1024_S128x32_896_960 : ∀ a, (![896, 960] : Fin 2 → Nat) a + S128x32.size a ≤ S1152x1024.size a
  inb_S1x512x33x33_S1x128x1x32_0_128_32_0 : ∀ a, (![0, 128, 32, 0] : Fin 4 → Nat) a + S1x128x1x32.size a ≤ S1x512x33x33.size a
  inb_S1152x1024_S128x32_896_992 : ∀ a, (![896, 992] : Fin 2 → Nat) a + S128x32.size a ≤ S1152x1024.size a
  inb_S1152x1024_S128x32_1024_0 : ∀ a, (![1024, 0] : Fin 2 → Nat) a + S128x32.size a ≤ S1152x1024.size a
  inb_S1152x1024_S128x32_1024_32 : ∀ a, (![1024, 32] : Fin 2 → Nat) a + S128x32.size a ≤ S1152x1024.size a
  inb_S1152x1024_S128x32_1024_64 : ∀ a, (![1024, 64] : Fin 2 → Nat) a + S128x32.size a ≤ S1152x1024.size a
  inb_S1152x1024_S128x32_1024_96 : ∀ a, (![1024, 96] : Fin 2 → Nat) a + S128x32.size a ≤ S1152x1024.size a
  inb_S1152x1024_S128x32_1024_128 : ∀ a, (![1024, 128] : Fin 2 → Nat) a + S128x32.size a ≤ S1152x1024.size a
  inb_S1152x1024_S128x32_1024_160 : ∀ a, (![1024, 160] : Fin 2 → Nat) a + S128x32.size a ≤ S1152x1024.size a
  inb_S1152x1024_S128x32_1024_192 : ∀ a, (![1024, 192] : Fin 2 → Nat) a + S128x32.size a ≤ S1152x1024.size a
  inb_S1152x1024_S128x32_1024_224 : ∀ a, (![1024, 224] : Fin 2 → Nat) a + S128x32.size a ≤ S1152x1024.size a
  inb_S1152x1024_S128x32_1024_256 : ∀ a, (![1024, 256] : Fin 2 → Nat) a + S128x32.size a ≤ S1152x1024.size a
  inb_S1152x1024_S128x32_1024_288 : ∀ a, (![1024, 288] : Fin 2 → Nat) a + S128x32.size a ≤ S1152x1024.size a
  inb_S1152x1024_S128x32_1024_320 : ∀ a, (![1024, 320] : Fin 2 → Nat) a + S128x32.size a ≤ S1152x1024.size a
  inb_S1152x1024_S128x32_1024_352 : ∀ a, (![1024, 352] : Fin 2 → Nat) a + S128x32.size a ≤ S1152x1024.size a
  inb_S1152x1024_S128x32_1024_384 : ∀ a, (![1024, 384] : Fin 2 → Nat) a + S128x32.size a ≤ S1152x1024.size a
  inb_S1152x1024_S128x32_1024_416 : ∀ a, (![1024, 416] : Fin 2 → Nat) a + S128x32.size a ≤ S1152x1024.size a
  inb_S1152x1024_S128x32_1024_448 : ∀ a, (![1024, 448] : Fin 2 → Nat) a + S128x32.size a ≤ S1152x1024.size a
  inb_S1152x1024_S128x32_1024_480 : ∀ a, (![1024, 480] : Fin 2 → Nat) a + S128x32.size a ≤ S1152x1024.size a
  inb_S1152x1024_S128x32_1024_512 : ∀ a, (![1024, 512] : Fin 2 → Nat) a + S128x32.size a ≤ S1152x1024.size a
  inb_S1152x1024_S128x32_1024_544 : ∀ a, (![1024, 544] : Fin 2 → Nat) a + S128x32.size a ≤ S1152x1024.size a
  inb_S1152x1024_S128x32_1024_576 : ∀ a, (![1024, 576] : Fin 2 → Nat) a + S128x32.size a ≤ S1152x1024.size a
  inb_S1152x1024_S128x32_1024_608 : ∀ a, (![1024, 608] : Fin 2 → Nat) a + S128x32.size a ≤ S1152x1024.size a
  inb_S1152x1024_S128x32_1024_640 : ∀ a, (![1024, 640] : Fin 2 → Nat) a + S128x32.size a ≤ S1152x1024.size a
  inb_S1152x1024_S128x32_1024_672 : ∀ a, (![1024, 672] : Fin 2 → Nat) a + S128x32.size a ≤ S1152x1024.size a
  inb_S1152x1024_S128x32_1024_704 : ∀ a, (![1024, 704] : Fin 2 → Nat) a + S128x32.size a ≤ S1152x1024.size a
  inb_S1152x1024_S128x32_1024_736 : ∀ a, (![1024, 736] : Fin 2 → Nat) a + S128x32.size a ≤ S1152x1024.size a
  inb_S1152x1024_S128x32_1024_768 : ∀ a, (![1024, 768] : Fin 2 → Nat) a + S128x32.size a ≤ S1152x1024.size a
  inb_S1152x1024_S128x32_1024_800 : ∀ a, (![1024, 800] : Fin 2 → Nat) a + S128x32.size a ≤ S1152x1024.size a
  inb_S1152x1024_S128x32_1024_832 : ∀ a, (![1024, 832] : Fin 2 → Nat) a + S128x32.size a ≤ S1152x1024.size a
  inb_S1152x1024_S128x32_1024_864 : ∀ a, (![1024, 864] : Fin 2 → Nat) a + S128x32.size a ≤ S1152x1024.size a
  inb_S1152x1024_S128x32_1024_896 : ∀ a, (![1024, 896] : Fin 2 → Nat) a + S128x32.size a ≤ S1152x1024.size a
  inb_S1152x1024_S128x32_1024_928 : ∀ a, (![1024, 928] : Fin 2 → Nat) a + S128x32.size a ≤ S1152x1024.size a
  inb_S1152x1024_S128x32_1024_960 : ∀ a, (![1024, 960] : Fin 2 → Nat) a + S128x32.size a ≤ S1152x1024.size a
  inb_S1x512x33x33_S1x128x1x32_0_0_32_1 : ∀ a, (![0, 0, 32, 1] : Fin 4 → Nat) a + S1x128x1x32.size a ≤ S1x512x33x33.size a
  inb_S1152x1024_S128x32_1024_992 : ∀ a, (![1024, 992] : Fin 2 → Nat) a + S128x32.size a ≤ S1152x1024.size a
  inb_S128x1152_S128x1152_0_0 : ∀ a, (![0, 0] : Fin 2 → Nat) a + S128x1152.size a ≤ S128x1152.size a
  h_S128x1152 : 0 < S128x1152.numel
  shapeCasts_S128x1152_S128x1152 : S128x1152.ShapeCasts S128x1152
  inb_S1152x1024_S1152x1024_0_0 : ∀ a, (![0, 0] : Fin 2 → Nat) a + S1152x1024.size a ≤ S1152x1024.size a
  h_S1152x1024 : 0 < S1152x1024.numel
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x1024 : S128x1.Broadcasts S128x1024
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  shapeCasts_S128x1024_S1x128x1024 : S128x1024.ShapeCasts S1x128x1024
  shapeCasts_S32x128x1024_S32x128x32x32 : S32x128x1024.ShapeCasts S32x128x32x32
  dot_S128x1152_S1152x1024_S128x1024_1_0_0_1_n_n_wf : DotDims.WF S128x1152 S1152x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x33x33.size a ≤ S32x512x33x33.size a
  hwx0_0 : ∀ i : grid0.Coords, EltTy.bits .f32 = 32 ∨ (Rect.block (s := S32x512x33x33) S1x512x33x33.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x1152.size a ≤ S128x1152.size a
  hwx0_1 : ∀ i : grid0.Coords, EltTy.bits .f32 = 32 ∨ (Rect.block (s := S128x1152) S128x1152.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S128x1.size a
  hwx0_2 : ∀ i : grid0.Coords, EltTy.bits .f32 = 32 ∨ (Rect.block (s := S128x1) S128x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x1024.size a ≤ S32x128x1024.size a
  hwx0_3 : ∀ i : grid0.Coords, EltTy.bits .f32 = 32 ∨ (Rect.block (s := S32x128x1024) S1x128x1024.size (cc0_transform_3 i) (hinb0_3 i)).WholeWords (EltTy.packing .f32)

variable [Facts₀]

def dot_S128x1152_S1152x1024_S128x1024_1_0_0_1_n_n : DotDims S128x1152 S1152x1024 S128x1024 where
  lhsContracting := [1]
  rhsContracting := [0]
  lhsNonContracting := [0]
  rhsNonContracting := [1]
  lhsBatch := []
  rhsBatch := []
  wf := dot_S128x1152_S1152x1024_S128x1024_1_0_0_1_n_n_wf

abbrev win0_0 : Pipeline.Window sig grid0 :=
  Pipeline.Window.ofSpec (Memref.whole main_v3) S1x512x33x33.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S128x1152.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S128x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x128x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== Proof.Spec.lean ====
/-
  The mathematics both programs compute: a 3×3 convolution with stride 2 and zero padding 1, plus a bias,
  written as ONE sum over the 1152 = 9 · 128 pairs (tap, input channel).

  The padded input of one batch element is split into four PHASE images (even/odd rows × even/odd columns), each
  33 × 33, stacked along the channel axis: image `2·py + px` occupies channels `128·(2·py+px) … +127`, and its entry
  (i, j) is the padded input at (2i + py, 2j + px).  For the tap (ky, kx) the output pixel (oy, ox) reads the padded
  input at (2·oy + ky, 2·ox + kx), which is entry (oy + ky/2, ox + kx/2) of phase image 2·(ky%2) + kx%2.
  With k = 128·(3·ky + kx) + c the summation index, `chan k`, `prow k n`, `pcol k n` name that channel, row and
  column for the output pixel n = 32·oy + ox.
-/
import Idealize.ShloMosaic.PureOps.Ideal
import Idealize.ShloMosaic.Lib.ValueIdx

noncomputable section

namespace Cert.Conv

open Idealize.ShloMosaic

/-- The stacked-phase channel the summation index `k = 128·tap + c` reads: phase `2·(ky%2) + kx%2`, channel `c`. -/
def chan (k : Fin 1152) : Fin 512 :=
  ⟨128 * ((k.val / 128 / 3 % 2) * 2 + k.val / 128 % 3 % 2) + k.val % 128, by omega⟩

/-- The phase-image row output pixel `n = 32·oy + ox` reads for index `k`: `oy + ky/2`. -/
def prow (k : Fin 1152) (n : Fin 1024) : Fin 33 := ⟨n.val / 32 + k.val / 128 / 3 / 2, by omega⟩

/-- The phase-image column it reads: `ox + kx/2`. -/
def pcol (k : Fin 1152) (n : Fin 1024) : Fin 33 := ⟨n.val % 32 + k.val / 128 % 3 / 2, by omega⟩

/-- One output entry: the sum over the 1152 (tap, channel) pairs of weight × phase-image entry, plus the bias.
    `P` is one batch element's stacked phase images, `W` one output channel's weight row, `B` its bias. -/
def conv (P : Fin 512 → Fin 33 → Fin 33 → EReal) (W : Fin 1152 → EReal) (B : EReal) (n : Fin 1024) : EReal :=
  (∑ k : Fin 1152, W k * P (chan k) (prow k n) (pcol k n)) + B

/-- The whole result, [32, 128, 1024] (batch, output channel, pixel), from the phase images of every batch element,
    the weight matrix and the bias vector. -/
def convArr (P : Fin 32 → Fin 512 → Fin 33 → Fin 33 → EReal) (W : Fin 128 → Fin 1152 → EReal) (B : Fin 128 → EReal) :
    (⟨3, ![32, 128, 1024]⟩ : Shape).Idx → EReal :=
  fun y => conv (P (y 0)) (W (y 1)) (B (y 1)) (y 2)

/-- Entry (i, j) of a 33 × 33 image stored flat, row after row, in a line of 1152 (the last 63 places unused). -/
def flat (i j : Fin 33) : Fin 1152 := ⟨33 * i.val + j.val, by omega⟩

end Cert.Conv

end
-- ==== Proof.LibMatmulPlain.lean ====
/-
  A plain matrix product accumulated into zero, read at an entry.

  For an m × k matrix A and a k × n matrix B contracted over A's second and B's first axis (no batch axes), the
  product accumulated into the zero matrix has at (a, b) the sum over c of A (a, c) · B (c, b), at the extended
  reals — a sum indexed by `Fin k`, whatever record spells the dimension numbers.
-/
import Idealize.ShloMosaic.PureOps.Ideal.Laws
import Idealize.ShloMosaic.Lib.ValueIdx

noncomputable section

namespace Idealize.ShloMosaic.MatmulPlain

open Idealize.ShloMosaic Idealize.ShloMosaic.ValueIdx

/-- The matrix product of an m × k by a k × n matrix into the zero accumulator, at (a, b), is
    `∑ c, A (a, c) * B (c, b)`. General in m, k, n, the operand formats and the well-formedness proof. -/
theorem matmul_zero_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims ⟨2, ![m, k]⟩ ⟨2, ![k, n]⟩ ⟨2, ![m, n]⟩) prec A B
        (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.MatmulPlain

end
-- ==== Proof.KPieces.lean ====
/-
  The kernel's body, piece by piece.

  The body copies nine shifted windows of the flat phase lines into the rows of the im2col matrix (row block
  `tap`, 128 rows, holds phase `2·(ky%2) + kx%2` shifted by `33·(ky/2) + kx/2` places), multiplies the weight
  matrix by it, adds the bias column, and stores the 33-wide rows of the product as 32-wide rows.  Here: the
  im2col matrix as ONE function of the input block (`patch`), each copy as a block of it, the product read at an
  entry, and each of the 32 output stores as a block of one function of the product.
-/
import proofs.«108493_g2000305290246543_pallasbulk_170_5_alg».proof.Proof.Gen.KernelIdeal.Skeleton
import proofs.«108493_g2000305290246543_pallasbulk_170_5_alg».proof.Proof.Spec
import proofs.«108493_g2000305290246543_pallasbulk_170_5_alg».proof.Proof.LibMatmulPlain
import Idealize.ShloMosaic.Lib.Pipeline.Value

noncomputable section

open Idealize.ShloMosaic Idealize.ShloMosaic.TcCoe Idealize.SL.Sem
open Idealize.ShloMosaic.ValueIdx

namespace Cert.KernelIdeal.KValue

open Cert.KernelIdeal Cert.KernelIdeal.Gen Cert.KernelIdeal.Facts₀ Cert.Conv

/-- How many places further on the flat phase line the tap of summation index `k` reads: `33·(ky/2) + kx/2`. -/
def shift (k : Fin 1152) : ℕ := 33 * (k.val / 128 / 3 / 2) + k.val / 128 % 3 / 2

/-- The column of the 33-wide row layout that holds pixel `n = 32·oy + ox`: `33·oy + ox`. -/
def col33 (n : Fin 1024) : Fin 1056 := ⟨33 * (n.val / 32) + n.val % 32, by omega⟩

/-- Entry (k, n) of the im2col matrix: the flat phase line of channel `chan k` at `n + shift k`. -/
def patchAt (x0 : Vec Ideal S1x512x1152 .bf16) (k : Fin 1152) (n : Fin 1056) : Elt Ideal .bf16 :=
  x0 (ix3 (0 : Fin 1) (chan k) ⟨n.val + shift k, by unfold shift; omega⟩)

/-- The im2col matrix as one function of the input block. -/
def patch (x0 : Vec Ideal S1x512x1152 .bf16) : Vec Ideal S1152x1056 .bf16 := fun z => patchAt x0 (z 0) (z 1)

/-- A copy of the 128 × 1056 window at channel offset `a`, lane offset `d` of the input block into rows
    `o1 … o1+127` of the im2col matrix is the block of `patch` there, when `o1 = 128·t` and `a`, `d` are tap
    `t`'s phase offset and shift. -/
theorem copy_piece (x0 : Vec Ideal S1x512x1152 .bf16) (o1 a d t : ℕ)
    (inbS : ∀ ax, (![0, a, d] : Fin 3 → ℕ) ax + S1x128x1056.size ax ≤ S1x512x1152.size ax)
    (inbD : ∀ ax, (![o1, 0] : Fin 2 → ℕ) ax + S128x1056.size ax ≤ S1152x1056.size ax)
    (h1 : S1x128x1056.ShapeCasts S128x1056) (h2 : S128x1056.ShapeCasts S128x1056)
    (ht : o1 = 128 * t) (ha : a = 128 * ((t / 3 % 2) * 2 + t % 3 % 2)) (hd : d = 33 * (t / 3 / 2) + t % 3 / 2)
    (x : (Rect.unit (s := S1152x1056) ![o1, 0] S128x1056.size inbD).shape.Idx) :
    shapeCast S128x1056 (shapeCast S128x1056
        (View.ld x0 (Rect.unit (s := S1x512x1152) ![0, a, d] S1x128x1056.size inbS)) h1) h2 x
      = patch x0 ((Rect.unit (s := S1152x1056) ![o1, 0] S128x1056.size inbD).emb x) := by
  have hx0 : (x 0).val < 128 := (x 0).isLt
  have hx1 : (x 1).val < 1056 := (x 1).isLt
  have hb1 : o1 + 128 ≤ 1152 := inbD 0
  rw [shapeCast_self]
  refine (shapeCast_dropUnit_apply ![128, 1056] _ h1 x).trans ?_
  show x0 _ = patchAt x0 _ _
  unfold patchAt
  refine congrArg x0 (funext fun ax => Fin.ext ?_)
  match ax with
  | ⟨0, _⟩ => rfl
  | ⟨1, _⟩ =>
    show a + 1 * (x 0).val = 128 * (((o1 + 1 * (x 0).val) / 128 / 3 % 2) * 2 + (o1 + 1 * (x 0).val) / 128 % 3 % 2)
      + (o1 + 1 * (x 0).val) % 128
    omega
  | ⟨2, _⟩ =>
    show d + 1 * (x 1).val = (0 + 1 * (x 1).val)
      + (33 * ((o1 + 1 * (x 0).val) / 128 / 3 / 2) + (o1 + 1 * (x 0).val) / 128 % 3 / 2)
    omega

/-- The product plus bias, [128, 1056], from the three input blocks (the body's one arithmetic term). -/
def acc (x0 : Vec Ideal S1x512x1152 .bf16) (x1 : Vec Ideal S128x1152 .bf16) (x2 : Vec Ideal S128x1 .f32) :
    FVec Ideal S128x1056 .f32 := k0_pay12 x1 (patch x0) x2

/-- At (r, n) it is the sum over the 1152 (tap, channel) pairs of weight × im2col entry, plus the bias of row r. -/
theorem acc_apply (x0 : Vec Ideal S1x512x1152 .bf16) (x1 : Vec Ideal S128x1152 .bf16) (x2 : Vec Ideal S128x1 .f32)
    (r : Fin 128) (n : Fin 1056) :
    acc x0 x1 x2 (ix2 r n) = (∑ k : Fin 1152, x1 (ix2 r k) * patchAt x0 k n) + x2 (ix2 r (0 : Fin 1)) := by
  unfold acc k0_pay12
  refine (addf_apply _ _ (ix2 r n)).trans ?_
  refine congrArg₂ (· + ·) ?_ ?_
  · rw [shapeCast_self]
    exact MatmulPlain.matmul_zero_apply _ none x1 (patch x0) r n
  · refine (broadcastTo_apply _ _ (ix2 r n) (ix2 r (0 : Fin 1)) ?_).trans ?_
    · intro a
      match a with
      | ⟨0, _⟩ => rfl
      | ⟨1, _⟩ => rfl
    · rw [shapeCast_self]

/-- A store of the 128 × 32 slice of the product at columns `col … col+31` into lanes `o … o+31` of the output
    block, when `o = 32·oy` and `col = 33·oy`, is the block there of any function `G` of the output index that reads
    the product at column `col33` of the pixel. -/
theorem out_piece (A : FVec Ideal S128x1056 .f32) (G : S1x128x1024.Idx → Elt Ideal .f32)
    (hG : ∀ (r : Fin 128) (n : Fin 1024), G (ix3 (0 : Fin 1) r n) = A (ix2 r (col33 n)))
    (o col : ℕ) (hs : S128x1056.Slices ![0, col] S128x32) (hc : S128x32.ShapeCasts S1x128x32)
    (inb : ∀ ax, (![0, 0, o] : Fin 3 → ℕ) ax + S1x128x32.size ax ≤ S1x128x1024.size ax)
    (ho : o % 32 = 0) (hcol : col = 33 * (o / 32))
    (x : (Rect.unit (s := S1x128x1024) ![0, 0, o] S1x128x32.size inb).shape.Idx) :
    shapeCast S1x128x32 (extractStridedSlice S128x32 ![0, col] A hs) hc x
      = G ((Rect.unit (s := S1x128x1024) ![0, 0, o] S1x128x32.size inb).emb x) := by
  have h0 : (x 0).val < 1 := (x 0).isLt
  have h1 : (x 1).val < 128 := (x 1).isLt
  have h2 : (x 2).val < 32 := (x 2).isLt
  have hb : o + 32 ≤ 1024 := inb 2
  have e : (Rect.unit (s := S1x128x1024) ![0, 0, o] S1x128x32.size inb).emb x
      = ix3 (0 : Fin 1) (⟨(x 1).val, h1⟩ : Fin 128) (⟨o + (x 2).val, by omega⟩ : Fin 1024) := by
    funext ax; apply Fin.ext
    match ax with
    | ⟨0, _⟩ => show 0 + 1 * (x 0).val = 0; omega
    | ⟨1, _⟩ => show 0 + 1 * (x 1).val = (x 1).val; omega
    | ⟨2, _⟩ => show o + 1 * (x 2).val = o + (x 2).val; omega
  rw [e, hG]
  refine (shapeCast_addUnit_apply ![128, 32] _ hc x).trans ?_
  refine extractStridedSlice_apply ![0, col] A hs _ _ ?_
  intro a
  match a with
  | ⟨0, _⟩ => show (x 1).val = 0 + (x 1).val; omega
  | ⟨1, _⟩ =>
    show 33 * ((o + (x 2).val) / 32) + (o + (x 2).val) % 32 = col + (x 2).val
    omega

end Cert.KernelIdeal.KValue

end
-- ==== Proof.KBody.lean ====
/-
  The kernel's body as one function of its three input blocks.

  After the body, entry (0, oc, n) of the output block is the convolution sum of Spec for output channel `oc` and
  pixel `n`, over the flat phase lines of the input block: the nine copies make the im2col matrix `patch`, the
  product plus bias is `acc`, and the 32 output stores drop the one unused column in every 33.
-/
import proofs.«108493_g2000305290246543_pallasbulk_170_5_alg».proof.Proof.Gen.KernelIdeal.Frame
import proofs.«108493_g2000305290246543_pallasbulk_170_5_alg».proof.Proof.KPieces
import Idealize.ShloMosaic.Lib.Tactic

noncomputable section

open Idealize.ShloMosaic Idealize.ShloMosaic.TcCoe Idealize.SL.Sem
open Idealize.ShloMosaic.ValueIdx

namespace Cert.KernelIdeal.KValue

open Cert.KernelIdeal Cert.KernelIdeal.Gen Cert.Conv

theorem hz2 : (![0, 0] : Fin 2 → Nat) = fun _ => 0 := funext fun a => by fin_cases a <;> rfl

/-- The output block: entry (0, oc, n) is the convolution sum for channel `oc`, pixel `n`, over the block's flat
    phase lines, the block's weight rows and bias column. -/
def blockOut (x0 : Vec Ideal S1x512x1152 .bf16) (x1 : Vec Ideal S128x1152 .bf16) (x2 : Vec Ideal S128x1 .f32) :
    Vec Ideal S1x128x1024 .f32 :=
  fun y => conv (fun q i j => x0 (ix3 (0 : Fin 1) q (flat i j))) (fun k => x1 (ix2 (y 1) k))
    (x2 (ix2 (y 1) (0 : Fin 1))) (y 2)

/-- It reads the product at the 33-wide column of the pixel: entry (i, j) of a flat phase line sits at 33·i + j, so
    the phase entry (oy + ky/2, ox + kx/2) is `shift k` places after column 33·oy + ox. -/
theorem blockOut_apply (x0 : Vec Ideal S1x512x1152 .bf16) (x1 : Vec Ideal S128x1152 .bf16) (x2 : Vec Ideal S128x1 .f32)
    (r : Fin 128) (n : Fin 1024) :
    blockOut x0 x1 x2 (ix3 (0 : Fin 1) r n) = acc x0 x1 x2 (ix2 r (col33 n)) := by
  rw [acc_apply]
  show (∑ k : Fin 1152, x1 (ix2 r k) * x0 (ix3 (0 : Fin 1) (chan k) (flat (prow k n) (pcol k n)))) + x2 (ix2 r (0 : Fin 1)) = _
  refine congrArg (· + x2 (ix2 r (0 : Fin 1))) (Finset.sum_congr rfl fun k _ => ?_)
  refine congrArg (x1 (ix2 r k) * ·) ?_
  unfold patchAt
  refine congrArg x0 (congrArg (ix3 (0 : Fin 1) (chan k)) (Fin.ext ?_))
  show 33 * (n.val / 32 + k.val / 128 / 3 / 2) + (n.val % 32 + k.val / 128 % 3 / 2)
    = (33 * (n.val / 32) + n.val % 32) + (33 * (k.val / 128 / 3 / 2) + k.val / 128 % 3 / 2)
  omega

/-- What the body leaves in the output's staging buffer is `blockOut` of the input blocks. -/
theorem out_eq (c : Dev nD) (i : grid0.Coords) (arg1 : Memref sig .tc .vmem S1x512x1152 .bf16) (harg1 : arg1.IsWhole) (arg2 : Memref sig .tc .vmem S128x1152 .bf16) (harg2 : arg2.IsWhole) (arg3 : Memref sig .tc .vmem S128x1 .f32) (harg3 : arg3.IsWhole) (arg4 : Memref sig .tc .vmem S1x128x1024 .f32) (harg4 : arg4.IsWhole) (arg5 : Memref sig .tc .vmem S1152x1056 .bf16) (harg5 : arg5.IsWhole)
    (x0 : Vec Ideal S1x512x1152 .bf16) (x1 : Vec Ideal S128x1152 .bf16) (x2 : Vec Ideal S128x1 .f32) :
    out0_A_3 (F := Ideal) c i arg1 harg1 arg2 harg2 arg3 harg3 arg4 harg4 arg5 harg5 x0 x1 x2 = blockOut x0 x1 x2 := by
  unfold out0_A_3
  rw [View.read_writes_eq_canon _ _ _ (cover0_A_3 c i arg1 harg1 arg2 harg2 arg3 harg3 arg4 harg4 arg5 harg5 x0 x1 x2)]
  funext y
  refine View.canon_apply_of_pieces (blockOut x0 x1 x2) _ ?_ y (cover0_A_3 c i arg1 harg1 arg2 harg2 arg3 harg3 arg4 harg4 arg5 harg5 x0 x1 x2 y)
  unfold kernelRun0_A
  dsimp only
  sl_unfold_words
  generalize hP : View.readCov (Val := Elt Ideal) arg5.view _ _ = P
  have hP' : P = patch x0 := by
    rw [← hP, View.readCov_eq_canon']
    simp only [View.readAt_eq_ld, harg1.read_unread]
    refine (View.ld_unit_zero (S := S1152x1056) hz2 _ (View.canon _)).trans ?_
    funext z
    refine View.canon_apply_of_pieces (patch x0) _ ?_ z ?_
    · intro p hp
      simp only [List.mem_cons, List.mem_nil_iff, or_false] at hp
      rcases hp with rfl | rfl | rfl | rfl | rfl | rfl | rfl | rfl | rfl
      · intro x; exact copy_piece x0 _ _ _ 8 (by decide) (by decide) (by decide) (by decide) (by decide) (by decide) (by decide) x
      · intro x; exact copy_piece x0 _ _ _ 7 (by decide) (by decide) (by decide) (by decide) (by decide) (by decide) (by decide) x
      · intro x; exact copy_piece x0 _ _ _ 6 (by decide) (by decide) (by decide) (by decide) (by decide) (by decide) (by decide) x
      · intro x; exact copy_piece x0 _ _ _ 5 (by decide) (by decide) (by decide) (by decide) (by decide) (by decide) (by decide) x
      · intro x; exact copy_piece x0 _ _ _ 4 (by decide) (by decide) (by decide) (by decide) (by decide) (by decide) (by decide) x
      · intro x; exact copy_piece x0 _ _ _ 3 (by decide) (by decide) (by decide) (by decide) (by decide) (by decide) (by decide) x
      · intro x; exact copy_piece x0 _ _ _ 2 (by decide) (by decide) (by decide) (by decide) (by decide) (by decide) (by decide) x
      · intro x; exact copy_piece x0 _ _ _ 1 (by decide) (by decide) (by decide) (by decide) (by decide) (by decide) (by decide) x
      · intro x; exact copy_piece x0 _ _ _ 0 (by decide) (by decide) (by decide) (by decide) (by decide) (by decide) (by decide) x
    · exact View.cover_of_tiledL (s := S1152x1056) _ S128x1056.size (by sl_kernel_rfl) z
  subst hP'
  simp only [View.readAt_eq_ld, harg2.read_unread, harg3.read_unread, View.ld_unit_zero (S := S128x1152) hz2,
    View.ld_unit_zero (S := S128x1) hz2]
  intro p hp
  simp only [List.mem_cons, List.mem_nil_iff, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals
    intro x
    exact out_piece (acc x0 x1 x2) (blockOut x0 x1 x2) (blockOut_apply x0 x1 x2) _ _ (by decide) (by decide) (by decide) (by decide) (by decide) x

end Cert.KernelIdeal.KValue

end
-- ==== Proof.KArray.lean ====
/-
  The kernel's output array after the run.

  Grid point t handles batch element t: its input block of the flat phase lines is row t of the array, its weight
  and bias blocks are the whole arrays, and it writes back row t of the output.  Every point writes back, and the 32
  rows cover the output array, so the array ends holding the convolution (Spec's `convArr`) of the three region inputs.
-/
import proofs.«108493_g2000305290246543_pallasbulk_170_5_alg».proof.Proof.KBody

noncomputable section

open Idealize.ShloMosaic Idealize.ShloMosaic.TcCoe Idealize.SL.Sem
open Idealize.ShloMosaic.ValueIdx
open Idealize.ShloMosaic.Pipeline (Dat)

namespace Cert.KernelIdeal.KValue

open Cert.KernelIdeal Cert.KernelIdeal.Gen Cert.Conv

variable (m : (ℓ : Loc nD τ sig) → Buf (Elt Ideal) ℓ)

/-- The output array as one function of the region's three input arrays. -/
def arr (c : Dev nD) : S32x128x1024.Idx → Elt Ideal .f32 :=
  convArr (fun b q i j => V m c main_v5 (ix3 b q (flat i j))) (fun oc k => V m c main_v8 (ix2 oc k))
    (fun oc => V m c main_v9 (ix2 oc (0 : Fin 1)))

/-- A grid point is a batch index. -/
theorem tlt (t : Fin cfg0.N) : t.val < 32 := by
  have hN : cfg0.N = 32 := N_0
  have := t.isLt
  omega

/-- The index maps over the grid: the phase lines' and the output's block index is (t, 0, 0); the weights' and the
    bias's is (0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The phase-line block at point t is row t of its array. -/
theorem iblk0_apply (c : Dev nD) (t : Fin cfg0.N) (q : Fin 512) (l : Fin 1152) :
    iblk m c 0 t (ix3 (0 : Fin 1) q l) = V m c main_v5 (ix3 (⟨t.val, tlt t⟩ : Fin 32) q l) := by
  obtain ⟨e0, e1, e2, -⟩ := idx_facts t
  show V m c main_v5 (((cfg0.win 0).blk t).view.emb (ix3 (0 : Fin 1) q l)) = _
  refine congrArg (V m c main_v5 : S32x512x1152.Idx → Elt Ideal .bf16) (funext fun a => Fin.ext ?_)
  match a with
  | ⟨0, _⟩ => show win0_0.index t (0 : Fin 3) * 1 + 1 * 0 = t.val; omega
  | ⟨1, _⟩ => show win0_0.index t (1 : Fin 3) * 512 + 1 * q.val = q.val; omega
  | ⟨2, _⟩ => show win0_0.index t (2 : Fin 3) * 1152 + 1 * l.val = l.val; omega

/-- The weight block is the whole weight matrix. -/
theorem iblk1_apply (c : Dev nD) (t : Fin cfg0.N) (r : Fin 128) (k : Fin 1152) :
    iblk m c 1 t (ix2 r k) = V m c main_v8 (ix2 r k) := by
  obtain ⟨-, -, -, e0, e1, -⟩ := idx_facts t
  show V m c main_v8 (((cfg0.win 1).blk t).view.emb (ix2 r k)) = _
  refine congrArg (V m c main_v8 : S128x1152.Idx → Elt Ideal .bf16) (funext fun a => Fin.ext ?_)
  match a with
  | ⟨0, _⟩ => show win0_1.index t (0 : Fin 2) * 128 + 1 * r.val = r.val; omega
  | ⟨1, _⟩ => show win0_1.index t (1 : Fin 2) * 1152 + 1 * k.val = k.val; omega

/-- The bias block is the whole bias column. -/
theorem iblk2_apply (c : Dev nD) (t : Fin cfg0.N) (r : Fin 128) (z : Fin 1) :
    iblk m c 2 t (ix2 r z) = V m c main_v9 (ix2 r z) := by
  obtain ⟨-, -, -, -, -, e0, e1, -⟩ := idx_facts t
  show V m c main_v9 (((cfg0.win 2).blk t).view.emb (ix2 r z)) = _
  refine congrArg (V m c main_v9 : S128x1.Idx → Elt Ideal .f32) (funext fun a => Fin.ext ?_)
  match a with
  | ⟨0, _⟩ => show win0_2.index t (0 : Fin 2) * 128 + 1 * r.val = r.val; omega
  | ⟨1, _⟩ => show win0_2.index t (1 : Fin 2) * 1 + 1 * z.val = z.val; omega

/-- What point t writes back is row t of `arr`. -/
theorem flushed_eq (c : Dev nD) (t : Fin cfg0.N) :
    (dats m 0 c).flushed 3 t = ((cfg0.win 3).blk t).view.read (Elt Ideal) (arr m c) := by
  show (cfg0.win 3).cut (grid0.coords t) ((dats m 0 c).after 3 t) = _
  rw [after0_3]
  unfold outsAt0
  rw [out_eq]
  obtain ⟨-, -, -, -, -, -, -, e0, e1, e2⟩ := idx_facts t
  funext j
  obtain ⟨j0, r, n, rfl⟩ : ∃ (j0 : Fin 1) (r : Fin 128) (n : Fin 1024), j = ix3 j0 r n := ⟨j 0, j 1, j 2, eq_ix3 j⟩
  obtain rfl : j0 = 0 := Subsingleton.elim _ _
  have he : ((cfg0.win 3).blk t).view.emb (ix3 (0 : Fin 1) r n) = ix3 (⟨t.val, tlt t⟩ : Fin 32) r n := by
    funext a; apply Fin.ext
    match a with
    | ⟨0, _⟩ => show win0_3.index t (0 : Fin 3) * 1 + 1 * 0 = t.val; omega
    | ⟨1, _⟩ => show win0_3.index t (1 : Fin 3) * 128 + 1 * r.val = r.val; omega
    | ⟨2, _⟩ => show win0_3.index t (2 : Fin 3) * 1024 + 1 * n.val = n.val; omega
  show blockOut (iblk m c 0 t) (iblk m c 1 t) (iblk m c 2 t) (ix3 (0 : Fin 1) r n)
    = arr m c (((cfg0.win 3).blk t).view.emb (ix3 (0 : Fin 1) r n))
  rw [he]
  show conv (fun q i j' => iblk m c 0 t (ix3 (0 : Fin 1) q (flat i j'))) (fun k => iblk m c 1 t (ix2 r k))
      (iblk m c 2 t (ix2 r (0 : Fin 1))) n
    = conv (fun q i j' => V m c main_v5 (ix3 (⟨t.val, tlt t⟩ : Fin 32) q (flat i j'))) (fun k => V m c main_v8 (ix2 r k))
      (V m c main_v9 (ix2 r (0 : Fin 1))) n
  simp only [iblk0_apply, iblk1_apply, iblk2_apply]

/-- An index of the output array is in point t's block iff each coordinate is in the block's range on its axis. -/
theorem mem_blk (t : Fin cfg0.N) (i : S32x128x1024.Idx) :
    i ∈ ((cfg0.win 3).blk t).view.set ↔ ∀ a : Fin 3, win0_3.index t a * S1x128x1024.size a ≤ (i a).val
      ∧ (i a).val < win0_3.index t a * S1x128x1024.size a + S1x128x1024.size a := by
  show i ∈ ((View.whole main_v10).slice (win0_3.rect t)).set ↔ _
  rw [View.set_slice_whole, Rect.mem_set_unit]
  exact Iff.rfl

/-- The output array after the run is `arr`: the 32 rows written back cover it. -/
theorem final (c : Dev nD) : (dats m 0 c).arrAt 3 cfg0.N = arr m c :=
  (dats m 0 c).arrAt_eq_of_cover 3 (arr m c) (fun t _ => flushed_eq m c t) fun i => by
    have hN : cfg0.N = 32 := N_0
    have hi0 : (i 0).val < 32 := (i 0).isLt
    have hi1 : (i 1).val < 128 := (i 1).isLt
    have hi2 : (i 2).val < 1024 := (i 2).isLt
    refine ⟨⟨(i 0).val, by omega⟩, flush0_3 _, ?_⟩
    obtain ⟨-, -, -, -, -, -, -, e0', e1, e2⟩ := idx_facts ⟨(i 0).val, by omega⟩
    have e0 : win0_3.index (⟨(i 0).val, by omega⟩ : Fin cfg0.N) (0 : Fin 3) = (i 0).val := e0'
    rw [mem_blk]
    intro a
    match a with
    | ⟨0, _⟩ =>
      show win0_3.index _ (0 : Fin 3) * 1 ≤ (i 0).val ∧ (i 0).val < win0_3.index _ (0 : Fin 3) * 1 + 1
      rw [e0]; omega
    | ⟨1, _⟩ =>
      show win0_3.index _ (1 : Fin 3) * 128 ≤ (i 1).val ∧ (i 1).val < win0_3.index _ (1 : Fin 3) * 128 + 128
      rw [e1]; omega
    | ⟨2, _⟩ =>
      show win0_3.index _ (2 : Fin 3) * 1024 ≤ (i 2).val ∧ (i 2).val < win0_3.index _ (2 : Fin 3) * 1024 + 1024
      rw [e2]; omega

end Cert.KernelIdeal.KValue

end
-- ==== Proof.KDefs.lean ====
/-
  The kernel program's three region inputs as functions of its arguments (what the host lines before the region
  compute, read at the extended reals, where a change of float format is the identity): the stacked phase images
  of the zero-padded input with each 33 × 33 image stored flat in a line of 1152 (33·i + j; the last 63 places
  are padding), the weight matrix with rows indexed by (tap, channel), the bias as a column.
-/
import proofs.«108493_g2000305290246543_pallasbulk_170_5_alg».proof.KernelIdeal
import proofs.«108493_g2000305290246543_pallasbulk_170_5_alg».proof.Proof.Gen.KernelIdeal
import Idealize.ShloMosaic.PureOps.Ideal
import Idealize.ShloMosaic.Lib.ValueIdx

noncomputable section

namespace Cert.KernelIdeal.KValue

open Idealize.ShloMosaic Cert.KernelIdeal Cert.KernelIdeal.Facts₀

/-- The input padded by one zero on each side of both spatial axes, viewed [32,128,33,2,33,2] (row = 2i + py,
    column = 2j + px), transposed to [32,2,2,128,33,33] (py, px in front of the channel). -/
def split (x : FVec Ideal S32x128x64x64 .f32) : FVec Ideal S32x2x2x128x33x33 .f32 :=
  transpose S32x2x2x128x33x33 [0, 3, 5, 1, 2, 4]
    (shapeCast S32x128x33x2x33x2
      (pad S32x128x66x66 ![0, 0, 1, 1] ![0, 0, 1, 1] ![0, 0, 0, 0] x (sitofp .f32 (constantI S_ 32 0#32))
        pads_S32x128x64x64_S32x128x66x66_000_000_110_110 h_S_)
      shapeCasts_S32x128x66x66_S32x128x33x2x33x2)
    transposes_S32x128x33x2x33x2_S32x2x2x128x33x33_0_3_5_1_2_4

/-- The four phase images stacked along the channel axis, each stored flat and the lines padded to 1152, then
    narrowed to bf16 (the identity on extended reals): [32, 512, 1152]. -/
def phases (x : FVec Ideal S32x128x64x64 .f32) : FVec Ideal S32x512x1152 .bf16 :=
  truncf .bf16
    (pad S32x512x1152 ![0, 0, 0] ![0, 0, 63] ![0, 0, 0]
      (shapeCast S32x512x1089 (split x) shapeCasts_S32x2x2x128x33x33_S32x512x1089)
      (sitofp .f32 (constantI S_ 32 0#32)) pads_S32x512x1089_S32x512x1152_000_000_0630 h_S_)
    bitsLt_bf16_f32

/-- The weights [oc, c, ky, kx] as the matrix [oc, (3·ky + kx)·128 + c], narrowed to bf16. -/
def wmat (w : FVec Ideal S128x128x3x3 .f32) : FVec Ideal S128x1152 .bf16 :=
  truncf .bf16
    (shapeCast S128x1152 (transpose S128x3x3x128 [0, 2, 3, 1] w transposes_S128x128x3x3_S128x3x3x128_0_2_3_1)
      shapeCasts_S128x3x3x128_S128x1152)
    bitsLt_bf16_f32

/-- The bias as a column [128, 1]. -/
def bcol (b : FVec Ideal S128 .f32) : FVec Ideal S128x1 .f32 := shapeCast S128x1 b shapeCasts_S128_S128x1

end Cert.KernelIdeal.KValue

end
-- ==== Proof.KHost.lean ====
/-
  The host lines around the kernel program's region, read as values at the extended reals.

  Before the region: the buffers the region takes as its three inputs hold `phases`, `wmat` and `bcol` of the
  program's arguments (the lines are a zero constant, the padding by one on each side, the split into row and
  column parities, the flat view, the padding of every line to 1152, the narrowing of the format; the transposed and
  reshaped weights, narrowed; the bias as a column).  The first input's lines are read stretch by stretch, each
  stretch from arbitrary contents, and then composed.  After the region: the one line left is the reshape of the
  region's output array [32, 128, 1024] to [32, 128, 32, 32].
-/
import proofs.«108493_g2000305290246543_pallasbulk_170_5_alg».proof.Proof.Gen.KernelIdeal.Frame
import proofs.«108493_g2000305290246543_pallasbulk_170_5_alg».proof.Proof.KDefs
import Idealize.ShloMosaic.Lib.StableHlo.Run

noncomputable section

namespace Cert.KernelIdeal.KValue

open Idealize.ShloMosaic Idealize.ShloMosaic.TcCoe Idealize.SL.Sem Cert.KernelIdeal Cert.KernelIdeal.Gen

/-! ## The lines before the region, stretch by stretch -/

/-- The buffers after two stretches of lines are those after the second stretch, run from those after the first. -/
theorem after_append (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op l ih => exact ih _

/-- The first two stretches (the zero constant, its conversion, the padding by one on each side of both spatial
    axes) leave the padded first argument in their result buffer. -/
theorem stage_pad (W : Valuation τ sig (Elt Ideal)) :
    @Eq (FVec Ideal S32x128x66x66 .f32) (StableHlo.after hostOps0_1 (StableHlo.after hostOps0 W) (Proc.devRef .tc main_v0))
      (pad S32x128x66x66 ![0, 0, 1, 1] ![0, 0, 1, 1] ![0, 0, 0, 0]
        (W (Proc.devRef .tc main_arg0) : FVec Ideal S32x128x64x64 .f32) (sitofp (F := Ideal) .f32 (constantI S_ 32 0#32))
        Facts₀.pads_S32x128x64x64_S32x128x66x66_000_000_110_110 Facts₀.h_S_) := by
  dsimp only [Gen.hostOps0, Gen.hostOps0_1]
  after_results
  rfl

/-- The third stretch views the padded input by row and column parities, moves the parities in front of the
    channel and flattens each image … -/
theorem stage_split (W : Valuation τ sig (Elt Ideal)) :
    @Eq (FVec Ideal S32x512x1089 .f32) (StableHlo.after hostOps0_2 W (Proc.devRef .tc main_v3))
      (shapeCast S32x512x1089
        (transpose S32x2x2x128x33x33 [0, 3, 5, 1, 2, 4]
          (shapeCast S32x128x33x2x33x2 (W (Proc.devRef .tc main_v0) : FVec Ideal S32x128x66x66 .f32)
            Facts₀.shapeCasts_S32x128x66x66_S32x128x33x2x33x2)
          Facts₀.transposes_S32x128x33x2x33x2_S32x2x2x128x33x33_0_3_5_1_2_4)
        Facts₀.shapeCasts_S32x2x2x128x33x33_S32x512x1089) := by
  dsimp only [Gen.hostOps0_2]
  after_results
  rfl

/-- … and leaves a zero constant in another buffer. -/
theorem stage_zero (W : Valuation τ sig (Elt Ideal)) :
    @Eq (IVec S_ 32) (StableHlo.after hostOps0_2 W (Proc.devRef .tc main_c_0)) (constantI S_ 32 0#32) := by
  dsimp only [Gen.hostOps0_2]
  after_results

/-- The fourth stretch converts that zero and pads every line of 1089 to 1152 with it. -/
theorem stage_linePad (W : Valuation τ sig (Elt Ideal)) :
    @Eq (FVec Ideal S32x512x1152 .f32) (StableHlo.after hostOps0_3 W (Proc.devRef .tc main_v4))
      (pad S32x512x1152 ![0, 0, 0] ![0, 0, 63] ![0, 0, 0]
        (W (Proc.devRef .tc main_v3) : FVec Ideal S32x512x1089 .f32)
        (sitofp (F := Ideal) .f32 (W (Proc.devRef .tc main_c_0) : IVec S_ 32))
        Facts₀.pads_S32x512x1089_S32x512x1152_000_000_0630 Facts₀.h_S_) := by
  dsimp only [Gen.hostOps0_3]
  after_results
  rfl

/-- The last stretch narrows the format of the padded lines. -/
theorem stage_narrow (W : Valuation τ sig (Elt Ideal)) :
    @Eq (FVec Ideal S32x512x1152 .bf16) (StableHlo.after hostOps0_4 W (Proc.devRef .tc main_v5))
      (truncf .bf16 (W (Proc.devRef .tc main_v4) : FVec Ideal S32x512x1152 .f32) Facts₀.bitsLt_bf16_f32) := by
  dsimp only [Gen.hostOps0_4]
  after_results

/-! ## The region's inputs and the program's result -/

variable (m : (ℓ : Loc nD τ sig) → Buf (Elt Ideal) ℓ) (c : Dev nD)

/-- The region's first input is the stacked, flattened, padded and narrowed phase images of the first argument. -/
theorem V_phases :
    (V m c main_v5 : FVec Ideal S32x512x1152 .bf16) = phases (m ((c.tc : Thread nD τ).loc main_arg0)) := by
  unfold phases split
  dsimp only [Gen.V, Gen.V0]
  simp only [List.flatten_cons, List.flatten_nil, List.append_nil, after_append]
  rw [stage_narrow, stage_linePad, stage_zero, stage_split, stage_pad]

/-- The region's second input is the weight matrix of the second argument. -/
theorem V_wmat :
    (V m c main_v8 : FVec Ideal S128x1152 .bf16) = wmat (m ((c.tc : Thread nD τ).loc main_arg1)) := by
  unfold wmat
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results
  rfl

/-- The region's third input is the bias column of the third argument. -/
theorem V_bcol :
    (V m c main_v9 : FVec Ideal S128x1 .f32) = bcol (m ((c.tc : Thread nD τ).loc main_arg2)) := by
  unfold bcol
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results
  rfl

/-- The program's result is the region's output array, reshaped to [32, 128, 32, 32]. -/
theorem tail_eq :
    Pipeline.afterTail₀ cfgs (dats m) 0 (V0 m) [hostOps1] c main_v11
      = shapeCast S32x128x32x32 ((dats m 0 c).arrAt 3 cfg0.N) Facts₀.shapeCasts_S32x128x1024_S32x128x32x32 := by
  unfold Pipeline.afterTail₀
  show StableHlo.after hostOps1 _ (Proc.devRef .tc main_v11) = _
  after_results
  have h3 : Pipeline.withArrays (cfgs 0).spec c (V0 m c) (fun w => (dats m 0 c).arrAt w (cfgs 0).N)
      (Proc.devRef .tc main_v10) = (dats m 0 c).arrAt 3 cfg0.N :=
    Pipeline.withArrays_arr spec0 launch0.win.arr_inj c _ _ (3 : Fin 4)
  rw [h3]
  rfl

end Cert.KernelIdeal.KValue

end
-- ==== Proof.KValue.lean ====
/-
  The program's run read as values: the result array ends holding the convolution (Spec) of the phase images,
  weight matrix and bias column computed from the arguments, viewed [32,128,32,32]; the arguments end unchanged.
  The frame run leaves the region's output array at what the grid points wrote back and the reshape after the
  region applied to it; the region's three inputs are what the host lines before it compute from the arguments.
-/
import proofs.«108493_g2000305290246543_pallasbulk_170_5_alg».proof.Proof.KArray
import proofs.«108493_g2000305290246543_pallasbulk_170_5_alg».proof.Proof.KHost

noncomputable section

open Idealize.ShloMosaic Idealize.ShloMosaic.TcCoe Idealize.SL.Sem
open Idealize.ShloMosaic.ValueIdx

namespace Cert.KernelIdeal.KValue

open Cert.KernelIdeal Cert.KernelIdeal.Gen Cert.Conv

/-- Every weakly fair execution at the extended reals terminates with the result array at the convolution of the
    arguments' phase images, weight matrix and bias column, and with the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v11)
        = shapeCast S32x128x32x32
            (convArr
              (fun b q i j => phases (m ((c.tc : Thread nD τ).loc main_arg0)) (ix3 b q (flat i j)))
              (fun oc k => wmat (m ((c.tc : Thread nD τ).loc main_arg1)) (ix2 oc k))
              (fun oc => bcol (m ((c.tc : Thread nD τ).loc main_arg2)) (ix2 oc (0 : Fin 1))))
            Facts₀.shapeCasts_S32x128x1024_S32x128x32x32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ⟨?_, ?_, ?_, ?_⟩) (Gen.run_main m ρ)
  · refine ((h c).2 main_v11 (Pipeline.mem_restRefs_of main_v11 (by decide) (by decide))).trans ((tail_eq m c).trans ?_)
    refine congrArg (fun A => shapeCast S32x128x32x32 A Facts₀.shapeCasts_S32x128x1024_S32x128x32x32) ((final m c).trans ?_)
    unfold arr
    rw [V_phases m c, V_wmat m c, V_bcol m c]
  · exact ((h c).2 main_arg0 (Pipeline.mem_restRefs_of main_arg0 (by decide) (by decide))).trans (W_main_arg0 m (Gen.dats m) c)
  · exact ((h c).2 main_arg1 (Pipeline.mem_restRefs_of main_arg1 (by decide) (by decide))).trans (W_main_arg1 m (Gen.dats m) c)
  · exact ((h c).2 main_arg2 (Pipeline.mem_restRefs_of main_arg2 (by decide) (by decide))).trans (W_main_arg2 m (Gen.dats m) c)

end Cert.KernelIdeal.KValue

end
-- ==== Proof.RefPieces.lean ====
/-
  The reference body's arithmetic, read at an index (at the extended reals).

  The body copies, for each of the nine taps and each of the 32 output rows, one row of 32 entries of every one of
  the 128 channels of one phase image into a [1152, 1024] scratch matrix (288 copies of [128, 32] blocks), multiplies
  the [128, 1152] weight matrix by it and adds the bias column.  Here: the scratch matrix as ONE function of the
  phase images (`scratch`), every copied block as a block of that function (`piece_eq`), and the product plus bias
  at an index as the sum over the 1152 rows (`pay4_apply`).
-/
import proofs.«108493_g2000305290246543_pallasbulk_170_5_alg».proof.Proof.Spec
import proofs.«108493_g2000305290246543_pallasbulk_170_5_alg».proof.Proof.Gen.ReferenceIdeal.Skeleton
import Idealize.ShloMosaic.Lib.Pipeline.Value
import Idealize.ShloMosaic.Lib.ValueIdx
import Idealize.ShloMosaic.PureOps.Ideal.Laws

noncomputable section

namespace Cert.ReferenceIdeal.RefValue

open Idealize.ShloMosaic Idealize.ShloMosaic.TcCoe Idealize.SL.Sem Cert.ReferenceIdeal Cert.ReferenceIdeal.Gen
open Idealize.ShloMosaic.ValueIdx

/-- The im2col matrix as ONE function of the stacked phase images: row `k` = (tap, channel), column `n` = output
    pixel; its entry is the phase-image entry the specification's sum reads for `k` at `n`. -/
def scratch (x0 : Vec Ideal S1x512x33x33 .f32) : Vec Ideal S1152x1024 .f32 :=
  fun j => x0 (ix4 (0 : Fin 1) (Cert.Conv.chan (j 0)) (Cert.Conv.prow (j 0) (j 1)) (Cert.Conv.pcol (j 0) (j 1)))

/-- A loaded [1,128,1,32] row of 128 channels viewed as [128,32]: entry (r, l) is entry (0, r, 0, l)
    (both sit at row-major position 32·r + l). -/
theorem cast_apply (v : Vec Ideal S1x128x1x32 .f32) (h1 : S1x128x1x32.ShapeCasts S128x32) (h2 : S128x32.ShapeCasts S128x32)
    (r : Fin 128) (l : Fin 32) :
    shapeCast S128x32 (shapeCast S128x32 v h1) h2 (ix2 r l) = v (ix4 (0 : Fin 1) r (0 : Fin 1) l) := by
  rw [shapeCast_self]
  refine shapeCast_apply v h1 (ix2 r l) (ix4 (0 : Fin 1) r (0 : Fin 1) l) ?_
  rw [Shape.rowMajor_val_four, Shape.rowMajor_val_two]
  show ((0 * 128 + r.val) * 1 + 0) * 32 + l.val = r.val * 32 + l.val
  omega

/-- ONE COPY IS A BLOCK OF `scratch`: the [128,32] block stored at rows `o1 …` (a multiple of 128: tap `o1/128`),
    columns `o2 …` (a multiple of 32: output row `o2/32`), loaded from channels `a …`, phase-image row `b`, columns
    `d …`, when `a`, `b`, `d` are the tap's phase image, row shift and column shift. -/
theorem piece_eq (x0 : Vec Ideal S1x512x33x33 .f32) (a b d o1 o2 : Nat)
    (inbS : ∀ ax, ![0, a, b, d] ax + S1x128x1x32.size ax ≤ S1x512x33x33.size ax)
    (inbD : ∀ ax, ![o1, o2] ax + S128x32.size ax ≤ S1152x1024.size ax)
    (h1 : S1x128x1x32.ShapeCasts S128x32) (h2 : S128x32.ShapeCasts S128x32)
    (ho1 : o1 % 128 = 0) (ho2 : o2 % 32 = 0)
    (ha : a = 128 * ((o1 / 128 / 3 % 2) * 2 + o1 / 128 % 3 % 2)) (hb : b = o2 / 32 + o1 / 128 / 3 / 2)
    (hd : d = o1 / 128 % 3 / 2) (x : S128x32.Idx) :
    shapeCast S128x32 (shapeCast S128x32 (View.ld x0 (Rect.unit (s := S1x512x33x33) ![0, a, b, d] S1x128x1x32.size inbS)) h1) h2 x
      = scratch x0 ((Rect.unit (s := S1152x1024) ![o1, o2] S128x32.size inbD).emb x) := by
  obtain ⟨r, l, rfl⟩ : ∃ (r : Fin 128) (l : Fin 32), x = ix2 r l := ⟨x 0, x 1, eq_ix2 x⟩
  refine (cast_apply _ h1 h2 r l).trans ?_
  have hr := r.isLt
  have hl := l.isLt
  have i1 := inbD 0
  have i2 := inbD 1
  refine congrArg x0 (funext fun ax => Fin.ext ?_)
  match ax with
  | ⟨0, _⟩ => rfl
  | ⟨1, _⟩ =>
    show a + 1 * r.val = 128 * (((o1 + 1 * r.val) / 128 / 3 % 2) * 2 + (o1 + 1 * r.val) / 128 % 3 % 2) + (o1 + 1 * r.val) % 128
    omega
  | ⟨2, _⟩ =>
    show b + 1 * 0 = (o2 + 1 * l.val) / 32 + (o1 + 1 * r.val) / 128 / 3 / 2
    omega
  | ⟨3, _⟩ =>
    show d + 1 * l.val = (o2 + 1 * l.val) % 32 + (o1 + 1 * r.val) / 128 % 3 / 2
    omega

/-- The product plus bias at output channel `oc`, pixel `n`: the sum over the 1152 rows of weight × scratch entry,
    plus the bias of `oc` (the accumulator is the zero matrix, the bias column is broadcast along the pixels). -/
theorem pay4_apply (v1440 : Vec Ideal S128x1152 .f32) (v1442 : Vec Ideal S1152x1024 .f32) (v1444 : Vec Ideal S128x1 .f32)
    (a : Fin 1) (oc : Fin 128) (n : Fin 1024) :
    k0_pay4 v1440 v1442 v1444 (ix3 a oc n)
      = (∑ k : Fin 1152, v1440 (ix2 oc k) * v1442 (ix2 k n)) + v1444 (ix2 oc (0 : Fin 1)) := by
  unfold k0_pay4
  refine (shapeCast_addUnit_apply ![128, 1024] _ _ (ix3 a oc n)).trans ?_
  have hj : (fun b : Fin 2 => (ix3 a oc n) b.succ) = ix2 oc n := by
    funext b; match b with | ⟨0, _⟩ => rfl | ⟨1, _⟩ => rfl
  refine (congrArg _ hj).trans ?_
  show _ + _ = _
  refine congrArg₂ (· + ·) ?_ ?_
  · refine (Ideal.matmul_constant_zero_apply dot_S128x1152_S1152x1024_S128x1024_1_0_0_1_n_n none _ v1442 (ix2 oc n)).trans ?_
    rw [← Equiv.sum_comp (contrEquiv1 dot_S128x1152_S1152x1024_S128x1024_1_0_0_1_n_n 1152 rfl rfl).symm]
    refine Finset.sum_congr rfl fun k _ => ?_
    have ck := contrEquiv1_symm_val dot_S128x1152_S1152x1024_S128x1024_1_0_0_1_n_n 1152 rfl rfl k
    have hl : dot_S128x1152_S1152x1024_S128x1024_1_0_0_1_n_n.lhsIdx (ix2 oc n)
        ((contrEquiv1 dot_S128x1152_S1152x1024_S128x1024_1_0_0_1_n_n 1152 rfl rfl).symm k) = ix2 oc k := by
      funext ax; apply Fin.ext
      match ax with
      | ⟨0, _⟩ => simp [DotDims.lhsIdx, dot_S128x1152_S1152x1024_S128x1024_1_0_0_1_n_n]; rfl
      | ⟨1, _⟩ => simp [DotDims.lhsIdx, dot_S128x1152_S1152x1024_S128x1024_1_0_0_1_n_n]; exact ck
    have hr : dot_S128x1152_S1152x1024_S128x1024_1_0_0_1_n_n.rhsIdx (ix2 oc n)
        ((contrEquiv1 dot_S128x1152_S1152x1024_S128x1024_1_0_0_1_n_n 1152 rfl rfl).symm k) = ix2 k n := by
      funext ax; apply Fin.ext
      match ax with
      | ⟨0, _⟩ => simp [DotDims.rhsIdx, dot_S128x1152_S1152x1024_S128x1024_1_0_0_1_n_n]; exact ck
      | ⟨1, _⟩ => simp [DotDims.rhsIdx, dot_S128x1152_S1152x1024_S128x1024_1_0_0_1_n_n]; rfl
    rw [hl, hr, shapeCast_self]
  · exact (broadcastTo_apply _ _ (ix2 oc n) (ix2 oc (0 : Fin 1)) (fun ax => by
      match ax with
      | ⟨0, _⟩ => rfl
      | ⟨1, _⟩ => rfl)).trans (congrFun (shapeCast_self v1444 _) _)

end Cert.ReferenceIdeal.RefValue

end
-- ==== Proof.RefScratch.lean ====
/-
  The reference body's scratch matrix, read back after its 288 block copies, is ONE function of the phase images:
  every copy is a block of `scratch` and the 288 blocks tile the [1152, 1024] matrix.
-/
import proofs.«108493_g2000305290246543_pallasbulk_170_5_alg».proof.Proof.RefPieces
import proofs.«108493_g2000305290246543_pallasbulk_170_5_alg».proof.Proof.Gen.ReferenceIdeal.Frame.RunA
import Idealize.ShloMosaic.Lib.Pipeline.Value
import Idealize.ShloMosaic.Lib.Tactic

set_option maxRecDepth 16384

noncomputable section

namespace Cert.ReferenceIdeal.RefValue

open Idealize.ShloMosaic Idealize.ShloMosaic.TcCoe Idealize.SL.Sem Cert.ReferenceIdeal Cert.ReferenceIdeal.Gen
open Idealize.ShloMosaic.ValueIdx

/-- The whole scratch matrix the product reads, after the copies: entry (k, n) is the phase-image entry the
    specification's sum reads for row `k` at pixel `n`.  Each of the 288 copies is the block of `scratch` under its
    rectangle (`piece_eq`, its offsets read off the copy), and the copies' rectangles tile the matrix. -/
theorem scratch_eq (c : Dev nD) (arg1 : Memref sig .tc .vmem S1x512x33x33 .f32) (harg1 : arg1.IsWhole)
    (arg5 : Memref sig .tc .vmem S1152x1024 .f32) (x0 : Vec Ideal S1x512x33x33 .f32) :
    kernelRun0_A.sl.v1442 (F := Ideal) c arg1 harg1 arg5 x0 = scratch x0 := by
  sl_unfold_words
  rw [View.readCov_eq_canon']
  funext j
  have hj : (Rect.unit (s := S1152x1024) ![0, 0] ![1152, 1024] inb_S1152x1024_S1152x1024_0_0).toLoadRect.idx j = j := by
    funext ax; apply Fin.ext
    match ax with
    | ⟨0, _⟩ => show 0 + 1 * (j 0).val = (j 0).val; omega
    | ⟨1, _⟩ => show 0 + 1 * (j 1).val = (j 1).val; omega
  rw [hj]
  simp only [View.readAt_eq_ld, harg1.read_unread]
  refine View.canon_apply_of_pieces (Val := Elt Ideal) (S := S1152x1024) (e := .f32) (scratch x0) _ ?hp j ?hc
  case hc => exact View.cover_of_tiledL (s := S1152x1024) _ S128x32.size (by sl_kernel_rfl) j
  case hp =>
    iterate 288 (refine List.forall_mem_cons.2 ⟨fun x => piece_eq x0 _ _ _ _ _ _ (by decide) _ _ (by rfl) (by rfl) (by rfl) (by rfl) (by rfl) x, ?_⟩)
    exact fun _ h => absurd h List.not_mem_nil

end Cert.ReferenceIdeal.RefValue

end
-- ==== Proof.RefBody.lean ====
/-
  The reference body's result block as ONE function of its three input blocks: the specification's convolution sum
  of the phase-image block, the weight matrix and the bias column.
-/
import proofs.«108493_g2000305290246543_pallasbulk_170_5_alg».proof.Proof.RefScratch
import proofs.«108493_g2000305290246543_pallasbulk_170_5_alg».proof.Proof.RefFrame
import Idealize.ShloMosaic.Lib.Pipeline.Value
import Idealize.ShloMosaic.Lib.Tactic

set_option maxRecDepth 16384

noncomputable section

namespace Cert.ReferenceIdeal.RefValue

open Idealize.ShloMosaic Idealize.ShloMosaic.TcCoe Idealize.SL.Sem Cert.ReferenceIdeal Cert.ReferenceIdeal.Gen Cert.ReferenceIdeal.GenP
open Idealize.ShloMosaic.ValueIdx

theorem hz3 : (![0, 0, 0] : Fin 3 → Nat) = fun _ => 0 := funext fun a => by fin_cases a <;> rfl
theorem hz2 : (![0, 0] : Fin 2 → Nat) = fun _ => 0 := funext fun a => by fin_cases a <;> rfl

/-- What the body leaves in its output block [1, 128, 1024], as a function of the phase-image block `x0`
    [1, 512, 33, 33], the weight matrix `x1` [128, 1152] and the bias column `x2` [128, 1]: at (0, oc, n) the
    specification's sum for output channel `oc` at pixel `n`. -/
def blockOut (x0 : Vec Ideal S1x512x33x33 .f32) (x1 : Vec Ideal S128x1152 .f32) (x2 : Vec Ideal S128x1 .f32) :
    S1x128x1024.Idx → EReal :=
  fun y => Cert.Conv.conv (fun q i j => x0 (ix4 (0 : Fin 1) q i j)) (fun k => x1 (ix2 (y 1) k))
    (x2 (ix2 (y 1) (0 : Fin 1))) (y 2)

/-- The body's one store covers the output block; its payload is the product of the weights with the scratch
    matrix plus the bias, the scratch matrix read back being `scratch x0`: entry by entry the specification's sum. -/
theorem out_eq (c : Dev nD) (i : grid0.Coords) (arg1 : Memref sig .tc .vmem S1x512x33x33 .f32) (harg1 : arg1.IsWhole) (arg2 : Memref sig .tc .vmem S128x1152 .f32) (harg2 : arg2.IsWhole) (arg3 : Memref sig .tc .vmem S128x1 .f32) (harg3 : arg3.IsWhole) (arg4 : Memref sig .tc .vmem S1x128x1024 .f32) (harg4 : arg4.IsWhole) (arg5 : Memref sig .tc .vmem S1152x1024 .f32) (harg5 : arg5.IsWhole) (x0 : Vec Ideal S1x512x33x33 .f32) (x1 : Vec Ideal S128x1152 .f32) (x2 : Vec Ideal S128x1 .f32) :
    GenP.out0_A_3 (F := Ideal) c i arg1 harg1 arg2 harg2 arg3 harg3 arg4 harg4 arg5 harg5 x0 x1 x2 = blockOut x0 x1 x2 := by
  unfold GenP.out0_A_3
  rw [View.read_writes_eq_canon _ _ _ (GenP.cover0_A_3 c i arg1 harg1 arg2 harg2 arg3 harg3 arg4 harg4 arg5 harg5 x0 x1 x2)]
  unfold kernelRun0_A
  dsimp only
  rw [View.canon_unit_zero hz3, scratch_eq]
  simp only [View.readAt_eq_ld, harg2.read_unread, harg3.read_unread, View.ld_unit_zero (S := S128x1152) hz2,
    View.ld_unit_zero (S := S128x1) hz2]
  funext y
  obtain ⟨a, oc, n, rfl⟩ : ∃ (a : Fin 1) (oc : Fin 128) (n : Fin 1024), y = ix3 a oc n := ⟨y 0, y 1, y 2, eq_ix3 y⟩
  refine (pay4_apply x1 (scratch x0) x2 a oc n).trans ?_
  rfl

end Cert.ReferenceIdeal.RefValue

end
-- ==== Proof.RefArray.lean ====
/-
  The reference's output array after the run.

  Grid point t handles batch element t: its input block of the stacked phase images is row t of the array, its
  weight and bias blocks are the whole arrays, and it writes back row t of the output.  Every point writes back, and
  the 32 rows cover the output array, so the array ends holding the convolution (the specification's `convArr`) of
  the three region inputs.
-/
import proofs.«108493_g2000305290246543_pallasbulk_170_5_alg».proof.Proof.RefBody

noncomputable section

open Idealize.ShloMosaic Idealize.ShloMosaic.TcCoe Idealize.SL.Sem
open Idealize.ShloMosaic.ValueIdx
open Idealize.ShloMosaic.Pipeline (Dat)

namespace Cert.ReferenceIdeal.RefValue

open Cert.ReferenceIdeal Cert.ReferenceIdeal.Gen Cert.ReferenceIdeal.GenP Cert.Conv

variable (m : (ℓ : Loc nD τ sig) → Buf (Elt Ideal) ℓ)

/-- The output array as one function of the region's three input arrays. -/
def arr (c : Dev nD) : S32x128x1024.Idx → Elt Ideal .f32 :=
  convArr (fun b q i j => V m c main_v3 (ix4 b q i j)) (fun oc k => V m c main_v5 (ix2 oc k))
    (fun oc => V m c main_v6 (ix2 oc (0 : Fin 1)))

/-- A grid point is a batch index. -/
theorem tlt (t : Fin cfg0.N) : t.val < 32 := by
  have hN : cfg0.N = 32 := N_0
  have := t.isLt
  omega

/-- The index maps over the grid: the phase images' and the output's block index is (t, 0, …); the weights' and the
    bias's is (0, 0). -/
theorem idx_facts : ∀ t : Fin cfg0.N,
    win0_0.index t (0 : Fin 4) = t.val ∧ win0_0.index t (1 : Fin 4) = 0 ∧ win0_0.index t (2 : Fin 4) = 0
    ∧ win0_0.index t (3 : Fin 4) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- Block t of window 0 of ANY array of the phase images' shape is row t of that array. -/
theorem read_blk0 (A : S32x512x33x33.Idx → Elt Ideal .f32) (t : Fin cfg0.N) (q : Fin 512) (i j : Fin 33) :
    ((cfg0.win 0).blk t).view.read (Elt Ideal) A (ix4 (0 : Fin 1) q i j) = A (ix4 (⟨t.val, tlt t⟩ : Fin 32) q i j) := by
  obtain ⟨e0, e1, e2, e3, -⟩ := idx_facts t
  show A (((cfg0.win 0).blk t).view.emb (ix4 (0 : Fin 1) q i j)) = _
  refine congrArg A (funext fun a => Fin.ext ?_)
  match a with
  | ⟨0, _⟩ => show win0_0.index t (0 : Fin 4) * 1 + 1 * 0 = t.val; omega
  | ⟨1, _⟩ => show win0_0.index t (1 : Fin 4) * 512 + 1 * q.val = q.val; omega
  | ⟨2, _⟩ => show win0_0.index t (2 : Fin 4) * 33 + 1 * i.val = i.val; omega
  | ⟨3, _⟩ => show win0_0.index t (3 : Fin 4) * 33 + 1 * j.val = j.val; omega

/-- The phase-image block at point t is row t of its array. -/
theorem iblk0_apply (c : Dev nD) (t : Fin cfg0.N) (q : Fin 512) (i j : Fin 33) :
    iblk m c 0 t (ix4 (0 : Fin 1) q i j) = V m c main_v3 (ix4 (⟨t.val, tlt t⟩ : Fin 32) q i j) :=
  read_blk0 (V m c main_v3) t q i j

/-- Block t of window 1 of ANY array of the weights' shape is that array. -/
theorem read_blk1 (A : S128x1152.Idx → Elt Ideal .f32) (t : Fin cfg0.N) (r : Fin 128) (k : Fin 1152) :
    ((cfg0.win 1).blk t).view.read (Elt Ideal) A (ix2 r k) = A (ix2 r k) := by
  obtain ⟨-, -, -, -, e0, e1, -⟩ := idx_facts t
  show A (((cfg0.win 1).blk t).view.emb (ix2 r k)) = _
  refine congrArg A (funext fun a => Fin.ext ?_)
  match a with
  | ⟨0, _⟩ => show win0_1.index t (0 : Fin 2) * 128 + 1 * r.val = r.val; omega
  | ⟨1, _⟩ => show win0_1.index t (1 : Fin 2) * 1152 + 1 * k.val = k.val; omega

/-- The weight block is the whole weight matrix. -/
theorem iblk1_apply (c : Dev nD) (t : Fin cfg0.N) (r : Fin 128) (k : Fin 1152) :
    iblk m c 1 t (ix2 r k) = V m c main_v5 (ix2 r k) :=
  read_blk1 (V m c main_v5) t r k

/-- Block t of window 2 of ANY array of the bias column's shape is that array. -/
theorem read_blk2 (A : S128x1.Idx → Elt Ideal .f32) (t : Fin cfg0.N) (r : Fin 128) (z : Fin 1) :
    ((cfg0.win 2).blk t).view.read (Elt Ideal) A (ix2 r z) = A (ix2 r z) := by
  obtain ⟨-, -, -, -, -, -, e0, e1, -⟩ := idx_facts t
  show A (((cfg0.win 2).blk t).view.emb (ix2 r z)) = _
  refine congrArg A (funext fun a => Fin.ext ?_)
  match a with
  | ⟨0, _⟩ => show win0_2.index t (0 : Fin 2) * 128 + 1 * r.val = r.val; omega
  | ⟨1, _⟩ => show win0_2.index t (1 : Fin 2) * 1 + 1 * z.val = z.val; omega

/-- The bias block is the whole bias column. -/
theorem iblk2_apply (c : Dev nD) (t : Fin cfg0.N) (r : Fin 128) (z : Fin 1) :
    iblk m c 2 t (ix2 r z) = V m c main_v6 (ix2 r z) :=
  read_blk2 (V m c main_v6) t r z

/-- What point t writes back is row t of `arr`. -/
theorem flushed_eq (c : Dev nD) (t : Fin cfg0.N) :
    (GenP.dats m 0 c).flushed 3 t = ((cfg0.win 3).blk t).view.read (Elt Ideal) (arr m c) := by
  show (cfg0.win 3).cut (grid0.coords t) ((GenP.dats m 0 c).after 3 t) = _
  rw [GenP.after0_3]
  unfold GenP.outsAt0
  rw [out_eq]
  obtain ⟨-, -, -, -, -, -, -, -, e0, e1, e2⟩ := idx_facts t
  funext y
  obtain ⟨y0, r, n, rfl⟩ : ∃ (y0 : Fin 1) (r : Fin 128) (n : Fin 1024), y = ix3 y0 r n := ⟨y 0, y 1, y 2, eq_ix3 y⟩
  obtain rfl : y0 = 0 := Subsingleton.elim _ _
  have he : ((cfg0.win 3).blk t).view.emb (ix3 (0 : Fin 1) r n) = ix3 (⟨t.val, tlt t⟩ : Fin 32) r n := by
    funext a; apply Fin.ext
    match a with
    | ⟨0, _⟩ => show win0_3.index t (0 : Fin 3) * 1 + 1 * 0 = t.val; omega
    | ⟨1, _⟩ => show win0_3.index t (1 : Fin 3) * 128 + 1 * r.val = r.val; omega
    | ⟨2, _⟩ => show win0_3.index t (2 : Fin 3) * 1024 + 1 * n.val = n.val; omega
  show blockOut (iblk m c 0 t) (iblk m c 1 t) (iblk m c 2 t) (ix3 (0 : Fin 1) r n)
    = arr m c (((cfg0.win 3).blk t).view.emb (ix3 (0 : Fin 1) r n))
  rw [he]
  show conv (fun q i j => iblk m c 0 t (ix4 (0 : Fin 1) q i j)) (fun k => iblk m c 1 t (ix2 r k))
      (iblk m c 2 t (ix2 r (0 : Fin 1))) n
    = conv (fun q i j => V m c main_v3 (ix4 (⟨t.val, tlt t⟩ : Fin 32) q i j)) (fun k => V m c main_v5 (ix2 r k))
      (V m c main_v6 (ix2 r (0 : Fin 1))) n
  simp only [iblk0_apply, iblk1_apply, iblk2_apply]

/-- An index of the output array is in point t's block iff each coordinate is in the block's range on its axis. -/
theorem mem_blk (t : Fin cfg0.N) (i : S32x128x1024.Idx) :
    i ∈ ((cfg0.win 3).blk t).view.set ↔ ∀ a : Fin 3, win0_3.index t a * S1x128x1024.size a ≤ (i a).val
      ∧ (i a).val < win0_3.index t a * S1x128x1024.size a + S1x128x1024.size a := by
  show i ∈ ((View.whole main_v7).slice (win0_3.rect t)).set ↔ _
  rw [View.set_slice_whole, Rect.mem_set_unit]
  exact Iff.rfl

/-- The output array after the run is `arr`: the 32 rows written back cover it. -/
theorem final (c : Dev nD) : (GenP.dats m 0 c).arrAt 3 cfg0.N = arr m c :=
  (GenP.dats m 0 c).arrAt_eq_of_cover 3 (arr m c) (fun t _ => flushed_eq m c t) fun i => by
    have hN : cfg0.N = 32 := N_0
    have hi0 : (i 0).val < 32 := (i 0).isLt
    have hi1 : (i 1).val < 128 := (i 1).isLt
    have hi2 : (i 2).val < 1024 := (i 2).isLt
    refine ⟨⟨(i 0).val, by omega⟩, flush0_3 _, ?_⟩
    obtain ⟨-, -, -, -, -, -, -, -, e0', e1, e2⟩ := idx_facts ⟨(i 0).val, by omega⟩
    have e0 : win0_3.index (⟨(i 0).val, by omega⟩ : Fin cfg0.N) (0 : Fin 3) = (i 0).val := e0'
    rw [mem_blk]
    intro a
    match a with
    | ⟨0, _⟩ =>
      show win0_3.index _ (0 : Fin 3) * 1 ≤ (i 0).val ∧ (i 0).val < win0_3.index _ (0 : Fin 3) * 1 + 1
      rw [e0]; omega
    | ⟨1, _⟩ =>
      show win0_3.index _ (1 : Fin 3) * 128 ≤ (i 1).val ∧ (i 1).val < win0_3.index _ (1 : Fin 3) * 128 + 128
      rw [e1]; omega
    | ⟨2, _⟩ =>
      show win0_3.index _ (2 : Fin 3) * 1024 ≤ (i 2).val ∧ (i 2).val < win0_3.index _ (2 : Fin 3) * 1024 + 1024
      rw [e2]; omega

end Cert.ReferenceIdeal.RefValue

end
-- ==== Proof.RefDefs.lean ====
/-
  The reference program's three region inputs as functions of its arguments (what the host lines before the
  region compute, read at the extended reals): the stacked phase images of the zero-padded input, the weight
  matrix with rows indexed by (tap, channel), the bias as a column.
-/
import proofs.«108493_g2000305290246543_pallasbulk_170_5_alg».proof.ReferenceIdeal
import proofs.«108493_g2000305290246543_pallasbulk_170_5_alg».proof.Proof.Gen.ReferenceIdeal
import Idealize.ShloMosaic.PureOps.Ideal
import Idealize.ShloMosaic.Lib.ValueIdx

noncomputable section

namespace Cert.ReferenceIdeal.RefValue

open Idealize.ShloMosaic Cert.ReferenceIdeal Cert.ReferenceIdeal.Facts₀

/-- The input padded by one zero on each side of both spatial axes, viewed [32,128,33,2,33,2] (row = 2i + py,
    column = 2j + px), transposed to [32,2,2,128,33,33] (py, px in front of the channel). -/
def split (x : FVec Ideal S32x128x64x64 .f32) : FVec Ideal S32x2x2x128x33x33 .f32 :=
  transpose S32x2x2x128x33x33 [0, 3, 5, 1, 2, 4]
    (shapeCast S32x128x33x2x33x2
      (pad S32x128x66x66 ![0, 0, 1, 1] ![0, 0, 1, 1] ![0, 0, 0, 0] x (sitofp .f32 (constantI S_ 32 0#32))
        pads_S32x128x64x64_S32x128x66x66_000_000_110_110 h_S_)
      shapeCasts_S32x128x66x66_S32x128x33x2x33x2)
    transposes_S32x128x33x2x33x2_S32x2x2x128x33x33_0_3_5_1_2_4

/-- The four phase images stacked along the channel axis: [32, 512, 33, 33]. -/
def phases (x : FVec Ideal S32x128x64x64 .f32) : FVec Ideal S32x512x33x33 .f32 :=
  shapeCast S32x512x33x33 (split x) shapeCasts_S32x2x2x128x33x33_S32x512x33x33

/-- The weights [oc, c, ky, kx] as the matrix [oc, (3·ky + kx)·128 + c]. -/
def wmat (w : FVec Ideal S128x128x3x3 .f32) : FVec Ideal S128x1152 .f32 :=
  shapeCast S128x1152 (transpose S128x3x3x128 [0, 2, 3, 1] w transposes_S128x128x3x3_S128x3x3x128_0_2_3_1)
    shapeCasts_S128x3x3x128_S128x1152

/-- The bias as a column [128, 1]. -/
def bcol (b : FVec Ideal S128 .f32) : FVec Ideal S128x1 .f32 := shapeCast S128x1 b shapeCasts_S128_S128x1

end Cert.ReferenceIdeal.RefValue

end
-- ==== Proof.RefHost.lean ====
/-
  The host lines around the reference program's region, read as values at the extended reals.

  Before the region: the buffers the region takes as its three inputs hold `phases`, `wmat` and `bcol` of the
  program's arguments (the lines are a zero constant, the padding by one on each side, the split into row and
  column parities, the view as [32, 512, 33, 33]; the transposed and reshaped weights; the bias as a column).  The
  first input's lines are read stretch by stretch, each stretch from arbitrary contents, and then composed.
  After the region: the one line left is the reshape of the region's output array [32, 128, 1024] to
  [32, 128, 32, 32].
-/
import proofs.«108493_g2000305290246543_pallasbulk_170_5_alg».proof.Proof.RefFrame
import proofs.«108493_g2000305290246543_pallasbulk_170_5_alg».proof.Proof.RefDefs
import Idealize.ShloMosaic.Lib.StableHlo.Run

noncomputable section

namespace Cert.ReferenceIdeal.RefValue

open Idealize.ShloMosaic Idealize.ShloMosaic.TcCoe Idealize.SL.Sem Cert.ReferenceIdeal Cert.ReferenceIdeal.Gen
  Cert.ReferenceIdeal.GenP

/-! ## The lines before the region, stretch by stretch -/

/-- The buffers after two stretches of lines are those after the second stretch, run from those after the first. -/
theorem after_append (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op l ih => exact ih _

/-- The first two stretches (the zero constant, its conversion, the padding by one on each side of both spatial
    axes) leave the padded first argument in their result buffer. -/
theorem stage_pad (W : Valuation τ sig (Elt Ideal)) :
    @Eq (FVec Ideal S32x128x66x66 .f32) (StableHlo.after hostOps0_1 (StableHlo.after hostOps0 W) (Proc.devRef .tc main_v0))
      (pad S32x128x66x66 ![0, 0, 1, 1] ![0, 0, 1, 1] ![0, 0, 0, 0]
        (W (Proc.devRef .tc main_arg0) : FVec Ideal S32x128x64x64 .f32) (sitofp (F := Ideal) .f32 (constantI S_ 32 0#32))
        Facts₀.pads_S32x128x64x64_S32x128x66x66_000_000_110_110 Facts₀.h_S_) := by
  dsimp only [Gen.hostOps0, Gen.hostOps0_1]
  after_results
  rfl

/-- The third stretch views the padded input by row and column parities, moves the parities in front of the
    channel and stacks the four phase images along the channel axis. -/
theorem stage_split (W : Valuation τ sig (Elt Ideal)) :
    @Eq (FVec Ideal S32x512x33x33 .f32) (StableHlo.after hostOps0_2 W (Proc.devRef .tc main_v3))
      (shapeCast S32x512x33x33
        (transpose S32x2x2x128x33x33 [0, 3, 5, 1, 2, 4]
          (shapeCast S32x128x33x2x33x2 (W (Proc.devRef .tc main_v0) : FVec Ideal S32x128x66x66 .f32)
            Facts₀.shapeCasts_S32x128x66x66_S32x128x33x2x33x2)
          Facts₀.transposes_S32x128x33x2x33x2_S32x2x2x128x33x33_0_3_5_1_2_4)
        Facts₀.shapeCasts_S32x2x2x128x33x33_S32x512x33x33) := by
  dsimp only [Gen.hostOps0_2]
  after_results
  rfl

/-! ## The region's inputs and the program's result -/

variable (m : (ℓ : Loc nD τ sig) → Buf (Elt Ideal) ℓ) (c : Dev nD)

/-- The region's first input is the stacked phase images of the first argument. -/
theorem V_phases :
    (V m c main_v3 : FVec Ideal S32x512x33x33 .f32) = phases (m ((c.tc : Thread nD τ).loc main_arg0)) := by
  unfold phases split
  dsimp only [Gen.V, Gen.V0]
  simp only [List.flatten_cons, List.flatten_nil, List.append_nil, after_append]
  rw [stage_split, stage_pad]

/-- The region's second input is the weight matrix of the second argument. -/
theorem V_wmat :
    (V m c main_v5 : FVec Ideal S128x1152 .f32) = wmat (m ((c.tc : Thread nD τ).loc main_arg1)) := by
  unfold wmat
  dsimp only [Gen.V, Gen.V0]
  simp only [Gen.hostOps0, Gen.hostOps0_1, Gen.hostOps0_2, List.flatten_cons,
    List.flatten_nil, List.append_nil, List.cons_append, List.nil_append]
  after_results
  rfl

/-- The region's third input is the bias column of the third argument. -/
theorem V_bcol :
    (V m c main_v6 : FVec Ideal S128x1 .f32) = bcol (m ((c.tc : Thread nD τ).loc main_arg2)) := by
  unfold bcol
  dsimp only [Gen.V, Gen.V0]
  simp only [Gen.hostOps0, Gen.hostOps0_1, Gen.hostOps0_2, List.flatten_cons,
    List.flatten_nil, List.append_nil, List.cons_append, List.nil_append]
  after_results
  rfl

/-- The program's result is the region's output array, reshaped to [32, 128, 32, 32]. -/
theorem tail_eq :
    Pipeline.afterTail₀ cfgs (GenP.dats m) 0 (V0 m) [hostOps1] c main_v8
      = shapeCast S32x128x32x32 ((GenP.dats m 0 c).arrAt 3 cfg0.N) Facts₀.shapeCasts_S32x128x1024_S32x128x32x32 := by
  unfold Pipeline.afterTail₀
  show StableHlo.after hostOps1 _ (Proc.devRef .tc main_v8) = _
  after_results
  have h3 : Pipeline.withArrays (cfgs 0).spec c (V0 m c) (fun w => (GenP.dats m 0 c).arrAt w (cfgs 0).N)
      (Proc.devRef .tc main_v7) = (GenP.dats m 0 c).arrAt 3 cfg0.N :=
    Pipeline.withArrays_arr spec0 launch0.win.arr_inj c _ _ (3 : Fin 4)
  rw [h3]
  rfl

end Cert.ReferenceIdeal.RefValue

end
-- ==== Proof.RefValue.lean ====
/-
  The program's run read as values: the result array ends holding the convolution (Spec) of the phase images,
  weight matrix and bias column computed from the arguments, viewed [32,128,32,32]; the arguments end unchanged.
  The frame run leaves the region's output array at what the grid points wrote back and the reshape after the
  region applied to it; the region's three inputs are what the host lines before it compute from the arguments.
-/
import proofs.«108493_g2000305290246543_pallasbulk_170_5_alg».proof.Proof.RefArray
import proofs.«108493_g2000305290246543_pallasbulk_170_5_alg».proof.Proof.RefHost

noncomputable section

open Idealize.ShloMosaic Idealize.ShloMosaic.TcCoe Idealize.SL.Sem
open Idealize.ShloMosaic.ValueIdx

namespace Cert.ReferenceIdeal.RefValue

open Cert.ReferenceIdeal Cert.ReferenceIdeal.Gen Cert.ReferenceIdeal.GenP Cert.Conv

/-- Every weakly fair execution at the extended reals terminates with the result array at the convolution of the
    arguments' phase images, weight matrix and bias column, and with the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v8)
        = shapeCast S32x128x32x32
            (convArr
              (fun b q i j => phases (m ((c.tc : Thread nD τ).loc main_arg0)) (ix4 b q i j))
              (fun oc k => wmat (m ((c.tc : Thread nD τ).loc main_arg1)) (ix2 oc k))
              (fun oc => bcol (m ((c.tc : Thread nD τ).loc main_arg2)) (ix2 oc (0 : Fin 1))))
            Facts₀.shapeCasts_S32x128x1024_S32x128x32x32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ⟨?_, ?_, ?_, ?_⟩) (GenP.run_main m ρ)
  · refine ((h c).2 main_v8 (Pipeline.mem_restRefs_of main_v8 (by decide) (by decide))).trans ((tail_eq m c).trans ?_)
    refine congrArg (fun A => shapeCast S32x128x32x32 A Facts₀.shapeCasts_S32x128x1024_S32x128x32x32) ((final m c).trans ?_)
    unfold arr
    rw [V_phases m c, V_wmat m c, V_bcol m c]
  · exact ((h c).2 main_arg0 (Pipeline.mem_restRefs_of main_arg0 (by decide) (by decide))).trans (W_main_arg0 m (GenP.dats m) c)
  · exact ((h c).2 main_arg1 (Pipeline.mem_restRefs_of main_arg1 (by decide) (by decide))).trans (W_main_arg1 m (GenP.dats m) c)
  · exact ((h c).2 main_arg2 (Pipeline.mem_restRefs_of main_arg2 (by decide) (by decide))).trans (W_main_arg2 m (GenP.dats m) c)

end Cert.ReferenceIdeal.RefValue

end
-- ==== Proof.Bridge.lean ====
/-
  The two programs hand the same three arrays to their regions, entry by entry.

  Both split the zero-padded input into the same array Z of shape [32, 2, 2, 128, 33, 33] (batch, row parity, column
  parity, channel, row, column).  The kernel program views Z as [32, 512, 1089] (each 33 × 33 image flat, 33·i + j),
  pads every line with 63 zeros to 1152 and narrows the format; the reference views Z as [32, 512, 33, 33].  Entry
  (b, q, 33·i + j) of the first and entry (b, q, i, j) of the second are the entry of Z at the same row-major
  position, ((b·512 + q)·33 + i)·33 + j, namely Z (b, q/256, q/128 % 2, q % 128, i, j); the padding is not met because
  33·i + j ≤ 1088, and at the extended reals the change of format is the identity.  The weight matrices and the bias
  columns are the same terms up to that change of format.
-/
import proofs.«108493_g2000305290246543_pallasbulk_170_5_alg».proof.Proof.KDefs
import proofs.«108493_g2000305290246543_pallasbulk_170_5_alg».proof.Proof.RefDefs
import proofs.«108493_g2000305290246543_pallasbulk_170_5_alg».proof.Proof.Spec
import Idealize.ShloMosaic.Lib.KernelVsHost
import Idealize.ShloMosaic.Lib.Pipeline.Value
import Idealize.ShloMosaic.Lib.ValueIdxRank6

noncomputable section

namespace Cert.Bridge

open Idealize.ShloMosaic Idealize.ShloMosaic.ValueIdx

/-- The entry of the split array that stacked channel `q = 256·py + 128·px + c`, row `i`, column `j` of batch
    element `b` is. -/
abbrev src (b : Fin 32) (q : Fin 512) (i j : Fin 33) : (⟨6, ![32, 2, 2, 128, 33, 33]⟩ : Shape).Idx :=
  ix6 b (⟨q.val / 256, by omega⟩ : Fin 2) (⟨q.val / 128 % 2, by omega⟩ : Fin 2) (⟨q.val % 128, by omega⟩ : Fin 128) i j

/-- The flat view [32, 512, 1089] at (b, q, 33·i + j) is the split array at `src b q i j`. -/
theorem flatCast_apply {α : Type} (Z : (⟨6, ![32, 2, 2, 128, 33, 33]⟩ : Shape).Idx → α)
    (h : (⟨6, ![32, 2, 2, 128, 33, 33]⟩ : Shape).ShapeCasts ⟨3, ![32, 512, 1089]⟩)
    (b : Fin 32) (q : Fin 512) (i j : Fin 33) (n : Fin 1089) (hn : n.val = 33 * i.val + j.val) :
    shapeCast ⟨3, ![32, 512, 1089]⟩ Z h (ix3 b q n) = Z (src b q i j) := by
  refine shapeCast_apply Z h _ _ ?_
  rw [Shape.rowMajor_val_six, Shape.rowMajor_val_three]
  show ((((b.val * 2 + q.val / 256) * 2 + q.val / 128 % 2) * 128 + q.val % 128) * 33 + i.val) * 33 + j.val
    = (b.val * 512 + q.val) * 1089 + n.val
  omega

/-- The image view [32, 512, 33, 33] at (b, q, i, j) is the split array at `src b q i j`. -/
theorem gridCast_apply {α : Type} (Z : (⟨6, ![32, 2, 2, 128, 33, 33]⟩ : Shape).Idx → α)
    (h : (⟨6, ![32, 2, 2, 128, 33, 33]⟩ : Shape).ShapeCasts ⟨4, ![32, 512, 33, 33]⟩)
    (b : Fin 32) (q : Fin 512) (i j : Fin 33) :
    shapeCast ⟨4, ![32, 512, 33, 33]⟩ Z h (ix4 b q i j) = Z (src b q i j) := by
  refine shapeCast_apply Z h _ _ ?_
  rw [Shape.rowMajor_val_six, Shape.rowMajor_val_four]
  show ((((b.val * 2 + q.val / 256) * 2 + q.val / 128 % 2) * 128 + q.val % 128) * 33 + i.val) * 33 + j.val
    = ((b.val * 512 + q.val) * 33 + i.val) * 33 + j.val
  omega

/-- A line of 1089 padded at its end to 1152, read inside the line. -/
theorem linePad_apply {α : Type} (Y : (⟨3, ![32, 512, 1089]⟩ : Shape).Idx → α) {u : Shape} (v : u.Idx → α)
    (h : (⟨3, ![32, 512, 1089]⟩ : Shape).Pads (![0, 0, 0] : Fin 3 → Nat) ![0, 0, 63] ![0, 0, 0] ⟨3, ![32, 512, 1152]⟩)
    (hu : 0 < u.numel) (b : Fin 32) (q : Fin 512) (n : Fin 1089) (n' : Fin 1152) (hn : n'.val = n.val) :
    pad ⟨3, ![32, 512, 1152]⟩ ![0, 0, 0] ![0, 0, 63] ![0, 0, 0] Y v h hu (ix3 b q n') = Y (ix3 b q n) := by
  refine pad_apply_of_inside _ _ _ Y v h hu _ _ fun a => ?_
  match a with
  | ⟨0, _⟩ => show b.val = 0 + b.val * (0 + 1); omega
  | ⟨1, _⟩ => show q.val = 0 + q.val * (0 + 1); omega
  | ⟨2, _⟩ => show n'.val = 0 + n.val * (0 + 1); omega

/-- The two programs split the padded input into the same array. -/
theorem split_eq (x : FVec Ideal Cert.KernelIdeal.S32x128x64x64 .f32) :
    Cert.ReferenceIdeal.RefValue.split x = Cert.KernelIdeal.KValue.split x := rfl

/-- The phase images: the kernel program's flat, padded, narrowed lines hold the reference's 33 × 33 images. -/
theorem phases_eq (x : FVec Ideal Cert.KernelIdeal.S32x128x64x64 .f32) (b : Fin 32) (q : Fin 512) (i j : Fin 33) :
    Cert.KernelIdeal.KValue.phases x (ix3 b q (Cert.Conv.flat i j))
      = Cert.ReferenceIdeal.RefValue.phases x (ix4 b q i j) := by
  have hi := i.isLt
  have hj := j.isLt
  unfold Cert.KernelIdeal.KValue.phases Cert.ReferenceIdeal.RefValue.phases
  rw [split_eq x]
  generalize Cert.KernelIdeal.KValue.split x = Z
  rw [truncf_apply]
  refine (linePad_apply _ _ _ _ b q (⟨33 * i.val + j.val, by omega⟩ : Fin 1089) (Cert.Conv.flat i j) rfl).trans ?_
  exact (flatCast_apply Z _ b q i j _ rfl).trans (gridCast_apply Z _ b q i j).symm

/-- The weight matrices. -/
theorem wmat_eq (w : FVec Ideal Cert.KernelIdeal.S128x128x3x3 .f32) (oc : Fin 128) (k : Fin 1152) :
    Cert.KernelIdeal.KValue.wmat w (ix2 oc k) = Cert.ReferenceIdeal.RefValue.wmat w (ix2 oc k) := rfl

/-- The bias columns. -/
theorem bcol_eq (v : FVec Ideal Cert.KernelIdeal.S128 .f32) (oc : Fin 128) :
    Cert.KernelIdeal.KValue.bcol v (ix2 oc (0 : Fin 1)) = Cert.ReferenceIdeal.RefValue.bcol v (ix2 oc (0 : Fin 1)) := rfl

end Cert.Bridge

end
-- ==== Proof.lean ====
/-
  The two programs compute one function at the extended reals.

  Both split the zero-padded input into four 33 × 33 phase images per channel and compute, for every batch element,
  output channel and output pixel, the sum over the 1152 (tap, input channel) pairs of weight × phase-image entry,
  plus the bias (Proof/Spec.lean).  The kernel program keeps each phase image as a flat line and its im2col matrix
  in rows of 33 with one unused column; the reference keeps images and rows of 32.  Each program's run is read as
  that sum of its own region inputs (Proof/KValue.lean, Proof/RefValue.lean); the two programs' region inputs agree
  entry by entry (Proof/Bridge.lean: a flat line's place 33·i + j is the image's entry (i, j); narrowing to bf16 is
  the identity on extended reals), so the sums are term by term the same — no algebraic law is used, and the
  precondition is not needed.  The frames are the generated ones (the reference's in Proof/RefFrame.lean).
-/
import proofs.«108493_g2000305290246543_pallasbulk_170_5_alg».proof.Defs
import proofs.«108493_g2000305290246543_pallasbulk_170_5_alg».proof.Proof.Gen.Kernel
import proofs.«108493_g2000305290246543_pallasbulk_170_5_alg».proof.Proof.Gen.Kernel.Frame
import proofs.«108493_g2000305290246543_pallasbulk_170_5_alg».proof.Proof.Gen.KernelIdeal
import proofs.«108493_g2000305290246543_pallasbulk_170_5_alg».proof.Proof.Gen.KernelIdeal.Frame
import proofs.«108493_g2000305290246543_pallasbulk_170_5_alg».proof.Proof.Gen.ReferenceIdeal
import proofs.«108493_g2000305290246543_pallasbulk_170_5_alg».proof.Proof.RefFrame
import proofs.«108493_g2000305290246543_pallasbulk_170_5_alg».proof.Proof.Gen.Pre_finite_inputs
import proofs.«108493_g2000305290246543_pallasbulk_170_5_alg».proof.Proof.KValue
import proofs.«108493_g2000305290246543_pallasbulk_170_5_alg».proof.Proof.RefValue
import proofs.«108493_g2000305290246543_pallasbulk_170_5_alg».proof.Proof.Bridge
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.GenP.frame m ρ

/-- The ideal pass rewrote nothing. -/
theorem preserves : Cert.preserves_Kernel_KernelIdeal := trivial

/-- Both result arrays end at the convolution sum of region inputs that agree entry by entry. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun r h c => ⟨(h c).1.trans ?_, (h c).2⟩)
    (Cert.ReferenceIdeal.RefValue.run m' ρ')
  rw [(hagree c).1, (hagree c).2.1, (hagree c).2.2]
  refine congrArg (fun A => shapeCast Cert.KernelIdeal.S32x128x32x32 A
    Cert.KernelIdeal.Facts₀.shapeCasts_S32x128x1024_S32x128x32x32) ?_
  funext y
  unfold Cert.Conv.convArr Cert.Conv.conv
  refine congrArg₂ (· + ·) (Finset.sum_congr rfl fun k _ => ?_) ?_
  · exact (congrArg₂ (· * ·) (Cert.Bridge.wmat_eq _ (y 1) k)
      (Cert.Bridge.phases_eq _ (y 0) (Cert.Conv.chan k) (Cert.Conv.prow k (y 2)) (Cert.Conv.pcol k (y 2)))).symm
  · exact (Cert.Bridge.bcol_eq _ (y 1)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
